-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S1024x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x512 .f32) (main_arg3 : FVec F S512 .f32) (main_arg4 : FVec F S1024x512 .f32) (main_arg5 : FVec F S512 .f32) (main_arg6 : FVec F S512x512 .f32) (main_arg7 : FVec F S512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x512 : Shape := ⟨2, ![1024, 512]⟩
abbrev S512 : Shape := ⟨1, ![512]⟩
abbrev S512x512 : Shape := ⟨2, ![512, 512]⟩
abbrev S8192x512 : Shape := ⟨2, ![8192, 512]⟩
abbrev S8192x1 : Shape := ⟨2, ![8192, 1]⟩
abbrev S2048x1024 : Shape := ⟨2, ![2048, 1024]⟩
abbrev S2048x512 : Shape := ⟨2, ![2048, 512]⟩
abbrev S2048x1 : Shape := ⟨2, ![2048, 1]⟩
abbrev S1x512 : Shape := ⟨2, ![1, 512]⟩
abbrev S2048 : Shape := ⟨1, ![2048]⟩
abbrev S1x8192 : Shape := ⟨2, ![1, 8192]⟩
abbrev S1x2048 : Shape := ⟨2, ![1, 2048]⟩
abbrev S2048x2048 : Shape := ⟨2, ![2048, 2048]⟩

abbrev nBuf : Space → Nat
  | .hbm => 17
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1024x512, .bf16⟩
  | .hbm, ⟨9, _⟩ => ⟨S1024x512, .bf16⟩
  | .hbm, ⟨10, _⟩ => ⟨S512x512, .bf16⟩
  | .hbm, ⟨11, _⟩ => ⟨S8192x512, .bf16⟩
  | .hbm, ⟨12, _⟩ => ⟨S8192x1, .f32⟩
  | .hbm, ⟨13, _⟩ => ⟨S8192x512, .bf16⟩
  | .hbm, ⟨14, _⟩ => ⟨S8192x1, .f32⟩
  | .hbm, ⟨15, _⟩ => ⟨S1x8192, .f32⟩
  | .hbm, ⟨16, _⟩ => ⟨S8192x512, .f32⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S512, .f32⟩
  | .local _ .vmem, ⟨4, _⟩ => ⟨S2048x512, .bf16⟩
  | .local _ .vmem, ⟨5, _⟩ => ⟨S2048x512, .bf16⟩
  | .local _ .vmem, ⟨6, _⟩ => ⟨S2048x1, .f32⟩
  | .local _ .vmem, ⟨7, _⟩ => ⟨S2048x1, .f32⟩
  | .local _ .vmem, ⟨8, _⟩ => ⟨S2048x1024, .f32⟩
  | .local _ .vmem, ⟨9, _⟩ => ⟨S2048x1024, .f32⟩
  | .local _ .vmem, ⟨10, _⟩ => ⟨S1024x512, .bf16⟩
  | .local _ .vmem, ⟨11, _⟩ => ⟨S512, .f32⟩
  | .local _ .vmem, ⟨12, _⟩ => ⟨S2048x512, .bf16⟩
  | .local _ .vmem, ⟨13, _⟩ => ⟨S2048x512, .bf16⟩
  | .local _ .vmem, ⟨14, _⟩ => ⟨S2048x1, .f32⟩
  | .local _ .vmem, ⟨15, _⟩ => ⟨S2048x1, .f32⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S2048x1, .f32⟩
  | .local _ .vmem, ⟨21, _⟩ => ⟨S2048x1, .f32⟩
  | .local _ .vmem, ⟨22, _⟩ => ⟨S1x2048, .f32⟩
  | .local _ .vmem, ⟨23, _⟩ => ⟨S1x2048, .f32⟩
  | .local _ .vmem, ⟨24, _⟩ => ⟨S512x512, .bf16⟩
  | .local _ .vmem, ⟨25, _⟩ => ⟨S512, .f32⟩
  | .local _ .vmem, ⟨26, _⟩ => ⟨S2048x512, .f32⟩
  | .local _ .vmem, ⟨27, _⟩ => ⟨S2048x512, .f32⟩
  | .local _ .vmem, ⟨28, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_14 : BitVec 32 := 0#32
  let v27 : BitVec 1 := Scalar.cmpi .ne v26 c0_i32_14
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S512x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S2048x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  shapeCasts_S8192x1_S1x8192 : S8192x1.ShapeCasts S1x8192
  shapeCasts_S2048x512_S2048x512 : S2048x512.ShapeCasts S2048x512
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S2048x1024_S1024x512_S2048x512_1_0_0_1_n_n_wf : DotDims.WF S2048x1024 S1024x512 S2048x512 [1] [0] [0] [1] [] []
  dot_S2048x512_S2048x512_S2048x2048_1_1_0_0_n_n_wf : DotDims.WF S2048x512 S2048x512 S2048x2048 [1] [1] [0] [0] [] []
  dot_S2048x2048_S2048x512_S2048x512_0_0_1_1_n_n_wf : DotDims.WF S2048x2048 S2048x512 S2048x512 [0] [0] [1] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x512.size a
  hwx0_3 : ∀ i : grid0.Coords, EltTy.bits .bf16 = 32 ∨ (Rect.block (s := S8192x512) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .f32 = 32 ∨ (Rect.block (s := S8192x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S8192x512.size a
  hwx1_3 : ∀ i : grid1.Coords, EltTy.bits .bf16 = 32 ∨ (Rect.block (s := S8192x512) S2048x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S8192x1.size a
  hwx1_4 : ∀ i : grid1.Coords, EltTy.bits .f32 = 32 ∨ (Rect.block (s := S8192x1) S2048x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x512.size a
  hwx2_0 : ∀ i : grid2.Coords, EltTy.bits .bf16 = 32 ∨ (Rect.block (s := S8192x512) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S8192x512.size a
  hwx2_1 : ∀ i : grid2.Coords, EltTy.bits .bf16 = 32 ∨ (Rect.block (s := S8192x512) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x8192.size a
  hwx2_3 : ∀ i : grid2.Coords, EltTy.bits .f32 = 32 ∨ (Rect.block (s := S1x8192) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .bf16 = 32 ∨ (Rect.block (s := S512x512) S512x512.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512.size a ≤ S512.size a
  hwx2_5 : ∀ i : grid2.Coords, EltTy.bits .f32 = 32 ∨ (Rect.block (s := S512) S512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x512.size a ≤ S8192x512.size a
  hwx2_6 : ∀ i : grid2.Coords, EltTy.bits .f32 = 32 ∨ (Rect.block (s := S8192x512) S2048x512.size (cc2_transform_6 i) (hinb2_6 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf
def dot_S2048x2048_S2048x512_S2048x512_0_0_1_1_n_n : DotDims S2048x2048 S2048x512 S2048x512 where
  lhsContracting := [0]
  rhsContracting := [0]
  lhsNonContracting := [1]
  rhsNonContracting := [1]
  lhsBatch := []
  rhsBatch := []
  wf := dot_S2048x2048_S2048x512_S2048x512_0_0_1_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S2048x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S2048x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v3_0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_0) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_1) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S2048x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x512 : Shape := ⟨2, ![1024, 512]⟩
abbrev S512 : Shape := ⟨1, ![512]⟩
abbrev S512x512 : Shape := ⟨2, ![512, 512]⟩
abbrev S8192x512 : Shape := ⟨2, ![8192, 512]⟩
abbrev S1x512 : Shape := ⟨2, ![1, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S512x8192, .f32⟩
  | .hbm, ⟨17, _⟩ => ⟨S8192x8192, .f32⟩
  | .hbm, ⟨18, _⟩ => ⟨S8192x512, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S1x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x8192_S8192x8192_1_0 : S8192x8192.Transposes [1, 0] S8192x8192
  bcast_S_S8192x512 : S_.BroadcastsInDim S8192x512 (![] : Fin 0 → Fin S8192x512.rank)
  dot_S8192x1024_S1024x512_S8192x512_1_0_0_1_n_n_wf : DotDims.WF S8192x1024 S1024x512 S8192x512 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.KProj.lean ====
/- The projection kernels' separation-logic halves (pallas_calls 0 and 1 of @main): per region, at the
   TensorCore's buffer contents on entry (the parameter V), each window's block at a grid point, what the
   body leaves in each of its two output buffers as a function of the three input blocks, the body's triple,
   the pipeline's proof data and its body obligation. The body loads its three input buffers whole and stores
   each output buffer whole, once. -/
import proofs.«157034_j27058293964889_1_alg».proof.Proof.Gen.Kernel.Launch
import proofs.«157034_j27058293964889_1_alg».proof.Proof.Gen.Kernel.Skeleton
import proofs.«157034_j27058293964889_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-- The offsets of a whole-buffer access of a rank-2 buffer are all zero. -/
theorem off2_zero : (![0, 0] : Fin 2 → ℕ) = fun _ => 0 := by
  funext a; match a with | ⟨0, _⟩ => rfl | ⟨1, _⟩ => rfl
/-- The offset of a whole-buffer access of a rank-1 buffer is zero. -/
theorem off1_zero : (![0] : Fin 1 → ℕ) = fun _ => 0 := by
  funext a; match a with | ⟨0, _⟩ => rfl

/-! # REGION 0 of @main: pallas_call 0, the projection kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point (it is fetched at every point), for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (it is fetched at
    the first point only: unfetched, the block index has not moved), for any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (first point only),
    for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x1024 := Rect.unit (s := S2048x1024) ![0, 0] S2048x1024.size inb_S2048x1024_S2048x1024_0_0
abbrev r0_1 : Rect S1024x512 := Rect.unit (s := S1024x512) ![0, 0] S1024x512.size inb_S1024x512_S1024x512_0_0
abbrev r0_2 : Rect S512 := Rect.unit (s := S512) ![0] S512.size inb_S512_S512_0
abbrev r0_3 : Rect S2048x1 := Rect.unit (s := S2048x1) ![0, 0] S2048x1.size inb_S2048x1_S2048x1_0_0
abbrev r0_4 : Rect S2048x512 := Rect.unit (s := S2048x512) ![0, 0] S2048x512.size inb_S2048x512_S2048x512_0_0

/-! ## What the body leaves in each output window's buffer -/

/-- Window 3's staging buffer after the body, from the input windows' blocks: its one store (the projected rows,
    rounded to bf16). -/
def out0_3 (x0 : Vec F S2048x1024 .f32) (x1 : Vec F S1024x512 .bf16) (x2 : Vec F S512 .f32) : Vec F S2048x512 .bf16 :=
  View.canon [⟨r0_4, k0_pay3 (View.ld x0 r0_0) (View.ld x1 r0_1) (View.ld x2 r0_2)⟩]

/-- Its one store covers the buffer. -/
theorem cover0_3 (p0 : Vec F S2048x512 .bf16) (y : S2048x512.Idx) :
    ∃ pc ∈ ([⟨r0_4, p0⟩] : List (View.Piece (Elt F) S2048x512 .bf16)), y ∈ pc.1.set :=
  ⟨_, List.mem_singleton_self _, View.mem_set_unit_zero (S := S2048x512) off2_zero inb_S2048x512_S2048x512_0_0 y⟩

/-- Window 4's staging buffer after the body, from the input windows' blocks: its one store (the rows' squared
    norms, as a column). -/
def out0_4 (x0 : Vec F S2048x1024 .f32) (x1 : Vec F S1024x512 .bf16) (x2 : Vec F S512 .f32) : Vec F S2048x1 .f32 :=
  View.canon [⟨r0_3, k0_pay2 (View.ld x0 r0_0) (View.ld x1 r0_1) (View.ld x2 r0_2)⟩]

/-- Its one store covers the buffer. -/
theorem cover0_4 (p0 : Vec F S2048x1 .f32) (y : S2048x1.Idx) :
    ∃ pc ∈ ([⟨r0_3, p0⟩] : List (View.Piece (Elt F) S2048x1 .f32)), y ∈ pc.1.set :=
  ⟨_, List.mem_singleton_self _, View.mem_set_unit_zero (S := S2048x1) off2_zero inb_S2048x1_S2048x1_0_0 y⟩

/-- A whole-buffer store read back whole is its payload, and a whole-buffer load reads the contents: window 3's
    buffer after the body is the rounded projection of the three input blocks. -/
theorem out0_3_eq (x0 : Vec F S2048x1024 .f32) (x1 : Vec F S1024x512 .bf16) (x2 : Vec F S512 .f32) :
    out0_3 x0 x1 x2 = k0_pay3 x0 x1 x2 := by
  unfold out0_3
  rw [View.canon_unit_zero (S := S2048x512) off2_zero inb_S2048x512_S2048x512_0_0,
    View.ld_unit_zero (S := S2048x1024) off2_zero inb_S2048x1024_S2048x1024_0_0,
    View.ld_unit_zero (S := S1024x512) off2_zero inb_S1024x512_S1024x512_0_0,
    View.ld_unit_zero (S := S512) off1_zero inb_S512_S512_0]

/-- The same of window 4: its buffer after the body is the column of squared norms of the three input blocks'
    projection. -/
theorem out0_4_eq (x0 : Vec F S2048x1024 .f32) (x1 : Vec F S1024x512 .bf16) (x2 : Vec F S512 .f32) :
    out0_4 x0 x1 x2 = k0_pay2 x0 x1 x2 := by
  unfold out0_4
  rw [View.canon_unit_zero (S := S2048x1) off2_zero inb_S2048x1_S2048x1_0_0,
    View.ld_unit_zero (S := S2048x1024) off2_zero inb_S2048x1024_S2048x1024_0_0,
    View.ld_unit_zero (S := S1024x512) off2_zero inb_S1024x512_S1024x512_0_0,
    View.ld_unit_zero (S := S512) off1_zero inb_S512_S512_0]

/-! ## The body's triple -/

set_option maxHeartbeats 1000000 in
/-- The kernel body on whole staging memrefs, the inputs' at read contents `x0 x1 x2` and the outputs' at anything,
    runs to the continuation holding the inputs' as they were and each output's at `out0_W` of the inputs'. -/
theorem sound_kernel0 (c : Dev nD) (E : Set ℕ) (i : grid0.Coords) (arg1 : Memref sig .tc .vmem S2048x1024 .f32) (harg1 : arg1.IsWhole) (arg2 : Memref sig .tc .vmem S1024x512 .bf16) (harg2 : arg2.IsWhole) (arg3 : Memref sig .tc .vmem S512 .f32) (harg3 : arg3.IsWhole) (arg4 : Memref sig .tc .vmem S2048x512 .bf16) (harg4 : arg4.IsWhole) (arg5 : Memref sig .tc .vmem S2048x1 .f32) (harg5 : arg5.IsWhole)
    (x0 : Vec F S2048x1024 .f32) (x1 : Vec F S1024x512 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1 of @main: pallas_call 1, the projection kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point (it is fetched at every point), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (it is fetched at
    the first point only: unfetched, the block index has not moved), for any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (first point only),
    for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x1024 := Rect.unit (s := S2048x1024) ![0, 0] S2048x1024.size inb_S2048x1024_S2048x1024_0_0
abbrev r1_1 : Rect S1024x512 := Rect.unit (s := S1024x512) ![0, 0] S1024x512.size inb_S1024x512_S1024x512_0_0
abbrev r1_2 : Rect S512 := Rect.unit (s := S512) ![0] S512.size inb_S512_S512_0
abbrev r1_3 : Rect S2048x1 := Rect.unit (s := S2048x1) ![0, 0] S2048x1.size inb_S2048x1_S2048x1_0_0
abbrev r1_4 : Rect S2048x512 := Rect.unit (s := S2048x512) ![0, 0] S2048x512.size inb_S2048x512_S2048x512_0_0

/-! ## What the body leaves in each output window's buffer -/

/-- Window 3's staging buffer after the body, from the input windows' blocks: its one store (the projected rows,
    rounded to bf16). -/
def out1_3 (x0 : Vec F S2048x1024 .f32) (x1 : Vec F S1024x512 .bf16) (x2 : Vec F S512 .f32) : Vec F S2048x512 .bf16 :=
  View.canon [⟨r1_4, k1_pay3 (View.ld x0 r1_0) (View.ld x1 r1_1) (View.ld x2 r1_2)⟩]

/-- Its one store covers the buffer. -/
theorem cover1_3 (p0 : Vec F S2048x512 .bf16) (y : S2048x512.Idx) :
    ∃ pc ∈ ([⟨r1_4, p0⟩] : List (View.Piece (Elt F) S2048x512 .bf16)), y ∈ pc.1.set :=
  ⟨_, List.mem_singleton_self _, View.mem_set_unit_zero (S := S2048x512) off2_zero inb_S2048x512_S2048x512_0_0 y⟩

/-- Window 4's staging buffer after the body, from the input windows' blocks: its one store (the rows' squared
    norms, as a column). -/
def out1_4 (x0 : Vec F S2048x1024 .f32) (x1 : Vec F S1024x512 .bf16) (x2 : Vec F S512 .f32) : Vec F S2048x1 .f32 :=
  View.canon [⟨r1_3, k1_pay2 (View.ld x0 r1_0) (View.ld x1 r1_1) (View.ld x2 r1_2)⟩]

/-- Its one store covers the buffer. -/
theorem cover1_4 (p0 : Vec F S2048x1 .f32) (y : S2048x1.Idx) :
    ∃ pc ∈ ([⟨r1_3, p0⟩] : List (View.Piece (Elt F) S2048x1 .f32)), y ∈ pc.1.set :=
  ⟨_, List.mem_singleton_self _, View.mem_set_unit_zero (S := S2048x1) off2_zero inb_S2048x1_S2048x1_0_0 y⟩

/-- A whole-buffer store read back whole is its payload, and a whole-buffer load reads the contents: window 3's
    buffer after the body is the rounded projection of the three input blocks. -/
theorem out1_3_eq (x0 : Vec F S2048x1024 .f32) (x1 : Vec F S1024x512 .bf16) (x2 : Vec F S512 .f32) :
    out1_3 x0 x1 x2 = k1_pay3 x0 x1 x2 := by
  unfold out1_3
  rw [View.canon_unit_zero (S := S2048x512) off2_zero inb_S2048x512_S2048x512_0_0,
    View.ld_unit_zero (S := S2048x1024) off2_zero inb_S2048x1024_S2048x1024_0_0,
    View.ld_unit_zero (S := S1024x512) off2_zero inb_S1024x512_S1024x512_0_0,
    View.ld_unit_zero (S := S512) off1_zero inb_S512_S512_0]

/-- The same of window 4: its buffer after the body is the column of squared norms of the three input blocks'
    projection. -/
theorem out1_4_eq (x0 : Vec F S2048x1024 .f32) (x1 : Vec F S1024x512 .bf16) (x2 : Vec F S512 .f32) :
    out1_4 x0 x1 x2 = k1_pay2 x0 x1 x2 := by
  unfold out1_4
  rw [View.canon_unit_zero (S := S2048x1) off2_zero inb_S2048x1_S2048x1_0_0,
    View.ld_unit_zero (S := S2048x1024) off2_zero inb_S2048x1024_S2048x1024_0_0,
    View.ld_unit_zero (S := S1024x512) off2_zero inb_S1024x512_S1024x512_0_0,
    View.ld_unit_zero (S := S512) off1_zero inb_S512_S512_0]

/-! ## The body's triple -/

set_option maxHeartbeats 1000000 in
/-- The kernel body on whole staging memrefs, the inputs' at read contents `x0 x1 x2` and the outputs' at anything,
    runs to the continuation holding the inputs' as they were and each output's at `out1_W` of the inputs'. -/
theorem sound_kernel1 (c : Dev nD) (E : Set ℕ) (i : grid1.Coords) (arg1 : Memref sig .tc .vmem S2048x1024 .f32) (harg1 : arg1.IsWhole) (arg2 : Memref sig .tc .vmem S1024x512 .bf16) (harg2 : arg2.IsWhole) (arg3 : Memref sig .tc .vmem S512 .f32) (harg3 : arg3.IsWhole) (arg4 : Memref sig .tc .vmem S2048x512 .bf16) (harg4 : arg4.IsWhole) (arg5 : Memref sig .tc .vmem S2048x1 .f32) (harg5 : arg5.IsWhole)
    (x0 : Vec F S2048x1024 .f32) (x1 : Vec F S1024x512 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__proj_kernel i arg1 harg1 arg2 harg2 arg3 harg3 arg4 harg4 arg5 harg5) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KAggBase.lean ====
/-
  The aggregation kernel (region 2 of the program) on its 4 × 4 grid: which of its two branches a grid point takes,
  where its output window is idle, its staging memrefs and its scratch accumulator as the pipeline names them, and each
  input window's block at a point. A point (j, i) — block j of the y-nodes, block i of the x-nodes — has position
  4·j + i; the accumulator is cleared where i = 0 and the output block is computed and stored where i = 3.
-/
import proofs.«157034_j27058293964889_1_alg».proof.Proof.Gen.Kernel.Launch
import proofs.«157034_j27058293964889_1_alg».proof.Proof.Gen.Kernel.Skeleton
import proofs.«157034_j27058293964889_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, its
    block index has not moved since the point that fetched it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, its
    block index has not moved since the point that fetched it). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, its
    block index has not moved since the point that fetched it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, its
    block index has not moved since the point that fetched it). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, its
    block index has not moved since the point that fetched it). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, its
    block index has not moved since the point that fetched it). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- The accumulator is cleared: the inner coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The output block is computed and stored: the inner coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Where the output block is not stored the output window is idle, and its block is not written back there. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The staging memrefs and the scratch accumulator -/

abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x512 .f32 := win2_6.stage (cfg2.slots t 6)
abbrev hs2_6 (t : Fin cfg2.N) : (ms2_6 t).IsWhole := hstage2_6 ((cfg2.slots t 6).cast nbuf2_6)
/-- The scratch accumulator: a whole scoped buffer of the kernel's own. -/
abbrev scM2_0 : Memref sig .tc .vmem S2048x512 .f32 := Memref.whole cc2_scratch0
/-- One staging buffer of the output window, and the scratch, as views through which contents are stated. -/
abbrev VO2_6 : View sig .tc .vmem S2048x512 .f32 := (Memref.whole cc2_stg6_0 : Memref sig .tc .vmem S2048x512 .f32).view
abbrev VS2_0 : View sig .tc .vmem S2048x512 .f32 := scM2_0.view

/-- The core's scoped buffers that the aggregation kernel never touches (the staging buffers of the two projection
    kernels), each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant hands out the untouched scoped buffers, the scratch as a memref owned at some contents, and
    the generator register; -/
theorem PhiA2_out (c : Dev nD) :
    (Pipeline.ΦA spec2 c : sProp 𝕄) ⊢ iprop(others2 c ∗ (∃ d, owns (c : Thread nD τ) scM2_0 fullShare d) ∗ (∃ r, prngReg c r)) := by
  unfold Pipeline.ΦA others2; rw [scopedRest2_eq]; simp only [scM2_0, owns_whole]
  iintro ⟨⟨H0, H1, H2, H3, H4, H5, H6, H7, H8, H9, H10, H11, H12, H13, H14, H15, HS⟩, Hg⟩
  isplitl [H0 H1 H2 H3 H4 H5 H6 H7 H8 H9 H10 H11 H12 H13 H14 H15]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [HS]; · iexact HS
  iexact Hg

/-- and takes them back. -/
theorem PhiA2_in (c : Dev nD) :
    iprop(others2 c ∗ (∃ d, owns (c : Thread nD τ) scM2_0 fullShare d) ∗ (∃ r, prngReg c r)) ⊢ (Pipeline.ΦA spec2 c : sProp 𝕄) := by
  unfold Pipeline.ΦA others2; rw [scopedRest2_eq]; simp only [scM2_0, owns_whole]
  iintro ⟨⟨H0, H1, H2, H3, H4, H5, H6, H7, H8, H9, H10, H11, H12, H13, H14, H15⟩, HS, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HS
  iexact Hg

end Cert.Kernel.Hand

end
-- ==== Proof.KAggRunA.lean ====
/-
  The aggregation kernel's body where the accumulator is cleared and the output is not stored (inner coordinate 0): run on whole memrefs, the four streamed inputs at their contents and the scratch at anything, it leaves the inputs as they were and the scratch with the pieces its stores wrote; the pieces are found by running the body.
-/
import proofs.«157034_j27058293964889_1_alg».proof.Proof.KAggBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch in this case, with the body's triple. -/
noncomputable def kernelRun2_A (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : cond2_0 i) (hc1 : ¬cond2_1 i)
    (x0 : Vec F S2048x512 .bf16) (x1 : Vec F S2048x512 .bf16) (x2 : Vec F S2048x1 .f32) (x3 : Vec F S1x2048 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KAggRunB.lean ====
/-
  The aggregation kernel's body where the accumulator is kept and the output is not stored (inner coordinate 1 or 2): run on whole memrefs, the four streamed inputs and the scratch at their contents, it leaves the inputs as they were and the scratch with the pieces its store wrote; the pieces are found by running the body.
-/
import proofs.«157034_j27058293964889_1_alg».proof.Proof.KAggBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the scratch in this case, with the body's triple. -/
noncomputable def kernelRun2_B (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : ¬cond2_1 i)
    (x0 : Vec F S2048x512 .bf16) (x1 : Vec F S2048x512 .bf16) (x2 : Vec F S2048x1 .f32) (x3 : Vec F S1x2048 .f32) (xs0 : Vec F S2048x512 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KAggRunC.lean ====
/-
  The aggregation kernel's body where the accumulator is kept and the output block is computed and stored (inner coordinate 3): run on whole memrefs, the six inputs and the scratch at their contents and the output at anything, it leaves the inputs as they were and the scratch and the output with the pieces its stores wrote; the pieces are found by running the body.
-/
import proofs.«157034_j27058293964889_1_alg».proof.Proof.KAggBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output and in the scratch in this case, with the body's triple. -/
noncomputable def kernelRun2_C (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) :
    Σ' (L6 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    iexists _; iexact HS0

end Cert.Kernel.Hand

end
-- ==== Proof.KAgg.lean ====
/-
  The aggregation kernel's frame data: what its scratch accumulator and its output window's staging buffer hold after
  every grid point, by recursion on the point's position (the accumulator restarts where the inner coordinate is 0 and
  otherwise continues from what the point before left; the output block is produced where the inner coordinate is 3),
  the region invariant that carries the accumulator between points, the pipeline's proof data, and the body obligation
  at a generic point by cases on the two branch conditions.
-/
import proofs.«157034_j27058293964889_1_alg».proof.Proof.KAggRunA
import proofs.«157034_j27058293964889_1_alg».proof.Proof.KAggRunB
import proofs.«157034_j27058293964889_1_alg».proof.Proof.KAggRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output window's buffer at the points where the kernel stores nothing into it: nothing
    consults it, the window being idle and not written back there. -/
def idleOut2 : Vec F S2048x512 .f32 := VO2_6.read (Elt F) VO2_6.junk

theorem scover2_A (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : cond2_0 i) (hc1 : ¬cond2_1 i)
    (x0 : Vec F S2048x512 .bf16) (x1 : Vec F S2048x512 .bf16) (x2 : Vec F S2048x1 .f32) (x3 : Vec F S1x2048 .f32) (y : S2048x512.Idx) :
    ∃ pc ∈ (kernelRun2_A c i arg2 harg2 arg3 harg3 arg4 harg4 arg5 harg5 arg6 harg6 arg7 harg7 arg8 harg8 arg9 harg9 hc0 hc1 x0 x1 x2 x3).1, y ∈ pc.1.set :=
  View.cover_of_tiledL (kernelRun2_A c i arg2 harg2 arg3 harg3 arg4 harg4 arg5 harg5 arg6 harg6 arg7 harg7 arg8 harg8 arg9 harg9 hc0 hc1 x0 x1 x2 x3).1 S2048x512.size (by sl_kernel_rfl) y
/-- What the clearing case leaves in the accumulator. -/
def sout2_A (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : cond2_0 i) (hc1 : ¬cond2_1 i)
    (x0 : Vec F S2048x512 .bf16) (x1 : Vec F S2048x512 .bf16) (x2 : Vec F S2048x1 .f32) (x3 : Vec F S1x2048 .f32) : Vec F S2048x512 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3).1)

theorem scover2_B (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : ¬cond2_1 i)
    (x0 : Vec F S2048x512 .bf16) (x1 : Vec F S2048x512 .bf16) (x2 : Vec F S2048x1 .f32) (x3 : Vec F S1x2048 .f32) (xs0 : Vec F S2048x512 .f32) (y : S2048x512.Idx) :
    ∃ pc ∈ (kernelRun2_B c i arg2 harg2 arg3 harg3 arg4 harg4 arg5 harg5 arg6 harg6 arg7 harg7 arg8 harg8 arg9 harg9 hc0 hc1 x0 x1 x2 x3 xs0).1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0).1 S2048x512.size (by sl_kernel_rfl) y
/-- What the continuing case leaves in the accumulator. -/
def sout2_B (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : ¬cond2_1 i)
    (x0 : Vec F S2048x512 .bf16) (x1 : Vec F S2048x512 .bf16) (x2 : Vec F S2048x1 .f32) (x3 : Vec F S1x2048 .f32) (xs0 : Vec F S2048x512 .f32) : Vec F S2048x512 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 xs0).1)

theorem cover2_C_6 (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) (y : S2048x512.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S2048x512.size (by sl_kernel_rfl) y
/-- What the storing case leaves in the output window's staging buffer. -/
def out2_C_6 (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) : Vec F S2048x512 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)
theorem scover2_C (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) (y : S2048x512.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S2048x512.size (by sl_kernel_rfl) y
/-- What the storing case leaves in the accumulator. -/
def sout2_C (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) : Vec F S2048x512 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

/-! ## What the output's buffer and the accumulator hold after each point -/

/-- After the body at position `n`: the output window's staging buffer, then the accumulator. -/
def outsAt2 (c : Dev nD) : (n : ℕ) → n < cfg2.N → Vec F S2048x512 .f32 × Vec F S2048x512 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => by have h3 := (hcond2_1 ⟨0, hn⟩).mp h; (try dsimp only at h3); omega) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => by have h3 := (hcond2_1 ⟨n + 1, hn⟩).mp h; (try dsimp only at h3); omega) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- At a clearing point. -/
theorem outsAt2_A (c : Dev nD) (t : Fin cfg2.N) (h0 : t.val % 4 = 0) (h1 : ¬t.val % 4 = 3) :
    outsAt2 V c t.val t.isLt = (idleOut2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans rfl

/-- At a continuing point: over what the point before left. -/
theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a storing point: over what the point before left. -/
theorem outsAt2_C (c : Dev nD) (t : Fin cfg2.N) (h0 : ¬t.val % 4 = 0) (h1 : t.val % 4 = 3) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant (every scoped buffer at anything, the generator
    register at some state); afterwards the same with the accumulator at what the point before left in it. -/
def PhiS2 (c : Dev nD) : (n : ℕ) → n ≤ cfg2.N → sProp 𝕄
  | 0, _ => Pipeline.ΦA spec2 c
  | n + 1, hn => iprop(others2 c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(others2 c ∗ owns (c : Thread nD τ) scM2_0 fullShare ((outsAt2 V c n hn).2) ∗ (∃ r, prngReg c r)) := rfl
theorem PhiS2_pos (c : Dev nD) (n : ℕ) (h : n ≤ cfg2.N) (hz : n ≠ 0) :
    PhiS2 V c n h = iprop(others2 c ∗ owns (c : Thread nD τ) scM2_0 fullShare ((outsAt2 V c (n - 1) (by omega)).2) ∗ (∃ r, prngReg c r)) := by
  cases n with
  | zero => exact absurd rfl hz
  | succ n => rfl

/-! ## The pipeline's proof data -/

/-- The arrays as the region finds them; after the body each input's buffer at its block and the output's at
    `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point: the inputs' memrefs hold their blocks; the two closed forms say which case the point is in;
    the invariant hands the body the accumulator (at anything at the first point, else at what the point before left) and
    takes it back at this point's contents; the scoped buffers of the other kernels, the generator register and the
    core's dues pass through untouched; where the output is not stored its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 4 = 0
  · have h1 : ¬t.val % 4 = 3 := by omega
    rw [Dat.leavesExact_idle (dat2 V c) 6 t (idleAt2_6 t (fun h => h1 ((hcond2_1 t).mp h))) (noFlush2_6 t (fun h => h1 ((hcond2_1 t).mp h)))]
    rw [outsAt2_A V c t h0 h1]
    unfold sout2_A; (try dsimp only)
    by_cases hz : t.val = 0
    · rw [PhiS2_castSucc V c t, PhiS2_zero V c _ _ hz]
      iintro ⟨HP, Ho, ⟨%d0, H0⟩, ⟨%d1, H1⟩, ⟨%d2, H2⟩, ⟨%d3, H3⟩, ⟨%d4, H4⟩, ⟨%d5, H5⟩, H6⟩
      ihave HP2 := (PhiA2_out (F := F) c) $$ HP
      icases HP2 with ⟨Hoth, HS0, Hg⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_A c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS2_castSucc V c t, PhiS2_pos V c _ _ hz]
      iintro ⟨⟨Hoth, HS0, Hg⟩, Ho, ⟨%d0, H0⟩, ⟨%d1, H1⟩, ⟨%d2, H2⟩, ⟨%d3, H3⟩, ⟨%d4, H4⟩, ⟨%d5, H5⟩, H6⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2 Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_A c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun e => h0 (by rw [e])
    rw [PhiS2_castSucc V c t, PhiS2_pos V c _ _ hz]
    by_cases h1 : t.val % 4 = 3
    · rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold out2_C_6 sout2_C; (try dsimp only)
      iintro ⟨⟨Hoth, HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_C c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [Dat.leavesExact_idle (dat2 V c) 6 t (idleAt2_6 t (fun h => h1 ((hcond2_1 t).mp h))) (noFlush2_6 t (fun h => h1 ((hcond2_1 t).mp h)))]
      rw [outsAt2_B V c t h0 h1]
      unfold sout2_B; (try dsimp only)
      iintro ⟨⟨Hoth, HS0, Hg⟩, Ho, ⟨%d0, H0⟩, ⟨%d1, H1⟩, ⟨%d2, H2⟩, ⟨%d3, H3⟩, ⟨%d4, H4⟩, ⟨%d5, H5⟩, H6⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_B c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨Hoth, HS0, Hg⟩
  iapply (PhiA2_in (F := F) c)
  isplitl [Hoth]; · iexact Hoth
  isplitl [HS0]; · iexists _; iexact HS0
  iexact Hg

theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.KRunK.lean ====
/-
  The whole program's run: its five items in order — three format conversions of the weight matrices on the host, the
  projection of the x-nodes, the projection of the y-nodes, the host reshape of the y-norms column into a row, the
  aggregation — with the contents of every unscoped buffer named at each boundary by a fold from the launch memory: a
  host stretch applies its operations, a kernel region replaces its output arrays by what its write-backs leave and keeps
  every other buffer. Every weakly fair execution terminates, faults nowhere, and ends with every unscoped buffer at the
  last boundary's contents; read at an argument array that is the launch contents.
-/
import proofs.«157034_j27058293964889_1_alg».proof.Proof.KProj
import proofs.«157034_j27058293964889_1_alg».proof.Proof.KAgg
import proofs.«157034_j27058293964889_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the weight conversions (the first projection's entry). -/
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b

/-- At region 0's exit: its arrays at what the pipeline leaves (each output's write-backs folded, the inputs as entered),
    every other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- At region 1's exit: its arrays at what the pipeline leaves (each output's write-backs folded, the inputs as entered),
    every other buffer as entered. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)
/-- After the reshape of the y-norms (the aggregation's entry). -/
abbrev W4 : Dev nD → Valuation τ sig (Elt F) := fun c => StableHlo.after hostOps2 (W3 m ρ c)
abbrev Vr4 : (c : Dev nD) → (b : Ref sig .tc) → Buf (Elt F) ((c : Thread nD τ).loc b) := fun c b => W4 m ρ c b

/-- At region 2's exit: its arrays at what the pipeline leaves (each output's write-backs folded, the inputs as entered),
    every other buffer as entered. -/
def W5 (c : Dev nD) : Valuation τ sig (Elt F) :=
  Pipeline.withArrays spec2 c (W4 m ρ c) fun w => (dat2 (Vr4 m ρ) c).arrAt w cfg2.N
theorem W5_arr (c : Dev nD) (w : Fin cfg2.W) :
    W5 m ρ c (Proc.devRef .tc (Pipeline.arrRef spec2 w)) = (dat2 (Vr4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev Vr5 : (c : Dev nD) → (b : Ref sig .tc) → Buf (Elt F) ((c : Thread nD τ).loc b) := fun c b => W5 m ρ c b
theorem hF2 (c : Dev nD) (w : Fin cfg2.W) : (dat2 (Vr4 m ρ) c).arrAt w cfg2.N = Vr5 m ρ c (Pipeline.arrRef spec2 w) :=
  (W5_arr m ρ c w).symm
theorem hrest2 (c : Dev nD) : ∀ b, b ∉ Finset.univ.image (Pipeline.arrRef spec2) → Vr5 m ρ c b = Vr4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := (W2_arr m ρ c 0).trans (((dat0 (Vr1 m ρ) c).arrAt_in 0 rfl _).trans (A_eq0 (Vr1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_writes_sub hostOps2 _ hostOps2_writes (by decide : main_arg1 ∉ hostOps2_W)
    _ = W2 m ρ c (Proc.devRef .tc main_arg1) := (W3_arr m ρ c 0).trans (((dat1 (Vr2 m ρ) c).arrAt_in 0 rfl _).trans (A_eq1 (Vr2 m ρ) c 0))
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := (W2_arr m ρ c 2).trans (((dat0 (Vr1 m ρ) c).arrAt_in 2 rfl _).trans (A_eq0 (Vr1 m ρ) c 2))
    _ = W0 m ρ c (Proc.devRef .tc main_arg3) := StableHlo.after_of_writes_sub hostOps0 _ hostOps0_writes (by decide : main_arg3 ∉ hostOps0_W)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps2 _ hostOps2_writes (by decide : main_arg4 ∉ hostOps2_W)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_writes_sub hostOps2 _ hostOps2_writes (by decide : main_arg5 ∉ hostOps2_W)
    _ = W2 m ρ c (Proc.devRef .tc main_arg5) := (W3_arr m ρ c 2).trans (((dat1 (Vr2 m ρ) c).arrAt_in 2 rfl _).trans (A_eq1 (Vr2 m ρ) c 2))
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_writes_sub hostOps2 _ hostOps2_writes (by decide : main_arg6 ∉ hostOps2_W)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := (W5_arr m ρ c 5).trans (((dat2 (Vr4 m ρ) c).arrAt_in 5 rfl _).trans (A_eq2 (Vr4 m ρ) c 5))
    _ = W3 m ρ c (Proc.devRef .tc main_arg7) := StableHlo.after_of_writes_sub hostOps2 _ hostOps2_writes (by decide : main_arg7 ∉ hostOps2_W)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-- The result array ends at what the aggregation's write-backs leave. -/
theorem W5_main_v6 (c : Dev nD) : W5 m ρ c (Proc.devRef .tc main_v6) = (dat2 (Vr4 m ρ) c).arrAt 6 cfg2.N :=
  W5_arr m ρ c 6

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr2 m ρ) c
  | ⟨2, _⟩ => fun c => dat2 (Vr4 m ρ) c
abbrev Vn : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state and the core's dues, none. -/
abbrev Rd (c : Dev nD) : sProp 𝕄 := iprop((∃ r, prngReg c r) ∗ ∃ W, owes (c : Thread nD τ) (0 : CellTallies nD τ sig Unit) W)
/-- A host stretch as a segment over the unscoped references from the contents `W`, `Rd` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vn Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tlast (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the invariant and
    comes back; nothing is owed; the kernel has no semaphore of its own. -/
def reg0 : Pipeline.RegionSeg (pcfgs (F := F)) adm (pdats m ρ) () defs₀ Vn Lz lvz 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ Lz lvz 0 fun _ _ => rfl
  pre c := iprop(StableHlo.held (c : Thread nD τ) (Pipeline.ucRefs τ sig) (W1 m ρ c) ∗ Rd c)
  post c := iprop(StableHlo.held (c : Thread nD τ) (Pipeline.ucRefs τ sig) (W2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the invariant and
    comes back; nothing is owed; the kernel has no semaphore of its own. -/
def reg1 : Pipeline.RegionSeg (pcfgs (F := F)) adm (pdats m ρ) () defs₀ Vn Lz lvz 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ Lz lvz 1 fun _ _ => rfl
  pre c := iprop(StableHlo.held (c : Thread nD τ) (Pipeline.ucRefs τ sig) (W2 m ρ c) ∗ Rd c)
  post c := iprop(StableHlo.held (c : Thread nD τ) (Pipeline.ucRefs τ sig) (W3 m ρ c) ∗ Rd c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are
    split out of the unscoped buffers and put back at the exit contents; the generator register goes into the invariant and
    comes back; nothing is owed; the kernel has no semaphore of its own. -/
def reg2 : Pipeline.RegionSeg (pcfgs (F := F)) adm (pdats m ρ) () defs₀ Vn Lz lvz 2 where
  win := launch2.win.to₀
  block_pos := launch2.block_pos
  stage_whole := launch2.stage_whole
  K := PEmpty
  osem k := k.elim
  ho := Pipeline.OwnSemFacts.none _
  hbody c := (body_obligation2 (Vr4 m ρ) c).loose
  hwaits := Pipeline.hwaits_of_owed_zero _ _ _ _ Lz lvz 2 fun _ _ => rfl
  pre c := iprop(StableHlo.held (c : Thread nD τ) (Pipeline.ucRefs τ sig) (W4 m ρ c) ∗ Rd c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from hout2 (Vr4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr4 m ρ c) (Vr5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev msegs : List (Pipeline.Seg (pcfgs (F := F)) adm (pdats m ρ) () defs₀ Vn Lz lvz) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (msegs m ρ) := (main_chain c).trans (by chain_rfl)

set_option backward.isDefEq.respectTransparency.types false in
/-- THE RUN: from any memory with zero counters, every weakly fair execution of the program terminates, nothing
    faulting, and every final state holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ Vn Lz lvz m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rd c)) (Tₙ := Tlast m ρ)
    (hch := ⟨fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c)⟩) (run m ρ)

end Cert.Kernel.Hand

end
-- ==== Proof.Proj.lean ====
/- The projection kernels' separation-logic halves (pallas_calls 0 and 1 of @main): per region, at the
   TensorCore's buffer contents on entry (the parameter V), each window's block at a grid point, what the
   body leaves in each of its two output buffers as a function of the three input blocks, the body's triple,
   the pipeline's proof data and its body obligation. The body loads its three input buffers whole and stores
   each output buffer whole, once. -/
import proofs.«157034_j27058293964889_1_alg».proof.Proof.Gen.KernelIdeal.Launch
import proofs.«157034_j27058293964889_1_alg».proof.Proof.Gen.KernelIdeal.Skeleton
import proofs.«157034_j27058293964889_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-- The offsets of a whole-buffer access of a rank-2 buffer are all zero. -/
theorem off2_zero : (![0, 0] : Fin 2 → ℕ) = fun _ => 0 := by
  funext a; match a with | ⟨0, _⟩ => rfl | ⟨1, _⟩ => rfl
/-- The offset of a whole-buffer access of a rank-1 buffer is zero. -/
theorem off1_zero : (![0] : Fin 1 → ℕ) = fun _ => 0 := by
  funext a; match a with | ⟨0, _⟩ => rfl

/-! # REGION 0 of @main: pallas_call 0, the projection kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point (it is fetched at every point), for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (it is fetched at
    the first point only: unfetched, the block index has not moved), for any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (first point only),
    for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x1024 := Rect.unit (s := S2048x1024) ![0, 0] S2048x1024.size inb_S2048x1024_S2048x1024_0_0
abbrev r0_1 : Rect S1024x512 := Rect.unit (s := S1024x512) ![0, 0] S1024x512.size inb_S1024x512_S1024x512_0_0
abbrev r0_2 : Rect S512 := Rect.unit (s := S512) ![0] S512.size inb_S512_S512_0
abbrev r0_3 : Rect S2048x1 := Rect.unit (s := S2048x1) ![0, 0] S2048x1.size inb_S2048x1_S2048x1_0_0
abbrev r0_4 : Rect S2048x512 := Rect.unit (s := S2048x512) ![0, 0] S2048x512.size inb_S2048x512_S2048x512_0_0

/-! ## What the body leaves in each output window's buffer -/

/-- Window 3's staging buffer after the body, from the input windows' blocks: its one store (the projected rows,
    rounded to bf16). -/
def out0_3 (x0 : Vec F S2048x1024 .f32) (x1 : Vec F S1024x512 .bf16) (x2 : Vec F S512 .f32) : Vec F S2048x512 .bf16 :=
  View.canon [⟨r0_4, k0_pay3 (View.ld x0 r0_0) (View.ld x1 r0_1) (View.ld x2 r0_2)⟩]

/-- Its one store covers the buffer. -/
theorem cover0_3 (p0 : Vec F S2048x512 .bf16) (y : S2048x512.Idx) :
    ∃ pc ∈ ([⟨r0_4, p0⟩] : List (View.Piece (Elt F) S2048x512 .bf16)), y ∈ pc.1.set :=
  ⟨_, List.mem_singleton_self _, View.mem_set_unit_zero (S := S2048x512) off2_zero inb_S2048x512_S2048x512_0_0 y⟩

/-- Window 4's staging buffer after the body, from the input windows' blocks: its one store (the rows' squared
    norms, as a column). -/
def out0_4 (x0 : Vec F S2048x1024 .f32) (x1 : Vec F S1024x512 .bf16) (x2 : Vec F S512 .f32) : Vec F S2048x1 .f32 :=
  View.canon [⟨r0_3, k0_pay2 (View.ld x0 r0_0) (View.ld x1 r0_1) (View.ld x2 r0_2)⟩]

/-- Its one store covers the buffer. -/
theorem cover0_4 (p0 : Vec F S2048x1 .f32) (y : S2048x1.Idx) :
    ∃ pc ∈ ([⟨r0_3, p0⟩] : List (View.Piece (Elt F) S2048x1 .f32)), y ∈ pc.1.set :=
  ⟨_, List.mem_singleton_self _, View.mem_set_unit_zero (S := S2048x1) off2_zero inb_S2048x1_S2048x1_0_0 y⟩

/-- A whole-buffer store read back whole is its payload, and a whole-buffer load reads the contents: window 3's
    buffer after the body is the rounded projection of the three input blocks. -/
theorem out0_3_eq (x0 : Vec F S2048x1024 .f32) (x1 : Vec F S1024x512 .bf16) (x2 : Vec F S512 .f32) :
    out0_3 x0 x1 x2 = k0_pay3 x0 x1 x2 := by
  unfold out0_3
  rw [View.canon_unit_zero (S := S2048x512) off2_zero inb_S2048x512_S2048x512_0_0,
    View.ld_unit_zero (S := S2048x1024) off2_zero inb_S2048x1024_S2048x1024_0_0,
    View.ld_unit_zero (S := S1024x512) off2_zero inb_S1024x512_S1024x512_0_0,
    View.ld_unit_zero (S := S512) off1_zero inb_S512_S512_0]

/-- The same of window 4: its buffer after the body is the column of squared norms of the three input blocks'
    projection. -/
theorem out0_4_eq (x0 : Vec F S2048x1024 .f32) (x1 : Vec F S1024x512 .bf16) (x2 : Vec F S512 .f32) :
    out0_4 x0 x1 x2 = k0_pay2 x0 x1 x2 := by
  unfold out0_4
  rw [View.canon_unit_zero (S := S2048x1) off2_zero inb_S2048x1_S2048x1_0_0,
    View.ld_unit_zero (S := S2048x1024) off2_zero inb_S2048x1024_S2048x1024_0_0,
    View.ld_unit_zero (S := S1024x512) off2_zero inb_S1024x512_S1024x512_0_0,
    View.ld_unit_zero (S := S512) off1_zero inb_S512_S512_0]

/-! ## The body's triple -/

set_option maxHeartbeats 1000000 in
/-- The kernel body on whole staging memrefs, the inputs' at read contents `x0 x1 x2` and the outputs' at anything,
    runs to the continuation holding the inputs' as they were and each output's at `out0_W` of the inputs'. -/
theorem sound_kernel0 (c : Dev nD) (E : Set ℕ) (i : grid0.Coords) (arg1 : Memref sig .tc .vmem S2048x1024 .f32) (harg1 : arg1.IsWhole) (arg2 : Memref sig .tc .vmem S1024x512 .bf16) (harg2 : arg2.IsWhole) (arg3 : Memref sig .tc .vmem S512 .f32) (harg3 : arg3.IsWhole) (arg4 : Memref sig .tc .vmem S2048x512 .bf16) (harg4 : arg4.IsWhole) (arg5 : Memref sig .tc .vmem S2048x1 .f32) (harg5 : arg5.IsWhole)
    (x0 : Vec F S2048x1024 .f32) (x1 : Vec F S1024x512 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1 of @main: pallas_call 1, the projection kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point (it is fetched at every point), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (it is fetched at
    the first point only: unfetched, the block index has not moved), for any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (first point only),
    for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x1024 := Rect.unit (s := S2048x1024) ![0, 0] S2048x1024.size inb_S2048x1024_S2048x1024_0_0
abbrev r1_1 : Rect S1024x512 := Rect.unit (s := S1024x512) ![0, 0] S1024x512.size inb_S1024x512_S1024x512_0_0
abbrev r1_2 : Rect S512 := Rect.unit (s := S512) ![0] S512.size inb_S512_S512_0
abbrev r1_3 : Rect S2048x1 := Rect.unit (s := S2048x1) ![0, 0] S2048x1.size inb_S2048x1_S2048x1_0_0
abbrev r1_4 : Rect S2048x512 := Rect.unit (s := S2048x512) ![0, 0] S2048x512.size inb_S2048x512_S2048x512_0_0

/-! ## What the body leaves in each output window's buffer -/

/-- Window 3's staging buffer after the body, from the input windows' blocks: its one store (the projected rows,
    rounded to bf16). -/
def out1_3 (x0 : Vec F S2048x1024 .f32) (x1 : Vec F S1024x512 .bf16) (x2 : Vec F S512 .f32) : Vec F S2048x512 .bf16 :=
  View.canon [⟨r1_4, k1_pay3 (View.ld x0 r1_0) (View.ld x1 r1_1) (View.ld x2 r1_2)⟩]

/-- Its one store covers the buffer. -/
theorem cover1_3 (p0 : Vec F S2048x512 .bf16) (y : S2048x512.Idx) :
    ∃ pc ∈ ([⟨r1_4, p0⟩] : List (View.Piece (Elt F) S2048x512 .bf16)), y ∈ pc.1.set :=
  ⟨_, List.mem_singleton_self _, View.mem_set_unit_zero (S := S2048x512) off2_zero inb_S2048x512_S2048x512_0_0 y⟩

/-- Window 4's staging buffer after the body, from the input windows' blocks: its one store (the rows' squared
    norms, as a column). -/
def out1_4 (x0 : Vec F S2048x1024 .f32) (x1 : Vec F S1024x512 .bf16) (x2 : Vec F S512 .f32) : Vec F S2048x1 .f32 :=
  View.canon [⟨r1_3, k1_pay2 (View.ld x0 r1_0) (View.ld x1 r1_1) (View.ld x2 r1_2)⟩]

/-- Its one store covers the buffer. -/
theorem cover1_4 (p0 : Vec F S2048x1 .f32) (y : S2048x1.Idx) :
    ∃ pc ∈ ([⟨r1_3, p0⟩] : List (View.Piece (Elt F) S2048x1 .f32)), y ∈ pc.1.set :=
  ⟨_, List.mem_singleton_self _, View.mem_set_unit_zero (S := S2048x1) off2_zero inb_S2048x1_S2048x1_0_0 y⟩

/-- A whole-buffer store read back whole is its payload, and a whole-buffer load reads the contents: window 3's
    buffer after the body is the rounded projection of the three input blocks. -/
theorem out1_3_eq (x0 : Vec F S2048x1024 .f32) (x1 : Vec F S1024x512 .bf16) (x2 : Vec F S512 .f32) :
    out1_3 x0 x1 x2 = k1_pay3 x0 x1 x2 := by
  unfold out1_3
  rw [View.canon_unit_zero (S := S2048x512) off2_zero inb_S2048x512_S2048x512_0_0,
    View.ld_unit_zero (S := S2048x1024) off2_zero inb_S2048x1024_S2048x1024_0_0,
    View.ld_unit_zero (S := S1024x512) off2_zero inb_S1024x512_S1024x512_0_0,
    View.ld_unit_zero (S := S512) off1_zero inb_S512_S512_0]

/-- The same of window 4: its buffer after the body is the column of squared norms of the three input blocks'
    projection. -/
theorem out1_4_eq (x0 : Vec F S2048x1024 .f32) (x1 : Vec F S1024x512 .bf16) (x2 : Vec F S512 .f32) :
    out1_4 x0 x1 x2 = k1_pay2 x0 x1 x2 := by
  unfold out1_4
  rw [View.canon_unit_zero (S := S2048x1) off2_zero inb_S2048x1_S2048x1_0_0,
    View.ld_unit_zero (S := S2048x1024) off2_zero inb_S2048x1024_S2048x1024_0_0,
    View.ld_unit_zero (S := S1024x512) off2_zero inb_S1024x512_S1024x512_0_0,
    View.ld_unit_zero (S := S512) off1_zero inb_S512_S512_0]

/-! ## The body's triple -/

set_option maxHeartbeats 1000000 in
/-- The kernel body on whole staging memrefs, the inputs' at read contents `x0 x1 x2` and the outputs' at anything,
    runs to the continuation holding the inputs' as they were and each output's at `out1_W` of the inputs'. -/
theorem sound_kernel1 (c : Dev nD) (E : Set ℕ) (i : grid1.Coords) (arg1 : Memref sig .tc .vmem S2048x1024 .f32) (harg1 : arg1.IsWhole) (arg2 : Memref sig .tc .vmem S1024x512 .bf16) (harg2 : arg2.IsWhole) (arg3 : Memref sig .tc .vmem S512 .f32) (harg3 : arg3.IsWhole) (arg4 : Memref sig .tc .vmem S2048x512 .bf16) (harg4 : arg4.IsWhole) (arg5 : Memref sig .tc .vmem S2048x1 .f32) (harg5 : arg5.IsWhole)
    (x0 : Vec F S2048x1024 .f32) (x1 : Vec F S1024x512 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__proj_kernel i arg1 harg1 arg2 harg2 arg3 harg3 arg4 harg4 arg5 harg5) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.AggBase.lean ====
/-
  The aggregation kernel (region 2 of the program) on its 4 × 4 grid: which of its two branches a grid point takes,
  where its output window is idle, its staging memrefs and its scratch accumulator as the pipeline names them, and each
  input window's block at a point. A point (j, i) — block j of the y-nodes, block i of the x-nodes — has position
  4·j + i; the accumulator is cleared where i = 0 and the output block is computed and stored where i = 3.
-/
import proofs.«157034_j27058293964889_1_alg».proof.Proof.Gen.KernelIdeal.Launch
import proofs.«157034_j27058293964889_1_alg».proof.Proof.Gen.KernelIdeal.Skeleton
import proofs.«157034_j27058293964889_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, its
    block index has not moved since the point that fetched it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, its
    block index has not moved since the point that fetched it). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, its
    block index has not moved since the point that fetched it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, its
    block index has not moved since the point that fetched it). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, its
    block index has not moved since the point that fetched it). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, its
    block index has not moved since the point that fetched it). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- The accumulator is cleared: the inner coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The output block is computed and stored: the inner coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Where the output block is not stored the output window is idle, and its block is not written back there. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The staging memrefs and the scratch accumulator -/

abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x512 .f32 := win2_6.stage (cfg2.slots t 6)
abbrev hs2_6 (t : Fin cfg2.N) : (ms2_6 t).IsWhole := hstage2_6 ((cfg2.slots t 6).cast nbuf2_6)
/-- The scratch accumulator: a whole scoped buffer of the kernel's own. -/
abbrev scM2_0 : Memref sig .tc .vmem S2048x512 .f32 := Memref.whole cc2_scratch0
/-- One staging buffer of the output window, and the scratch, as views through which contents are stated. -/
abbrev VO2_6 : View sig .tc .vmem S2048x512 .f32 := (Memref.whole cc2_stg6_0 : Memref sig .tc .vmem S2048x512 .f32).view
abbrev VS2_0 : View sig .tc .vmem S2048x512 .f32 := scM2_0.view

/-- The core's scoped buffers that the aggregation kernel never touches (the staging buffers of the two projection
    kernels), each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant hands out the untouched scoped buffers, the scratch as a memref owned at some contents, and
    the generator register; -/
theorem PhiA2_out (c : Dev nD) :
    (Pipeline.ΦA spec2 c : sProp 𝕄) ⊢ iprop(others2 c ∗ (∃ d, owns (c : Thread nD τ) scM2_0 fullShare d) ∗ (∃ r, prngReg c r)) := by
  unfold Pipeline.ΦA others2; rw [scopedRest2_eq]; simp only [scM2_0, owns_whole]
  iintro ⟨⟨H0, H1, H2, H3, H4, H5, H6, H7, H8, H9, H10, H11, H12, H13, H14, H15, HS⟩, Hg⟩
  isplitl [H0 H1 H2 H3 H4 H5 H6 H7 H8 H9 H10 H11 H12 H13 H14 H15]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [HS]; · iexact HS
  iexact Hg

/-- and takes them back. -/
theorem PhiA2_in (c : Dev nD) :
    iprop(others2 c ∗ (∃ d, owns (c : Thread nD τ) scM2_0 fullShare d) ∗ (∃ r, prngReg c r)) ⊢ (Pipeline.ΦA spec2 c : sProp 𝕄) := by
  unfold Pipeline.ΦA others2; rw [scopedRest2_eq]; simp only [scM2_0, owns_whole]
  iintro ⟨⟨H0, H1, H2, H3, H4, H5, H6, H7, H8, H9, H10, H11, H12, H13, H14, H15⟩, HS, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HS
  iexact Hg

end Cert.KernelIdeal.Hand

end
-- ==== Proof.AggRunA.lean ====
/-
  The aggregation kernel's body where the accumulator is cleared and the output is not stored (inner coordinate 0): run on whole memrefs, the four streamed inputs at their contents and the scratch at anything, it leaves the inputs as they were and the scratch with the pieces its stores wrote; the pieces are found by running the body.
-/
import proofs.«157034_j27058293964889_1_alg».proof.Proof.AggBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch in this case, with the body's triple. -/
noncomputable def kernelRun2_A (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : cond2_0 i) (hc1 : ¬cond2_1 i)
    (x0 : Vec F S2048x512 .bf16) (x1 : Vec F S2048x512 .bf16) (x2 : Vec F S2048x1 .f32) (x3 : Vec F S1x2048 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.AggRunB.lean ====
/-
  The aggregation kernel's body where the accumulator is kept and the output is not stored (inner coordinate 1 or 2): run on whole memrefs, the four streamed inputs and the scratch at their contents, it leaves the inputs as they were and the scratch with the pieces its store wrote; the pieces are found by running the body.
-/
import proofs.«157034_j27058293964889_1_alg».proof.Proof.AggBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the scratch in this case, with the body's triple. -/
noncomputable def kernelRun2_B (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : ¬cond2_1 i)
    (x0 : Vec F S2048x512 .bf16) (x1 : Vec F S2048x512 .bf16) (x2 : Vec F S2048x1 .f32) (x3 : Vec F S1x2048 .f32) (xs0 : Vec F S2048x512 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.AggRunC.lean ====
/-
  The aggregation kernel's body where the accumulator is kept and the output block is computed and stored (inner coordinate 3): run on whole memrefs, the six inputs and the scratch at their contents and the output at anything, it leaves the inputs as they were and the scratch and the output with the pieces its stores wrote; the pieces are found by running the body.
-/
import proofs.«157034_j27058293964889_1_alg».proof.Proof.AggBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output and in the scratch in this case, with the body's triple. -/
noncomputable def kernelRun2_C (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) :
    Σ' (L6 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    iexists _; iexact HS0

end Cert.KernelIdeal.Hand

end
-- ==== Proof.Agg.lean ====
/-
  The aggregation kernel's frame data: what its scratch accumulator and its output window's staging buffer hold after
  every grid point, by recursion on the point's position (the accumulator restarts where the inner coordinate is 0 and
  otherwise continues from what the point before left; the output block is produced where the inner coordinate is 3),
  the region invariant that carries the accumulator between points, the pipeline's proof data, and the body obligation
  at a generic point by cases on the two branch conditions.
-/
import proofs.«157034_j27058293964889_1_alg».proof.Proof.AggRunA
import proofs.«157034_j27058293964889_1_alg».proof.Proof.AggRunB
import proofs.«157034_j27058293964889_1_alg».proof.Proof.AggRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output window's buffer at the points where the kernel stores nothing into it: nothing
    consults it, the window being idle and not written back there. -/
def idleOut2 : Vec F S2048x512 .f32 := VO2_6.read (Elt F) VO2_6.junk

theorem scover2_A (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : cond2_0 i) (hc1 : ¬cond2_1 i)
    (x0 : Vec F S2048x512 .bf16) (x1 : Vec F S2048x512 .bf16) (x2 : Vec F S2048x1 .f32) (x3 : Vec F S1x2048 .f32) (y : S2048x512.Idx) :
    ∃ pc ∈ (kernelRun2_A c i arg2 harg2 arg3 harg3 arg4 harg4 arg5 harg5 arg6 harg6 arg7 harg7 arg8 harg8 arg9 harg9 hc0 hc1 x0 x1 x2 x3).1, y ∈ pc.1.set :=
  View.cover_of_tiledL (kernelRun2_A c i arg2 harg2 arg3 harg3 arg4 harg4 arg5 harg5 arg6 harg6 arg7 harg7 arg8 harg8 arg9 harg9 hc0 hc1 x0 x1 x2 x3).1 S2048x512.size (by sl_kernel_rfl) y
/-- What the clearing case leaves in the accumulator. -/
def sout2_A (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : cond2_0 i) (hc1 : ¬cond2_1 i)
    (x0 : Vec F S2048x512 .bf16) (x1 : Vec F S2048x512 .bf16) (x2 : Vec F S2048x1 .f32) (x3 : Vec F S1x2048 .f32) : Vec F S2048x512 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3).1)

theorem scover2_B (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : ¬cond2_1 i)
    (x0 : Vec F S2048x512 .bf16) (x1 : Vec F S2048x512 .bf16) (x2 : Vec F S2048x1 .f32) (x3 : Vec F S1x2048 .f32) (xs0 : Vec F S2048x512 .f32) (y : S2048x512.Idx) :
    ∃ pc ∈ (kernelRun2_B c i arg2 harg2 arg3 harg3 arg4 harg4 arg5 harg5 arg6 harg6 arg7 harg7 arg8 harg8 arg9 harg9 hc0 hc1 x0 x1 x2 x3 xs0).1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0).1 S2048x512.size (by sl_kernel_rfl) y
/-- What the continuing case leaves in the accumulator. -/
def sout2_B (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : ¬cond2_1 i)
    (x0 : Vec F S2048x512 .bf16) (x1 : Vec F S2048x512 .bf16) (x2 : Vec F S2048x1 .f32) (x3 : Vec F S1x2048 .f32) (xs0 : Vec F S2048x512 .f32) : Vec F S2048x512 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 xs0).1)

theorem cover2_C_6 (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) (y : S2048x512.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S2048x512.size (by sl_kernel_rfl) y
/-- What the storing case leaves in the output window's staging buffer. -/
def out2_C_6 (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) : Vec F S2048x512 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)
theorem scover2_C (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) (y : S2048x512.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S2048x512.size (by sl_kernel_rfl) y
/-- What the storing case leaves in the accumulator. -/
def sout2_C (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) : Vec F S2048x512 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

/-! ## What the output's buffer and the accumulator hold after each point -/

/-- After the body at position `n`: the output window's staging buffer, then the accumulator. -/
def outsAt2 (c : Dev nD) : (n : ℕ) → n < cfg2.N → Vec F S2048x512 .f32 × Vec F S2048x512 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => by have h3 := (hcond2_1 ⟨0, hn⟩).mp h; (try dsimp only at h3); omega) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => by have h3 := (hcond2_1 ⟨n + 1, hn⟩).mp h; (try dsimp only at h3); omega) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- At a clearing point. -/
theorem outsAt2_A (c : Dev nD) (t : Fin cfg2.N) (h0 : t.val % 4 = 0) (h1 : ¬t.val % 4 = 3) :
    outsAt2 V c t.val t.isLt = (idleOut2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans rfl

/-- At a continuing point: over what the point before left. -/
theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a storing point: over what the point before left. -/
theorem outsAt2_C (c : Dev nD) (t : Fin cfg2.N) (h0 : ¬t.val % 4 = 0) (h1 : t.val % 4 = 3) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant (every scoped buffer at anything, the generator
    register at some state); afterwards the same with the accumulator at what the point before left in it. -/
def PhiS2 (c : Dev nD) : (n : ℕ) → n ≤ cfg2.N → sProp 𝕄
  | 0, _ => Pipeline.ΦA spec2 c
  | n + 1, hn => iprop(others2 c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(others2 c ∗ owns (c : Thread nD τ) scM2_0 fullShare ((outsAt2 V c n hn).2) ∗ (∃ r, prngReg c r)) := rfl
theorem PhiS2_pos (c : Dev nD) (n : ℕ) (h : n ≤ cfg2.N) (hz : n ≠ 0) :
    PhiS2 V c n h = iprop(others2 c ∗ owns (c : Thread nD τ) scM2_0 fullShare ((outsAt2 V c (n - 1) (by omega)).2) ∗ (∃ r, prngReg c r)) := by
  cases n with
  | zero => exact absurd rfl hz
  | succ n => rfl

/-! ## The pipeline's proof data -/

/-- The arrays as the region finds them; after the body each input's buffer at its block and the output's at
    `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point: the inputs' memrefs hold their blocks; the two closed forms say which case the point is in;
    the invariant hands the body the accumulator (at anything at the first point, else at what the point before left) and
    takes it back at this point's contents; the scoped buffers of the other kernels, the generator register and the
    core's dues pass through untouched; where the output is not stored its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 4 = 0
  · have h1 : ¬t.val % 4 = 3 := by omega
    rw [Dat.leavesExact_idle (dat2 V c) 6 t (idleAt2_6 t (fun h => h1 ((hcond2_1 t).mp h))) (noFlush2_6 t (fun h => h1 ((hcond2_1 t).mp h)))]
    rw [outsAt2_A V c t h0 h1]
    unfold sout2_A; (try dsimp only)
    by_cases hz : t.val = 0
    · rw [PhiS2_castSucc V c t, PhiS2_zero V c _ _ hz]
      iintro ⟨HP, Ho, ⟨%d0, H0⟩, ⟨%d1, H1⟩, ⟨%d2, H2⟩, ⟨%d3, H3⟩, ⟨%d4, H4⟩, ⟨%d5, H5⟩, H6⟩
      ihave HP2 := (PhiA2_out (F := F) c) $$ HP
      icases HP2 with ⟨Hoth, HS0, Hg⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_A c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS2_castSucc V c t, PhiS2_pos V c _ _ hz]
      iintro ⟨⟨Hoth, HS0, Hg⟩, Ho, ⟨%d0, H0⟩, ⟨%d1, H1⟩, ⟨%d2, H2⟩, ⟨%d3, H3⟩, ⟨%d4, H4⟩, ⟨%d5, H5⟩, H6⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2 Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_A c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun e => h0 (by rw [e])
    rw [PhiS2_castSucc V c t, PhiS2_pos V c _ _ hz]
    by_cases h1 : t.val % 4 = 3
    · rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold out2_C_6 sout2_C; (try dsimp only)
      iintro ⟨⟨Hoth, HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_C c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [Dat.leavesExact_idle (dat2 V c) 6 t (idleAt2_6 t (fun h => h1 ((hcond2_1 t).mp h))) (noFlush2_6 t (fun h => h1 ((hcond2_1 t).mp h)))]
      rw [outsAt2_B V c t h0 h1]
      unfold sout2_B; (try dsimp only)
      iintro ⟨⟨Hoth, HS0, Hg⟩, Ho, ⟨%d0, H0⟩, ⟨%d1, H1⟩, ⟨%d2, H2⟩, ⟨%d3, H3⟩, ⟨%d4, H4⟩, ⟨%d5, H5⟩, H6⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover2_B c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨Hoth, HS0, Hg⟩
  iapply (PhiA2_in (F := F) c)
  isplitl [Hoth]; · iexact Hoth
  isplitl [HS0]; · iexists _; iexact HS0
  iexact Hg

theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.RunK.lean ====
/-
  The whole program's run: its five items in order — three format conversions of the weight matrices on the host, the
  projection of the x-nodes, the projection of the y-nodes, the host reshape of the y-norms column into a row, the
  aggregation — with the contents of every unscoped buffer named at each boundary by a fold from the launch memory: a
  host stretch applies its operations, a kernel region replaces its output arrays by what its write-backs leave and keeps
  every other buffer. Every weakly fair execution terminates, faults nowhere, and ends with every unscoped buffer at the
  last boundary's contents; read at an argument array that is the launch contents.
-/
import proofs.«157034_j27058293964889_1_alg».proof.Proof.Proj
import proofs.«157034_j27058293964889_1_alg».proof.Proof.Agg
import proofs.«157034_j27058293964889_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the weight conversions (the first projection's entry). -/
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b

/-- At region 0's exit: its arrays at what the pipeline leaves (each output's write-backs folded, the inputs as entered),
    every other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- At region 1's exit: its arrays at what the pipeline leaves (each output's write-backs folded, the inputs as entered),
    every other buffer as entered. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)
/-- After the reshape of the y-norms (the aggregation's entry). -/
abbrev W4 : Dev nD → Valuation τ sig (Elt F) := fun c => StableHlo.after hostOps2 (W3 m ρ c)
abbrev Vr4 : (c : Dev nD) → (b : Ref sig .tc) → Buf (Elt F) ((c : Thread nD τ).loc b) := fun c b => W4 m ρ c b

/-- At region 2's exit: its arrays at what the pipeline leaves (each output's write-backs folded, the inputs as entered),
    every other buffer as entered. -/
def W5 (c : Dev nD) : Valuation τ sig (Elt F) :=
  Pipeline.withArrays spec2 c (W4 m ρ c) fun w => (dat2 (Vr4 m ρ) c).arrAt w cfg2.N
theorem W5_arr (c : Dev nD) (w : Fin cfg2.W) :
    W5 m ρ c (Proc.devRef .tc (Pipeline.arrRef spec2 w)) = (dat2 (Vr4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev Vr5 : (c : Dev nD) → (b : Ref sig .tc) → Buf (Elt F) ((c : Thread nD τ).loc b) := fun c b => W5 m ρ c b
theorem hF2 (c : Dev nD) (w : Fin cfg2.W) : (dat2 (Vr4 m ρ) c).arrAt w cfg2.N = Vr5 m ρ c (Pipeline.arrRef spec2 w) :=
  (W5_arr m ρ c w).symm
theorem hrest2 (c : Dev nD) : ∀ b, b ∉ Finset.univ.image (Pipeline.arrRef spec2) → Vr5 m ρ c b = Vr4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := (W2_arr m ρ c 0).trans (((dat0 (Vr1 m ρ) c).arrAt_in 0 rfl _).trans (A_eq0 (Vr1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_writes_sub hostOps2 _ hostOps2_writes (by decide : main_arg1 ∉ hostOps2_W)
    _ = W2 m ρ c (Proc.devRef .tc main_arg1) := (W3_arr m ρ c 0).trans (((dat1 (Vr2 m ρ) c).arrAt_in 0 rfl _).trans (A_eq1 (Vr2 m ρ) c 0))
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := (W2_arr m ρ c 2).trans (((dat0 (Vr1 m ρ) c).arrAt_in 2 rfl _).trans (A_eq0 (Vr1 m ρ) c 2))
    _ = W0 m ρ c (Proc.devRef .tc main_arg3) := StableHlo.after_of_writes_sub hostOps0 _ hostOps0_writes (by decide : main_arg3 ∉ hostOps0_W)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps2 _ hostOps2_writes (by decide : main_arg4 ∉ hostOps2_W)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_writes_sub hostOps2 _ hostOps2_writes (by decide : main_arg5 ∉ hostOps2_W)
    _ = W2 m ρ c (Proc.devRef .tc main_arg5) := (W3_arr m ρ c 2).trans (((dat1 (Vr2 m ρ) c).arrAt_in 2 rfl _).trans (A_eq1 (Vr2 m ρ) c 2))
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_writes_sub hostOps2 _ hostOps2_writes (by decide : main_arg6 ∉ hostOps2_W)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := (W5_arr m ρ c 5).trans (((dat2 (Vr4 m ρ) c).arrAt_in 5 rfl _).trans (A_eq2 (Vr4 m ρ) c 5))
    _ = W3 m ρ c (Proc.devRef .tc main_arg7) := StableHlo.after_of_writes_sub hostOps2 _ hostOps2_writes (by decide : main_arg7 ∉ hostOps2_W)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-- The result array ends at what the aggregation's write-backs leave. -/
theorem W5_main_v6 (c : Dev nD) : W5 m ρ c (Proc.devRef .tc main_v6) = (dat2 (Vr4 m ρ) c).arrAt 6 cfg2.N :=
  W5_arr m ρ c 6

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr2 m ρ) c
  | ⟨2, _⟩ => fun c => dat2 (Vr4 m ρ) c
abbrev Vn : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state and the core's dues, none. -/
abbrev Rd (c : Dev nD) : sProp 𝕄 := iprop((∃ r, prngReg c r) ∗ ∃ W, owes (c : Thread nD τ) (0 : CellTallies nD τ sig Unit) W)
/-- A host stretch as a segment over the unscoped references from the contents `W`, `Rd` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vn Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tlast (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the invariant and
    comes back; nothing is owed; the kernel has no semaphore of its own. -/
def reg0 : Pipeline.RegionSeg (pcfgs (F := F)) adm (pdats m ρ) () defs₀ Vn Lz lvz 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ Lz lvz 0 fun _ _ => rfl
  pre c := iprop(StableHlo.held (c : Thread nD τ) (Pipeline.ucRefs τ sig) (W1 m ρ c) ∗ Rd c)
  post c := iprop(StableHlo.held (c : Thread nD τ) (Pipeline.ucRefs τ sig) (W2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the invariant and
    comes back; nothing is owed; the kernel has no semaphore of its own. -/
def reg1 : Pipeline.RegionSeg (pcfgs (F := F)) adm (pdats m ρ) () defs₀ Vn Lz lvz 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ Lz lvz 1 fun _ _ => rfl
  pre c := iprop(StableHlo.held (c : Thread nD τ) (Pipeline.ucRefs τ sig) (W2 m ρ c) ∗ Rd c)
  post c := iprop(StableHlo.held (c : Thread nD τ) (Pipeline.ucRefs τ sig) (W3 m ρ c) ∗ Rd c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are
    split out of the unscoped buffers and put back at the exit contents; the generator register goes into the invariant and
    comes back; nothing is owed; the kernel has no semaphore of its own. -/
def reg2 : Pipeline.RegionSeg (pcfgs (F := F)) adm (pdats m ρ) () defs₀ Vn Lz lvz 2 where
  win := launch2.win.to₀
  block_pos := launch2.block_pos
  stage_whole := launch2.stage_whole
  K := PEmpty
  osem k := k.elim
  ho := Pipeline.OwnSemFacts.none _
  hbody c := (body_obligation2 (Vr4 m ρ) c).loose
  hwaits := Pipeline.hwaits_of_owed_zero _ _ _ _ Lz lvz 2 fun _ _ => rfl
  pre c := iprop(StableHlo.held (c : Thread nD τ) (Pipeline.ucRefs τ sig) (W4 m ρ c) ∗ Rd c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from hout2 (Vr4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr4 m ρ c) (Vr5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev msegs : List (Pipeline.Seg (pcfgs (F := F)) adm (pdats m ρ) () defs₀ Vn Lz lvz) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (msegs m ρ) := (main_chain c).trans (by chain_rfl)

set_option backward.isDefEq.respectTransparency.types false in
/-- THE RUN: from any memory with zero counters, every weakly fair execution of the program terminates, nothing
    faulting, and every final state holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ Vn Lz lvz m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rd c)) (Tₙ := Tlast m ρ)
    (hch := ⟨fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c)⟩) (run m ρ)

end Cert.KernelIdeal.Hand

end
-- ==== Proof.Spec.lean ====
/-
  The mathematics of the Dice-normalised aggregation, on the extended reals, with no program in sight.

  Two row projections P = x·Wx + bx and Q = y·Wy + by (rows indexed by 8192 nodes, 512 features each); the
  squared norm of a row; the affinity of x-node i and y-node j, twice their inner product over the sum of their
  squared norms; the aggregation over all x-nodes of affinity times the projected row; and the output layer
  max(agg·Wg + bg, 0). Every sum is a finite sum in the additive commutative monoid of the extended reals, so its
  grouping and order never matter; the quotient is the exact division of the extended reals, whatever the divisor.
-/
import Idealize.ShloMosaic.PureOps.Ideal
import Idealize.ShloMosaic.Lib.ValueIdx

noncomputable section

namespace Cert.Dice

open Idealize.ShloMosaic Idealize.ShloMosaic.ValueIdx

/-- A row projection: entry (p, q) of x·W + b for an [n, 1024] matrix x, a [1024, 512] matrix W and a bias b. -/
def lin {n : Nat} (x : (⟨2, ![n, 1024]⟩ : Shape).Idx → EReal) (W : (⟨2, ![1024, 512]⟩ : Shape).Idx → EReal)
    (b : (⟨1, ![512]⟩ : Shape).Idx → EReal) (p : Fin n) (q : Fin 512) : EReal :=
  (∑ k : Fin 1024, x (ix2 p k) * W (ix2 k q)) + b (ix1 q)

/-- The squared norm of row p of a matrix with 512 columns. -/
def nrm {n : Nat} (P : Fin n → Fin 512 → EReal) (p : Fin n) : EReal := ∑ k : Fin 512, P p k * P p k

/-- The literal 2.0 of both programs, as the extended real its f32 word denotes. -/
def two : EReal := Ideal.ofBits .f32 0x40000000#32

/-- The affinity of row i of P and row j of Q given their squared norms d i and e j:
    twice the inner product over the sum of the two squared norms. -/
def aff {n n' : Nat} (P : Fin n → Fin 512 → EReal) (Q : Fin n' → Fin 512 → EReal) (d : Fin n → EReal) (e : Fin n' → EReal)
    (i : Fin n) (j : Fin n') : EReal :=
  Ideal.div (two * ∑ k : Fin 512, P i k * Q j k) (d i + e j)

/-- The aggregation over all rows i of P: entry (j, c) is the sum over i of aff i j times P i c. -/
def agg {n n' : Nat} (P : Fin n → Fin 512 → EReal) (Q : Fin n' → Fin 512 → EReal) (d : Fin n → EReal) (e : Fin n' → EReal)
    (j : Fin n') (c : Fin 512) : EReal :=
  ∑ i : Fin n, aff P Q d e i j * P i c

/-- The output layer on a row g of 512 aggregated features: max(g·Wg + bg, 0) at column o. -/
def outRow (g : Fin 512 → EReal) (Wg : (⟨2, ![512, 512]⟩ : Shape).Idx → EReal) (bg : (⟨1, ![512]⟩ : Shape).Idx → EReal)
    (o : Fin 512) : EReal :=
  max ((∑ c : Fin 512, g c * Wg (ix2 c o)) + bg (ix1 o)) 0

/-- The whole function: the result array [8192, 512] from the eight argument arrays. -/
def G (x y : (⟨2, ![8192, 1024]⟩ : Shape).Idx → EReal) (Wx : (⟨2, ![1024, 512]⟩ : Shape).Idx → EReal)
    (bx : (⟨1, ![512]⟩ : Shape).Idx → EReal) (Wy : (⟨2, ![1024, 512]⟩ : Shape).Idx → EReal)
    (by' : (⟨1, ![512]⟩ : Shape).Idx → EReal) (Wg : (⟨2, ![512, 512]⟩ : Shape).Idx → EReal)
    (bg : (⟨1, ![512]⟩ : Shape).Idx → EReal) : (⟨2, ![8192, 512]⟩ : Shape).Idx → EReal :=
  fun i => outRow (agg (lin x Wx bx) (lin y Wy by') (nrm (lin x Wx bx)) (nrm (lin y Wy by')) (i 0)) Wg bg (i 1)

end Cert.Dice

end
-- ==== Proof.RefValue.lean ====
/-
  The reference program's result, read as the specification.

  Each stage of the reference is read at an index and identified with the corresponding function of the
  specification: the two row projections, the squared norms of their rows, the affinity of an x-node and a
  y-node, the aggregation over the x-nodes, and the output layer. Every sum is read as a finite sum over its
  literal index type and never evaluated.
-/
import proofs.«157034_j27058293964889_1_alg».proof.Proof.Gen.ReferenceIdeal.Read
import proofs.«157034_j27058293964889_1_alg».proof.Proof.Gen.ReferenceIdeal.Run
import proofs.«157034_j27058293964889_1_alg».proof.Proof.Spec

noncomputable section

namespace Cert.Dice.Ref

open Cert.ReferenceIdeal Cert.ReferenceIdeal.Gen Cert.ReferenceIdeal.Read
open Idealize.ShloMosaic Idealize.ShloMosaic.ValueIdx

/-! ## The composed index functions of the stages, at an index given by its coordinates -/

theorem lidx_v0 (p : Fin 8192) (q : Fin 512) (k : Fin 1024) : lidx_main_v0 (ix2 p q) k = ix2 p k :=
  funext fun a => Fin.ext (by match a with | ⟨0, _⟩ => rfl | ⟨1, _⟩ => rfl)
theorem ridx_v0 (p : Fin 8192) (q : Fin 512) (k : Fin 1024) : ridx_main_v0 (ix2 p q) k = ix2 k q :=
  funext fun a => Fin.ext (by match a with | ⟨0, _⟩ => rfl | ⟨1, _⟩ => rfl)
theorem idx_v1_v2 (p : Fin 8192) (q : Fin 512) : idx_main_v1 (idx_main_v2 (ix2 p q)) = ix1 q :=
  funext fun a => Fin.ext (by match a with | ⟨0, _⟩ => rfl)
theorem lidx_v4 (p : Fin 8192) (q : Fin 512) (k : Fin 1024) : lidx_main_v4 (ix2 p q) k = ix2 p k :=
  funext fun a => Fin.ext (by match a with | ⟨0, _⟩ => rfl | ⟨1, _⟩ => rfl)
theorem ridx_v4 (p : Fin 8192) (q : Fin 512) (k : Fin 1024) : ridx_main_v4 (ix2 p q) k = ix2 k q :=
  funext fun a => Fin.ext (by match a with | ⟨0, _⟩ => rfl | ⟨1, _⟩ => rfl)
theorem idx_v5_v6 (p : Fin 8192) (q : Fin 512) : idx_main_v5 (idx_main_v6 (ix2 p q)) = ix1 q :=
  funext fun a => Fin.ext (by match a with | ⟨0, _⟩ => rfl)
theorem idx_v8 (k : Fin 512) (j : Fin 8192) : idx_main_v8 (ix2 k j) = ix2 j k :=
  funext fun a => Fin.ext (by match a with | ⟨0, _⟩ => rfl | ⟨1, _⟩ => rfl)
theorem lidx_v9 (i j : Fin 8192) (k : Fin 512) : lidx_main_v9 (ix2 i j) k = ix2 i k :=
  funext fun a => Fin.ext (by match a with | ⟨0, _⟩ => rfl | ⟨1, _⟩ => rfl)
theorem ridx_v9 (i j : Fin 8192) (k : Fin 512) : ridx_main_v9 (ix2 i j) k = ix2 k j :=
  funext fun a => Fin.ext (by match a with | ⟨0, _⟩ => rfl | ⟨1, _⟩ => rfl)
theorem idx_v11 (p : Fin 8192) (k : Fin 512) : idx_main_v11 (ix1 p) k = ix2 p k :=
  funext fun a => Fin.ext (by match a with | ⟨0, _⟩ => rfl | ⟨1, _⟩ => rfl)
theorem idx_v14 (p : Fin 8192) (k : Fin 512) : idx_main_v14 (ix1 p) k = ix2 p k :=
  funext fun a => Fin.ext (by match a with | ⟨0, _⟩ => rfl | ⟨1, _⟩ => rfl)
theorem idx_v12_v18 (i j : Fin 8192) : idx_main_v12 (idx_main_v18 (ix2 i j)) = ix1 i :=
  funext fun a => Fin.ext (by match a with | ⟨0, _⟩ => rfl)
theorem idx_v15_v19 (i j : Fin 8192) : idx_main_v15 (idx_main_v19 (ix2 i j)) = ix1 j :=
  funext fun a => Fin.ext (by match a with | ⟨0, _⟩ => rfl)
theorem idx_v22 (j i : Fin 8192) : idx_main_v22 (ix2 j i) = ix2 i j :=
  funext fun a => Fin.ext (by match a with | ⟨0, _⟩ => rfl | ⟨1, _⟩ => rfl)
theorem lidx_v23 (j : Fin 8192) (c : Fin 512) (k : Fin 8192) : lidx_main_v23 (ix2 j c) k = ix2 j k :=
  funext fun a => Fin.ext (by match a with | ⟨0, _⟩ => rfl | ⟨1, _⟩ => rfl)
theorem ridx_v23 (j : Fin 8192) (c : Fin 512) (k : Fin 8192) : ridx_main_v23 (ix2 j c) k = ix2 k c :=
  funext fun a => Fin.ext (by match a with | ⟨0, _⟩ => rfl | ⟨1, _⟩ => rfl)
theorem lidx_v24 (j : Fin 8192) (o : Fin 512) (k : Fin 512) : lidx_main_v24 (ix2 j o) k = ix2 j k :=
  funext fun a => Fin.ext (by match a with | ⟨0, _⟩ => rfl | ⟨1, _⟩ => rfl)
theorem ridx_v24 (j : Fin 8192) (o : Fin 512) (k : Fin 512) : ridx_main_v24 (ix2 j o) k = ix2 k o :=
  funext fun a => Fin.ext (by match a with | ⟨0, _⟩ => rfl | ⟨1, _⟩ => rfl)
theorem idx_v25_v26 (p : Fin 8192) (q : Fin 512) : idx_main_v25 (idx_main_v26 (ix2 p q)) = ix1 q :=
  funext fun a => Fin.ext (by match a with | ⟨0, _⟩ => rfl)

variable (x0 x1 : (⟨S8192x1024, .f32⟩ : BufTy).Contents (Elt Ideal))
  (x2 : (⟨S1024x512, .f32⟩ : BufTy).Contents (Elt Ideal)) (x3 : (⟨S512, .f32⟩ : BufTy).Contents (Elt Ideal))
  (x4 : (⟨S1024x512, .f32⟩ : BufTy).Contents (Elt Ideal)) (x5 : (⟨S512, .f32⟩ : BufTy).Contents (Elt Ideal))
  (x6 : (⟨S512x512, .f32⟩ : BufTy).Contents (Elt Ideal)) (x7 : (⟨S512, .f32⟩ : BufTy).Contents (Elt Ideal))

/-! ## The stages -/

/-- The projection of the x-nodes: entry (p, q) of x·Wx + bx. -/
theorem xp_at (p : Fin 8192) (q : Fin 512) :
    val_main_v3 (F := Ideal) x0 x2 x3 (ix2 p q) = lin (n := 8192) x0 x2 x3 p q := by
  rw [val_main_v3_apply, val_main_v0_apply, val_main_v2_apply, val_main_v1_apply]
  simp only [lidx_v0, ridx_v0, idx_v1_v2, Ideal.addf_def, lin]

/-- The projection of the y-nodes: entry (p, q) of y·Wy + by. -/
theorem yp_at (p : Fin 8192) (q : Fin 512) :
    val_main_v7 (F := Ideal) x1 x4 x5 (ix2 p q) = lin (n := 8192) x1 x4 x5 p q := by
  rw [val_main_v7_apply, val_main_v4_apply, val_main_v6_apply, val_main_v5_apply]
  simp only [lidx_v4, ridx_v4, idx_v5_v6, Ideal.addf_def, lin]

/-- The squared norm of row p of the x-projection: the sum from zero of the squares of the row's entries. -/
theorem nrm_x_at (p : Fin 8192) :
    val_main_v11 (F := Ideal) x0 x2 x3 (ix1 p) = nrm (lin (n := 8192) x0 x2 x3) p := by
  rw [val_main_v11_apply, val_main_cst_apply]
  simp only [val_main_v10_apply, idx_v11, xp_at, Ideal.ofBits_def, Ideal.ofBits_zero_f32, Ideal.mulf_def,
    zero_add, nrm]

/-- The squared norm of row p of the y-projection. -/
theorem nrm_y_at (p : Fin 8192) :
    val_main_v14 (F := Ideal) x1 x4 x5 (ix1 p) = nrm (lin (n := 8192) x1 x4 x5) p := by
  rw [val_main_v14_apply, val_main_cst_0_apply]
  simp only [val_main_v13_apply, idx_v14, yp_at, Ideal.ofBits_def, Ideal.ofBits_zero_f32, Ideal.mulf_def,
    zero_add, nrm]

/-- The affinity of x-node i and y-node j: twice the inner product of the two projected rows over the sum of
    their squared norms. -/
theorem aff_at (i j : Fin 8192) :
    val_main_v21 (F := Ideal) x0 x1 x2 x3 x4 x5 (ix2 i j)
      = aff (lin (n := 8192) x0 x2 x3) (lin (n := 8192) x1 x4 x5) (nrm (lin (n := 8192) x0 x2 x3))
          (nrm (lin (n := 8192) x1 x4 x5)) i j := by
  rw [val_main_v21_apply, val_main_v17_apply, val_main_v16_apply, val_main_cst_1_apply, val_main_v9_apply,
    val_main_v20_apply, val_main_v18_apply, val_main_v12_apply, val_main_v19_apply, val_main_v15_apply]
  simp only [val_main_v8_apply, lidx_v9, ridx_v9, idx_v8, idx_v12_v18, idx_v15_v19, xp_at, yp_at, nrm_x_at,
    nrm_y_at, Ideal.hostDivf_def, Ideal.mulf_def, Ideal.addf_def, Ideal.ofBits_def, aff, two]

/-- The aggregation over the x-nodes: entry (j, c) is the sum over i of the affinity of i and j times entry
    (i, c) of the x-projection; the transposed affinity matrix read at (j, i) is the affinity of i and j. -/
theorem agg_at (j : Fin 8192) (c : Fin 512) :
    val_main_v23 (F := Ideal) x0 x1 x2 x3 x4 x5 (ix2 j c)
      = agg (lin (n := 8192) x0 x2 x3) (lin (n := 8192) x1 x4 x5) (nrm (lin (n := 8192) x0 x2 x3))
          (nrm (lin (n := 8192) x1 x4 x5)) j c := by
  rw [val_main_v23_apply]
  simp only [val_main_v22_apply, lidx_v23, ridx_v23, idx_v22, aff_at, xp_at, agg]

/-- The output layer: entry (j, o) is the maximum of row j of the aggregation times Wg plus bg, and zero. -/
theorem out_at (j : Fin 8192) (o : Fin 512) :
    val_main_v28 (F := Ideal) x0 x1 x2 x3 x4 x5 x6 x7 (ix2 j o)
      = outRow (agg (lin (n := 8192) x0 x2 x3) (lin (n := 8192) x1 x4 x5) (nrm (lin (n := 8192) x0 x2 x3))
          (nrm (lin (n := 8192) x1 x4 x5)) j) x6 x7 o := by
  rw [val_main_v28_apply, val_main_v27_apply, val_main_v24_apply, val_main_v26_apply, val_main_v25_apply,
    val_main_call0_v0_apply, val_main_call0_cst_apply]
  simp only [lidx_v24, ridx_v24, idx_v25_v26, agg_at, Ideal.maximumf_def, Ideal.addf_def, Ideal.ofBits_def,
    Ideal.ofBits_zero_f32, outRow]

/-- The reference's last stage is the specification. -/
theorem value : val_main_v28 (F := Ideal) x0 x1 x2 x3 x4 x5 x6 x7 = G x0 x1 x2 x3 x4 x5 x6 x7 := by
  funext i
  obtain ⟨j, o, rfl⟩ : ∃ (j : Fin 8192) (o : Fin 512), i = ix2 j o := ⟨i 0, i 1, eq_ix2 i⟩
  exact out_at x0 x1 x2 x3 x4 x5 x6 x7 j o

end Cert.Dice.Ref

end
-- ==== Proof.RefRun.lean ====
/-
  The reference program's run with its result stated as the specification, and the frame of the reference:
  every weakly fair execution terminates with the result array at the function G of the argument arrays as the
  run found them, and the argument arrays unchanged.
-/
import proofs.«157034_j27058293964889_1_alg».proof.Defs
import proofs.«157034_j27058293964889_1_alg».proof.Proof.Gen.ReferenceIdeal
import proofs.«157034_j27058293964889_1_alg».proof.Proof.Gen.Pre_finite_inputs
import proofs.«157034_j27058293964889_1_alg».proof.Proof.RefValue

noncomputable section

namespace Cert.Dice.Ref

open Idealize.ShloMosaic Idealize.ShloMosaic.TcCoe Idealize.SL.Sem

/-- The reference's run: the result array is the specification's function of the argument arrays, and the
    argument arrays are unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v28)
        = Cert.Dice.G (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono
    (fun _ h c => ⟨(h c).1.trans ((Cert.ReferenceIdeal.Read.val_main_v28_eq _ _ _ _ _ _ _ _).trans (value _ _ _ _ _ _ _ _)), (h c).2⟩)
    (Cert.ReferenceIdeal.Value.run (F := Ideal) m' ρ')

/-- The reference's frame: it runs and leaves its argument arrays unchanged. -/
theorem frame : Cert.frame_ReferenceIdeal := fun m ρ _ =>
  (θ_run Cert.ReferenceIdeal.defs _ _).mono (fun _ h c => (h c).2) (Cert.ReferenceIdeal.Value.run (F := Ideal) m ρ)

end Cert.Dice.Ref

end
-- ==== Proof.LibContractAt.lean ====
/-
  GENERAL LEMMAS: a contraction over ONE axis, read at an output index, as a plain sum over that axis' coordinate,
  whatever the arrangement of the two operands (which axis of each is contracted, whether an operand enters transposed).

  The dimension record of a matrix product names, for an output index j and a contraction index s, one index of each
  operand. When the contraction has a single axis of extent K, the contraction indices are the numbers below K, and the
  product at j is the sum over k : Fin K of l (li k) * r (ri k), where li k and ri k are the two operand indices that the
  record names at j and k. The caller says what li and ri are (two equations per use, usually closed coordinate by
  coordinate); nothing here depends on the shapes.

  * contraction_at: the re-indexing of the sum.
  * matmul_at: the matrix unit's product into a zero accumulator, at j.
  * hostdot_at: the host's dot_general, at j.
  * contr_val: the number a contraction index stands for is its one coordinate.
  Only a change of summation index is used: no law of extended-real arithmetic, so no finiteness.
-/
import Idealize.ShloMosaic.PureOps.Ideal
import Idealize.ShloMosaic.PureOps.Ideal.Laws
import Idealize.ShloMosaic.Lib.ValueIdx

noncomputable section

namespace Cert.LibContractAt

open Idealize.ShloMosaic Idealize.ShloMosaic.ValueIdx
open scoped BigOperators

/-- The number a one-axis contraction index stands for is its one coordinate. -/
theorem contr_val {sl sr so : Shape} (d : DotDims sl sr so) (K : ℕ) (hrank : d.contr.rank = 1)
    (hsize : d.contr.size ⟨0, by omega⟩ = K) (s : d.contr.Idx) :
    ((contrEquiv1 d K hrank hsize s : Fin K) : ℕ) = (s ⟨0, by omega⟩).val := rfl

/-- A one-axis contraction at the output index j is the sum over k of l (li k) * r (ri k), where li and ri are the operand
    indices the record names at j. -/
theorem contraction_at {sl sr so : Shape} (d : DotDims sl sr so) (K : ℕ) (hrank : d.contr.rank = 1)
    (hsize : d.contr.size ⟨0, by omega⟩ = K) (l : sl.Idx → EReal) (r : sr.Idx → EReal) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    ∑ s : d.contr.Idx, l (d.lhsIdx j s) * r (d.rhsIdx j s) = ∑ k : Fin K, l (li k) * r (ri k) := by
  rw [← Equiv.sum_comp (contrEquiv1 d K hrank hsize)]
  exact Finset.sum_congr rfl fun s _ => by rw [hl s, hr s]

/-- The matrix unit's product into a zero accumulator, at j. -/
theorem matmul_at {sl sr so : Shape} (d : DotDims sl sr so) (K : ℕ) (hrank : d.contr.rank = 1)
    (hsize : d.contr.size ⟨0, by omega⟩ = K) {φ₁ φ₂ : FTy} (l : FVec Ideal sl φ₁) (r : FVec Ideal sr φ₂) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    matmul d none l r (constant (F := Ideal) so .f32 0x00000000#32) j = ∑ k : Fin K, l (li k) * r (ri k) :=
  (Ideal.matmul_constant_zero_apply d none l r j).trans (contraction_at d K hrank hsize l r j li ri hl hr)

/-- The host's dot_general, at j. -/
theorem hostdot_at {sl sr so : Shape} (d : DotDims sl sr so) (K : ℕ) (hrank : d.contr.rank = 1)
    (hsize : d.contr.size ⟨0, by omega⟩ = K) (l : FVec Ideal sl .f32) (r : FVec Ideal sr .f32) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    Host.dotGeneral d none l r j = ∑ k : Fin K, l (li k) * r (ri k) :=
  (Ideal.dotGeneral_apply d none .single l r j).trans (contraction_at d K hrank hsize l r j li ri hl hr)

end Cert.LibContractAt

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.PayValue.lean ====
/-
  The arithmetic of the three kernel bodies, read at one entry, on the extended reals.

  Each kernel body's pure values are named terms over the values it loads. Read at an index, with every format change
  the identity, every matrix product into a zero accumulator a plain finite sum and the lane reduction a plain finite
  sum, they are the entries of the specification's functions:

  * the projection body: p = x·W + b at (p, q) is lin; its row-wise sum of squares is nrm of lin;
  * the accumulation body: the zero matrix; the step s + aᵀ·P with a = 2(P·Qᵀ) / (d ⊕ e), which at (j, c) adds
    agg P Q d e j c to s(j, c); and the output layer max(s·Wg + bg, 0), which at (j, o) is outRow of row j of s.

  No law of extended-real arithmetic is used beyond re-indexing finite sums: every factor already stands in the order the
  specification writes it.
-/
import proofs.«157034_j27058293964889_1_alg».proof.Proof.Gen.KernelIdeal.Skeleton
import proofs.«157034_j27058293964889_1_alg».proof.Proof.Spec
import proofs.«157034_j27058293964889_1_alg».proof.Proof.LibContractAt
import proofs.«157034_j27058293964889_1_alg».proof.Proof.LibMatmulRows
import proofs.«157034_j27058293964889_1_alg».proof.Proof.LibBiasRows
import proofs.«157034_j27058293964889_1_alg».proof.Proof.LibLayout
import proofs.«157034_j27058293964889_1_alg».proof.Proof.LibLanes
import Idealize.ShloMosaic.Lib.ValueIdx
import Idealize.ShloMosaic.Lib.Pipeline.Value
import Idealize.ShloMosaic.Lib.ValueLayout
import Idealize.ShloMosaic.PureOps.Ideal.Laws

noncomputable section

namespace Cert.Dice.Pay

open Cert.KernelIdeal Cert.KernelIdeal.Gen Idealize.ShloMosaic Idealize.ShloMosaic.ValueIdx
open scoped BigOperators

/-! ## The projection body -/

/-- The operand indices of the [2048,1024]·[1024,512] product: row of the output and contraction position on the
    left, contraction position and column of the output on the right. -/
theorem dotP_l0 (i : S2048x512.Idx) (s : dot_S2048x1024_S1024x512_S2048x512_1_0_0_1_n_n.contr.Idx) :
    (dot_S2048x1024_S1024x512_S2048x512_1_0_0_1_n_n.lhsIdx i s 0).val = (i 0).val := by
  unfold DotDims.lhsIdx
  rw [dif_neg (show ¬(0 : Fin S2048x1024.rank) ∈ dot_S2048x1024_S1024x512_S2048x512_1_0_0_1_n_n.lhsBatch by decide),
    dif_pos (show (0 : Fin S2048x1024.rank) ∈ dot_S2048x1024_S1024x512_S2048x512_1_0_0_1_n_n.lhsNonContracting by decide)]
  rfl
theorem dotP_l1 (i : S2048x512.Idx) (s : dot_S2048x1024_S1024x512_S2048x512_1_0_0_1_n_n.contr.Idx) :
    (dot_S2048x1024_S1024x512_S2048x512_1_0_0_1_n_n.lhsIdx i s 1).val = (s ⟨0, by decide⟩).val :=
  dot_S2048x1024_S1024x512_S2048x512_1_0_0_1_n_n.lhsIdx_val_of_single rfl i s
theorem dotP_r0 (i : S2048x512.Idx) (s : dot_S2048x1024_S1024x512_S2048x512_1_0_0_1_n_n.contr.Idx) :
    (dot_S2048x1024_S1024x512_S2048x512_1_0_0_1_n_n.rhsIdx i s 0).val = (s ⟨0, by decide⟩).val :=
  dot_S2048x1024_S1024x512_S2048x512_1_0_0_1_n_n.rhsIdx_val_of_single rfl i s
theorem dotP_r1 (i : S2048x512.Idx) (s : dot_S2048x1024_S1024x512_S2048x512_1_0_0_1_n_n.contr.Idx) :
    (dot_S2048x1024_S1024x512_S2048x512_1_0_0_1_n_n.rhsIdx i s 1).val = (i 1).val := by
  unfold DotDims.rhsIdx
  rw [dif_neg (show ¬(1 : Fin S1024x512.rank) ∈ dot_S2048x1024_S1024x512_S2048x512_1_0_0_1_n_n.rhsBatch by decide),
    dif_pos (show (1 : Fin S1024x512.rank) ∈ dot_S2048x1024_S1024x512_S2048x512_1_0_0_1_n_n.rhsNonContracting by decide)]
  rfl

/-- The projection's text — the product of the narrowed block with the weights into a zero accumulator, plus the bias
    cast to one row and laid along the rows — at (p, q) is lin. -/
theorem proj_at (x : FVec Ideal S2048x1024 .f32) (w : FVec Ideal S1024x512 .bf16) (b : FVec Ideal S512 .f32)
    (p : Fin 2048) (q : Fin 512) :
    addf (matmul dot_S2048x1024_S1024x512_S2048x512_1_0_0_1_n_n none
        (truncf .bf16 x bitsLt_bf16_f32 : FVec Ideal S2048x1024 .bf16)
        (shapeCast S1024x512 w shapeCasts_S1024x512_S1024x512) (constant (F := Ideal) S2048x512 .f32 0x00000000#32))
      (broadcastTo S2048x512 (shapeCast S1x512 b shapeCasts_S512_S1x512) broadcasts_S1x512_S2048x512) (ix2 p q)
      = Cert.Dice.lin x w b p q := by
  refine (addf_apply _ _ _).trans ?_
  unfold Cert.Dice.lin
  refine congrArg₂ (· + ·) ?_ ?_
  · rw [shapeCast_self]
    exact Cert.LibMatmulRows.matmul_rows dot_S2048x1024_S1024x512_S2048x512_1_0_0_1_n_n rfl rfl
      dotP_l0 dotP_l1 dotP_r0 dotP_r1 (truncf .bf16 x bitsLt_bf16_f32 : FVec Ideal S2048x1024 .bf16) w p q
  · exact Cert.LibBiasRows.bias_rows b shapeCasts_S512_S1x512 broadcasts_S1x512_S2048x512 p q

/-- The row-wise sum of squares with the reduced axis kept, at (p, u): the sum over the row's entries of the square. -/
theorem sumsq_at (v : FVec Ideal S2048x512 .f32) (hacc : (0x00000000#32 : BitVec 32) = 0x00000000#32)
    (p : Fin 2048) (u : Fin 1) :
    shapeCast S2048x1 (multiReduction (F := Ideal) .add [1] S2048 (mulf v v) 0x00000000#32 reduces_S2048x512_S2048 (.inl rfl) hacc)
        shapeCasts_S2048_S2048x1 (ix2 p u)
      = ∑ k : Fin 512, v (ix2 p k) * v (ix2 p k) := by
  refine (Cert.LibLayout.shapeCast_a_a1_apply _ shapeCasts_S2048_S2048x1 p u).trans ?_
  exact Cert.LibLayout.laneSum_apply (mulf v v) reduces_S2048x512_S2048 (.inl rfl) hacc p

theorem lin0_at (x : Vec Ideal S2048x1024 .f32) (w : Vec Ideal S1024x512 .bf16) (b : Vec Ideal S512 .f32)
    (p : Fin 2048) (q : Fin 512) :
    k0_pay3 (F := Ideal) x w b (ix2 p q) = Cert.Dice.lin x w b p q :=
  proj_at x w b p q

theorem nrm0_at (x : Vec Ideal S2048x1024 .f32) (w : Vec Ideal S1024x512 .bf16) (b : Vec Ideal S512 .f32)
    (p : Fin 2048) (u : Fin 1) :
    k0_pay2 (F := Ideal) x w b (ix2 p u) = Cert.Dice.nrm (Cert.Dice.lin x w b) p := by
  refine (sumsq_at (k0_pay1 (F := Ideal) x w b) rfl p u).trans ?_
  unfold Cert.Dice.nrm
  exact Finset.sum_congr rfl fun k _ => by rw [show k0_pay1 (F := Ideal) x w b (ix2 p k) = _ from proj_at x w b p k]

theorem lin1_at (x : Vec Ideal S2048x1024 .f32) (w : Vec Ideal S1024x512 .bf16) (b : Vec Ideal S512 .f32)
    (p : Fin 2048) (q : Fin 512) :
    k1_pay3 (F := Ideal) x w b (ix2 p q) = Cert.Dice.lin x w b p q :=
  proj_at x w b p q

theorem nrm1_at (x : Vec Ideal S2048x1024 .f32) (w : Vec Ideal S1024x512 .bf16) (b : Vec Ideal S512 .f32)
    (p : Fin 2048) (u : Fin 1) :
    k1_pay2 (F := Ideal) x w b (ix2 p u) = Cert.Dice.nrm (Cert.Dice.lin x w b) p := by
  refine (sumsq_at (k1_pay1 (F := Ideal) x w b) rfl p u).trans ?_
  unfold Cert.Dice.nrm
  exact Finset.sum_congr rfl fun k _ => by rw [show k1_pay1 (F := Ideal) x w b (ix2 p k) = _ from proj_at x w b p k]

/-! ## The accumulation body -/

/-- The accumulator's first value: the zero matrix. -/
theorem zero_at (j : Fin 2048) (c : Fin 512) : k2_pay1 (F := Ideal) (ix2 j c) = 0 := by
  unfold k2_pay1
  simp only [shapeCast_self]
  exact Ideal.ofBits_zero_f32

/-- The operand indices of the lane-by-lane product P·Qᵀ: (row, position) on the left, (column, position) on the right. -/
theorem dotQ_l0 (i : S2048x2048.Idx) (s : dot_S2048x512_S2048x512_S2048x2048_1_1_0_0_n_n.contr.Idx) :
    (dot_S2048x512_S2048x512_S2048x2048_1_1_0_0_n_n.lhsIdx i s 0).val = (i 0).val := by
  unfold DotDims.lhsIdx
  rw [dif_neg (show ¬(0 : Fin S2048x512.rank) ∈ dot_S2048x512_S2048x512_S2048x2048_1_1_0_0_n_n.lhsBatch by decide),
    dif_pos (show (0 : Fin S2048x512.rank) ∈ dot_S2048x512_S2048x512_S2048x2048_1_1_0_0_n_n.lhsNonContracting by decide)]
  rfl
theorem dotQ_l1 (i : S2048x2048.Idx) (s : dot_S2048x512_S2048x512_S2048x2048_1_1_0_0_n_n.contr.Idx) :
    (dot_S2048x512_S2048x512_S2048x2048_1_1_0_0_n_n.lhsIdx i s 1).val = (s ⟨0, by decide⟩).val :=
  dot_S2048x512_S2048x512_S2048x2048_1_1_0_0_n_n.lhsIdx_val_of_single rfl i s
theorem dotQ_r0 (i : S2048x2048.Idx) (s : dot_S2048x512_S2048x512_S2048x2048_1_1_0_0_n_n.contr.Idx) :
    (dot_S2048x512_S2048x512_S2048x2048_1_1_0_0_n_n.rhsIdx i s 0).val = (i 1).val := by
  unfold DotDims.rhsIdx
  rw [dif_neg (show ¬(0 : Fin S2048x512.rank) ∈ dot_S2048x512_S2048x512_S2048x2048_1_1_0_0_n_n.rhsBatch by decide),
    dif_pos (show (0 : Fin S2048x512.rank) ∈ dot_S2048x512_S2048x512_S2048x2048_1_1_0_0_n_n.rhsNonContracting by decide)]
  rfl
theorem dotQ_r1 (i : S2048x2048.Idx) (s : dot_S2048x512_S2048x512_S2048x2048_1_1_0_0_n_n.contr.Idx) :
    (dot_S2048x512_S2048x512_S2048x2048_1_1_0_0_n_n.rhsIdx i s 1).val = (s ⟨0, by decide⟩).val :=
  dot_S2048x512_S2048x512_S2048x2048_1_1_0_0_n_n.rhsIdx_val_of_single rfl i s

/-- The affinity matrix's text at (i, j): twice the inner product of row i of P and row j of Q over d(i) + e(j). -/
theorem aff_at (xp yp : FVec Ideal S2048x512 .bf16) (dc : FVec Ideal S2048x1 .f32) (dr : FVec Ideal S1x2048 .f32)
    (i j : Fin 2048) :
    divf (mulf (broadcast S2048x2048 (Scalar.ofBits (F := Ideal) .f32 0x40000000#32))
          (matmul dot_S2048x512_S2048x512_S2048x2048_1_1_0_0_n_n none xp yp
            (constant (F := Ideal) S2048x2048 .f32 0x00000000#32)))
        (addf (broadcastTo S2048x2048 dc broadcasts_S2048x1_S2048x2048)
          (broadcastTo S2048x2048 dr broadcasts_S1x2048_S2048x2048)) (ix2 i j)
      = Cert.Dice.aff (fun i k => xp (ix2 i k)) (fun j k => yp (ix2 j k)) (fun i => dc (ix2 i 0)) (fun j => dr (ix2 0 j)) i j := by
  refine (divf_apply _ _ _).trans ?_
  unfold Cert.Dice.aff
  refine congrArg₂ Ideal.div ?_ ?_
  · refine (mulf_apply _ _ _).trans ?_
    refine congrArg₂ (· * ·) rfl ?_
    exact Cert.LibLanes.matmul_lanes dot_S2048x512_S2048x512_S2048x2048_1_1_0_0_n_n rfl rfl
      dotQ_l0 dotQ_l1 dotQ_r0 dotQ_r1 xp yp i j
  · refine (addf_apply _ _ _).trans ?_
    refine congrArg₂ (· + ·) ?_ ?_
    · exact Cert.LibLayout.broadcastTo_a1_ab_apply dc broadcasts_S2048x1_S2048x2048 i j
    · exact broadcastTo_1b_ab_apply dr broadcasts_S1x2048_S2048x2048 i j

/-- The operand indices of the product aᵀ·P, which contracts the ROWS of both operands: at the output entry (j, c) and
    the position k they are (k, j) on the left and (k, c) on the right. -/
theorem dotA_l (j : Fin 2048) (c : Fin 512) (s : dot_S2048x2048_S2048x512_S2048x512_0_0_1_1_n_n.contr.Idx) :
    dot_S2048x2048_S2048x512_S2048x512_0_0_1_1_n_n.lhsIdx (ix2 j c) s
      = ix2 (contrEquiv1 dot_S2048x2048_S2048x512_S2048x512_0_0_1_1_n_n 2048 rfl rfl s) j :=
  Cert.LibMatmulRows.idx2_ext _ _
    (dot_S2048x2048_S2048x512_S2048x512_0_0_1_1_n_n.lhsIdx_val_of_single rfl (ix2 j c) s) (by
      unfold DotDims.lhsIdx
      rw [dif_neg (show ¬(1 : Fin S2048x2048.rank) ∈ dot_S2048x2048_S2048x512_S2048x512_0_0_1_1_n_n.lhsBatch by decide),
        dif_pos (show (1 : Fin S2048x2048.rank) ∈ dot_S2048x2048_S2048x512_S2048x512_0_0_1_1_n_n.lhsNonContracting by decide)]
      rfl)
theorem dotA_r (j : Fin 2048) (c : Fin 512) (s : dot_S2048x2048_S2048x512_S2048x512_0_0_1_1_n_n.contr.Idx) :
    dot_S2048x2048_S2048x512_S2048x512_0_0_1_1_n_n.rhsIdx (ix2 j c) s
      = ix2 (contrEquiv1 dot_S2048x2048_S2048x512_S2048x512_0_0_1_1_n_n 2048 rfl rfl s) c :=
  Cert.LibMatmulRows.idx2_ext _ _
    (dot_S2048x2048_S2048x512_S2048x512_0_0_1_1_n_n.rhsIdx_val_of_single rfl (ix2 j c) s) (by
      unfold DotDims.rhsIdx
      rw [dif_neg (show ¬(1 : Fin S2048x512.rank) ∈ dot_S2048x2048_S2048x512_S2048x512_0_0_1_1_n_n.rhsBatch by decide),
        dif_pos (show (1 : Fin S2048x512.rank) ∈ dot_S2048x2048_S2048x512_S2048x512_0_0_1_1_n_n.rhsNonContracting by decide)]
      rfl)

/-- The accumulation step's text at (j, c): the accumulator there plus the sum over the rows i of P of the affinity of
    i and j times P(i, c). -/
theorem accText_at (xp yp : FVec Ideal S2048x512 .bf16) (dc : FVec Ideal S2048x1 .f32) (dr : FVec Ideal S1x2048 .f32)
    (s : FVec Ideal S2048x512 .f32) (j : Fin 2048) (c : Fin 512) :
    addf s
        (matmul dot_S2048x2048_S2048x512_S2048x512_0_0_1_1_n_n none
          (truncf .bf16
            (divf (mulf (broadcast S2048x2048 (Scalar.ofBits (F := Ideal) .f32 0x40000000#32))
                (matmul dot_S2048x512_S2048x512_S2048x2048_1_1_0_0_n_n none xp yp
                  (constant (F := Ideal) S2048x2048 .f32 0x00000000#32)))
              (addf (broadcastTo S2048x2048 dc broadcasts_S2048x1_S2048x2048)
                (broadcastTo S2048x2048 dr broadcasts_S1x2048_S2048x2048)))
            bitsLt_bf16_f32 : FVec Ideal S2048x2048 .bf16)
          xp (constant (F := Ideal) S2048x512 .f32 0x00000000#32)) (ix2 j c)
      = s (ix2 j c) + Cert.Dice.agg (fun i k => xp (ix2 i k)) (fun j k => yp (ix2 j k)) (fun i => dc (ix2 i 0))
          (fun j => dr (ix2 0 j)) j c := by
  refine (addf_apply _ _ _).trans ?_
  refine congrArg (s (ix2 j c) + ·) ?_
  refine (Cert.LibContractAt.matmul_at dot_S2048x2048_S2048x512_S2048x512_0_0_1_1_n_n 2048 rfl rfl _ xp (ix2 j c)
    (fun k => ix2 k j) (fun k => ix2 k c) (dotA_l j c) (dotA_r j c)).trans ?_
  unfold Cert.Dice.agg
  refine Finset.sum_congr rfl fun i _ => ?_
  refine congrArg (· * xp (ix2 i c)) ?_
  exact aff_at xp yp dc dr i j

theorem acc_at (xp yp : Vec Ideal S2048x512 .bf16) (dc : Vec Ideal S2048x1 .f32) (dr : Vec Ideal S1x2048 .f32)
    (s : Vec Ideal S2048x512 .f32) (j : Fin 2048) (c : Fin 512) :
    k2_pay2 (F := Ideal) xp yp dc dr s (ix2 j c)
      = s (ix2 j c) + Cert.Dice.agg (fun i k => xp (ix2 i k)) (fun j k => yp (ix2 j k)) (fun i => dc (ix2 i 0))
          (fun j => dr (ix2 0 j)) j c := by
  unfold k2_pay2
  simp only [shapeCast_self]
  exact accText_at xp yp dc dr s j c

/-! ## The output layer -/

/-- The operand indices of the [2048,512]·[512,512] product. -/
theorem dotG_l0 (i : S2048x512.Idx) (s : dot_S2048x512_S512x512_S2048x512_1_0_0_1_n_n.contr.Idx) :
    (dot_S2048x512_S512x512_S2048x512_1_0_0_1_n_n.lhsIdx i s 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem dotG_l1 (i : S2048x512.Idx) (s : dot_S2048x512_S512x512_S2048x512_1_0_0_1_n_n.contr.Idx) :
    (dot_S2048x512_S512x512_S2048x512_1_0_0_1_n_n.lhsIdx i s 1).val = (s ⟨0, by decide⟩).val :=
  dot_S2048x512_S512x512_S2048x512_1_0_0_1_n_n.lhsIdx_val_of_single rfl i s
theorem dotG_r0 (i : S2048x512.Idx) (s : dot_S2048x512_S512x512_S2048x512_1_0_0_1_n_n.contr.Idx) :
    (dot_S2048x512_S512x512_S2048x512_1_0_0_1_n_n.rhsIdx i s 0).val = (s ⟨0, by decide⟩).val :=
  dot_S2048x512_S512x512_S2048x512_1_0_0_1_n_n.rhsIdx_val_of_single rfl i s
theorem dotG_r1 (i : S2048x512.Idx) (s : dot_S2048x512_S512x512_S2048x512_1_0_0_1_n_n.contr.Idx) :
    (dot_S2048x512_S512x512_S2048x512_1_0_0_1_n_n.rhsIdx i s 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The output layer's text at (j, o): the larger of row j of s against column o of Wg plus the bias at o, and zero. -/
theorem outText_at (s : FVec Ideal S2048x512 .f32) (wg : FVec Ideal S512x512 .bf16) (bg : FVec Ideal S512 .f32)
    (j : Fin 2048) (o : Fin 512) :
    maximumf
        (addf (matmul dot_S2048x512_S512x512_S2048x512_1_0_0_1_n_n none
            (truncf .bf16 s bitsLt_bf16_f32 : FVec Ideal S2048x512 .bf16) wg
            (constant (F := Ideal) S2048x512 .f32 0x00000000#32))
          (broadcastTo S2048x512 (shapeCast S1x512 bg shapeCasts_S512_S1x512) broadcasts_S1x512_S2048x512))
        (broadcast S2048x512 (Scalar.ofBits (F := Ideal) .f32 0x00000000#32)) (ix2 j o)
      = Cert.Dice.outRow (fun c => s (ix2 j c)) wg bg o := by
  refine (maximumf_apply _ _ _).trans ?_
  unfold Cert.Dice.outRow
  refine congrArg₂ max ?_ Ideal.ofBits_zero_f32
  refine (addf_apply _ _ _).trans ?_
  refine congrArg₂ (· + ·) ?_ ?_
  · exact Cert.LibMatmulRows.matmul_rows dot_S2048x512_S512x512_S2048x512_1_0_0_1_n_n rfl rfl
      dotG_l0 dotG_l1 dotG_r0 dotG_r1 (truncf .bf16 s bitsLt_bf16_f32 : FVec Ideal S2048x512 .bf16) wg j o
  · exact Cert.LibBiasRows.bias_rows bg shapeCasts_S512_S1x512 broadcasts_S1x512_S2048x512 j o

theorem out_at (s : Vec Ideal S2048x512 .f32) (wg : Vec Ideal S512x512 .bf16) (bg : Vec Ideal S512 .f32)
    (j : Fin 2048) (o : Fin 512) :
    k2_pay3 (F := Ideal) s wg bg (ix2 j o) = Cert.Dice.outRow (fun c => s (ix2 j c)) wg bg o := by
  unfold k2_pay3
  simp only [shapeCast_self]
  exact outText_at s wg bg j o

end Cert.Dice.Pay

end
-- ==== Proof.ProjValue.lean ====
/- The two projections' output ARRAYS on the extended reals: after each projection region, its first output array
   holds the row projection x·W + b of the whole argument (rows 2048·t + p written by grid point t) and its second
   the rows' squared norms, index by index, as functions of the arrays the region finds on entry. Per region: the
   block index maps decided over the grid, what a point writes back as a block of the whole-array function, the
   blocks' cover of the array by row arithmetic, and the array after the last point. -/
import proofs.«157034_j27058293964889_1_alg».proof.Proof.Proj
import proofs.«157034_j27058293964889_1_alg».proof.Proof.PayValue
import proofs.«157034_j27058293964889_1_alg».proof.Proof.Spec
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

-- the TensorCore's buffer contents when a region is entered
variable (V : (c : Dev nD) → (b : Ref sig .tc) → Buf (Elt Ideal) ((c : Thread nD τ).loc b))

/-! ## The projection of a block of rows is the block of rows of the projection -/

/-- Entry (p, q) of the projection of a block of 2048 rows is entry (r, q') of the projection of the whole matrix
    when row p of the block is row r of the matrix, column q of the block's weights and bias column q' of the whole. -/
theorem lin_rows {n : Nat} (X : (⟨2, ![n, 1024]⟩ : Shape).Idx → EReal) (W : (⟨2, ![1024, 512]⟩ : Shape).Idx → EReal)
    (b : (⟨1, ![512]⟩ : Shape).Idx → EReal)
    (x0 : Vec Ideal S2048x1024 .f32) (x1 : Vec Ideal S1024x512 .bf16) (x2 : Vec Ideal S512 .f32)
    (p : Fin 2048) (r : Fin n) (q q' : Fin 512)
    (h0 : ∀ k : Fin 1024, x0 (ix2 p k) = X (ix2 r k)) (h1 : ∀ k : Fin 1024, x1 (ix2 k q) = W (ix2 k q'))
    (h2 : x2 (ix1 q) = b (ix1 q')) :
    Cert.Dice.lin x0 x1 x2 p q = Cert.Dice.lin X W b r q' := by
  unfold Cert.Dice.lin
  rw [h2]
  exact congrArg (· + b (ix1 q')) (Finset.sum_congr rfl fun k _ => by rw [h0 k, h1 k])

/-- The squared norm of row p of the block's projection is that of row r of the whole matrix's. -/
theorem nrm_rows {n : Nat} (X : (⟨2, ![n, 1024]⟩ : Shape).Idx → EReal) (W : (⟨2, ![1024, 512]⟩ : Shape).Idx → EReal)
    (b : (⟨1, ![512]⟩ : Shape).Idx → EReal)
    (x0 : Vec Ideal S2048x1024 .f32) (x1 : Vec Ideal S1024x512 .bf16) (x2 : Vec Ideal S512 .f32)
    (p : Fin 2048) (r : Fin n)
    (h0 : ∀ k : Fin 1024, x0 (ix2 p k) = X (ix2 r k)) (h1 : ∀ (k : Fin 1024) (q : Fin 512), x1 (ix2 k q) = W (ix2 k q))
    (h2 : ∀ q : Fin 512, x2 (ix1 q) = b (ix1 q)) :
    Cert.Dice.nrm (Cert.Dice.lin x0 x1 x2) p = Cert.Dice.nrm (Cert.Dice.lin X W b) r := by
  unfold Cert.Dice.nrm
  exact Finset.sum_congr rfl fun k _ => by
    rw [lin_rows X W b x0 x1 x2 p r k k h0 (fun j => h1 j k) (h2 k)]

/-! # REGION 0: arrays `main_arg0`, `main_v0`, `main_arg3` to `main_v3_0`, `main_v3_1` -/

/-- What `main_v3_0` ends holding: the row projection of the region-entry arrays, index by index. -/
abbrev linG0 (c : Dev nD) : S8192x512.Idx → EReal :=
  fun i => Cert.Dice.lin (V c main_arg0) (V c main_v0) (V c main_arg3) (i 0) (i 1)
/-- What `main_v3_1` ends holding: the squared norms of that projection's rows. -/
abbrev nrmG0 (c : Dev nD) : S8192x1.Idx → EReal :=
  fun i => Cert.Dice.nrm (Cert.Dice.lin (V c main_arg0) (V c main_v0) (V c main_arg3)) (i 0)

/-- The body's first payload at an index of its block: the projection of the three loaded blocks. -/
theorem pay3_at0 (x0 : Vec Ideal S2048x1024 .f32) (x1 : Vec Ideal S1024x512 .bf16) (x2 : Vec Ideal S512 .f32)
    (y : S2048x512.Idx) : k0_pay3 (F := Ideal) x0 x1 x2 y = Cert.Dice.lin x0 x1 x2 (y 0) (y 1) := by
  rw [eq_ix2 y]; exact Cert.Dice.Pay.lin0_at x0 x1 x2 (y 0) (y 1)
/-- The body's second payload at an index of its block: the squared norm of the projection's row. -/
theorem pay2_at0 (x0 : Vec Ideal S2048x1024 .f32) (x1 : Vec Ideal S1024x512 .bf16) (x2 : Vec Ideal S512 .f32)
    (y : S2048x1.Idx) : k0_pay2 (F := Ideal) x0 x1 x2 y = Cert.Dice.nrm (Cert.Dice.lin x0 x1 x2) (y 0) := by
  rw [eq_ix2 y]; exact Cert.Dice.Pay.nrm0_at x0 x1 x2 (y 0) (y 1)

/-- The printed index maps, decided over the grid: the row-blocked windows (the argument's rows and both outputs) sit
    at block t on the row axis and block 0 on the other; the weights and the bias at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the argument's block at point t is row (output block index)·2048 + p of the argument. -/
theorem blk_x0 (c : Dev nD) (t : Fin cfg0.N) (p : Fin 2048) (r : Fin 8192) (k : Fin 1024)
    (hr : r.val = t.val * 2048 + p.val) :
    (iblk0 V c 0 t : Vec Ideal S2048x1024 .f32) (ix2 p k) = (V c main_arg0 : S8192x1024.Idx → EReal) (ix2 r k) := by
  obtain ⟨e00, e01, -⟩ := idx_facts0 t
  unfold iblk0
  rw [View.read_apply]
  show V c main_arg0 _ = V c main_arg0 _
  congr 1
  funext a
  apply Fin.ext
  match a with
  | ⟨0, _⟩ => show win0_0.index t (0 : Fin 2) * 2048 + 1 * p.val = r.val; rw [e00, hr]; omega
  | ⟨1, _⟩ => show win0_0.index t (1 : Fin 2) * 1024 + 1 * k.val = k.val; rw [e01]; omega

/-- The weights' block at any point is the weights. -/
theorem blk_w0 (c : Dev nD) (t : Fin cfg0.N) (k : Fin 1024) (q : Fin 512) :
    (iblk0 V c 1 t : Vec Ideal S1024x512 .bf16) (ix2 k q) = (V c main_v0 : S1024x512.Idx → EReal) (ix2 k q) := by
  obtain ⟨-, -, e10, e11, -⟩ := idx_facts0 t
  unfold iblk0
  rw [View.read_apply]
  show V c main_v0 _ = V c main_v0 _
  congr 1
  funext a
  apply Fin.ext
  match a with
  | ⟨0, _⟩ => show win0_1.index t (0 : Fin 2) * 1024 + 1 * k.val = k.val; rw [e10]; omega
  | ⟨1, _⟩ => show win0_1.index t (1 : Fin 2) * 512 + 1 * q.val = q.val; rw [e11]; omega

/-- The bias's block at any point is the bias. -/
theorem blk_b0 (c : Dev nD) (t : Fin cfg0.N) (q : Fin 512) :
    (iblk0 V c 2 t : Vec Ideal S512 .f32) (ix1 q) = (V c main_arg3 : S512.Idx → EReal) (ix1 q) := by
  obtain ⟨-, -, -, -, e20, -⟩ := idx_facts0 t
  unfold iblk0
  rw [View.read_apply]
  show V c main_arg3 _ = V c main_arg3 _
  congr 1
  funext a
  apply Fin.ext
  match a with
  | ⟨0, _⟩ => show win0_2.index t (0 : Fin 1) * 512 + 1 * q.val = q.val; rw [e20]; omega

/-- WHAT POINT `t` WRITES BACK to `main_v3_0` is block `t` of the projection of the region-entry arrays. -/
theorem flushed0_3_eq (c : Dev nD) (t : Fin cfg0.N) :
    (dat0 (F := Ideal) V c).flushed 3 t = ((cfg0.win 3).blk t).view.read (Elt Ideal) (linG0 V c) := by
  show (cfg0.win 3).cut (grid0.coords t) ((dat0 (F := Ideal) V c).after 3 t) = _
  rw [after0_3, out0_3_eq]
  obtain ⟨-, -, -, -, -, e30, e31, -⟩ := idx_facts0 t
  funext j
  show k0_pay3 (F := Ideal) (iblk0 V c 0 t) (iblk0 V c 1 t) (iblk0 V c 2 t) j
    = Cert.Dice.lin (V c main_arg0) (V c main_v0) (V c main_arg3) ((((cfg0.win 3).blk t).view.emb j) 0) ((((cfg0.win 3).blk t).view.emb j) 1)
  refine (pay3_at0 (iblk0 V c 0 t) (iblk0 V c 1 t) (iblk0 V c 2 t) j).trans ?_
  have hq : (((cfg0.win 3).blk t).view.emb j) 1 = (j 1 : Fin 512) := Fin.ext (by
    show win0_3.index t (1 : Fin 2) * 512 + 1 * (j 1).val = (j 1).val; rw [e31]; omega)
  have hr : ((((cfg0.win 3).blk t).view.emb j) 0 : Fin 8192).val = t.val * 2048 + (j 0 : Fin 2048).val := by
    show win0_3.index t (0 : Fin 2) * 2048 + 1 * (j 0).val = _; rw [e30]; omega
  rw [hq]
  exact lin_rows (V c main_arg0) (V c main_v0) (V c main_arg3) (iblk0 V c 0 t) (iblk0 V c 1 t) (iblk0 V c 2 t) (j 0) _ (j 1) (j 1)
    (fun k => blk_x0 V c t (j 0) _ k hr) (fun k => blk_w0 V c t k (j 1)) (blk_b0 V c t (j 1))

/-- WHAT POINT `t` WRITES BACK to `main_v3_1` is block `t` of the squared norms of that projection's rows. -/
theorem flushed0_4_eq (c : Dev nD) (t : Fin cfg0.N) :
    (dat0 (F := Ideal) V c).flushed 4 t = ((cfg0.win 4).blk t).view.read (Elt Ideal) (nrmG0 V c) := by
  show (cfg0.win 4).cut (grid0.coords t) ((dat0 (F := Ideal) V c).after 4 t) = _
  rw [after0_4, out0_4_eq]
  obtain ⟨-, -, -, -, -, -, -, e40, e41⟩ := idx_facts0 t
  funext j
  show k0_pay2 (F := Ideal) (iblk0 V c 0 t) (iblk0 V c 1 t) (iblk0 V c 2 t) j
    = Cert.Dice.nrm (Cert.Dice.lin (V c main_arg0) (V c main_v0) (V c main_arg3)) ((((cfg0.win 4).blk t).view.emb j) 0)
  refine (pay2_at0 (iblk0 V c 0 t) (iblk0 V c 1 t) (iblk0 V c 2 t) j).trans ?_
  have hr : ((((cfg0.win 4).blk t).view.emb j) 0 : Fin 8192).val = t.val * 2048 + (j 0 : Fin 2048).val := by
    show win0_4.index t (0 : Fin 2) * 2048 + 1 * (j 0).val = _; rw [e40]; omega
  exact nrm_rows (V c main_arg0) (V c main_v0) (V c main_arg3) (iblk0 V c 0 t) (iblk0 V c 1 t) (iblk0 V c 2 t) (j 0) _
    (fun k => blk_x0 V c t (j 0) _ k hr) (fun k q => blk_w0 V c t k q) (fun q => blk_b0 V c t q)

/-- An index of `main_v3_0` is in point `t`'s block iff each coordinate is in the block's range on its axis. -/
theorem mem_blk0_3 (t : Fin cfg0.N) (i : S8192x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v3_0).slice (win0_3.rect t)).set ↔ _
  rw [View.set_slice_whole, Rect.mem_set_unit]
  exact Iff.rfl
/-- The same of `main_v3_1`. -/
theorem mem_blk0_4 (t : Fin cfg0.N) (i : S8192x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v3_1).slice (win0_4.rect t)).set ↔ _
  rw [View.set_slice_whole, Rect.mem_set_unit]
  exact Iff.rfl

/-- Row r of `main_v3_0` is in the block of point r / 2048, which writes back. -/
theorem rows_cover0_3 (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 4 := N_0
  have ht : (i 0).val / 2048 < cfg0.N := by rw [hN]; omega
  obtain ⟨-, -, -, -, -, e30, e31, -⟩ := idx_facts0 ⟨(i 0).val / 2048, ht⟩
  refine ⟨⟨(i 0).val / 2048, ht⟩, flush0_3 _, ?_⟩
  rw [mem_blk0_3]
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    rw [e30]; show (i 0).val / 2048 * 2048 ≤ (i 0).val ∧ (i 0).val < (i 0).val / 2048 * 2048 + 2048; omega
  | ⟨1, _⟩ =>
    show win0_3.index ⟨(i 0).val / 2048, ht⟩ (1 : Fin 2) * 512 ≤ (i 1).val ∧ (i 1).val < win0_3.index ⟨(i 0).val / 2048, ht⟩ (1 : Fin 2) * 512 + 512
    rw [e31]; omega
/-- The same of `main_v3_1`. -/
theorem rows_cover0_4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 4 := N_0
  have ht : (i 0).val / 2048 < cfg0.N := by rw [hN]; omega
  obtain ⟨-, -, -, -, -, -, -, e40, e41⟩ := idx_facts0 ⟨(i 0).val / 2048, ht⟩
  refine ⟨⟨(i 0).val / 2048, ht⟩, flush0_4 _, ?_⟩
  rw [mem_blk0_4]
  intro a
  match a with
  | ⟨0, _⟩ =>
    show win0_4.index ⟨(i 0).val / 2048, ht⟩ (0 : Fin 2) * 2048 ≤ (i 0).val ∧ (i 0).val < win0_4.index ⟨(i 0).val / 2048, ht⟩ (0 : Fin 2) * 2048 + 2048
    rw [e40]; show (i 0).val / 2048 * 2048 ≤ (i 0).val ∧ (i 0).val < (i 0).val / 2048 * 2048 + 2048; omega
  | ⟨1, _⟩ =>
    show win0_4.index ⟨(i 0).val / 2048, ht⟩ (1 : Fin 2) * 1 ≤ (i 1).val ∧ (i 1).val < win0_4.index ⟨(i 0).val / 2048, ht⟩ (1 : Fin 2) * 1 + 1
    rw [e41]; omega

/-- THE ARRAY `main_v3_0` after the region: the row projection of the region-entry arrays. -/
theorem lin_array0 (c : Dev nD) : (dat0 (F := Ideal) V c).arrAt 3 cfg0.N
    = fun i : S8192x512.Idx => Cert.Dice.lin (V c main_arg0) (V c main_v0) (V c main_arg3) (i 0) (i 1) :=
  (dat0 (F := Ideal) V c).arrAt_eq_of_cover 3 (linG0 V c) (fun t _ => flushed0_3_eq V c t) (rows_cover0_3)

/-- THE ARRAY `main_v3_1` after the region: the squared norms of that projection's rows. -/
theorem nrm_array0 (c : Dev nD) : (dat0 (F := Ideal) V c).arrAt 4 cfg0.N
    = fun i : S8192x1.Idx => Cert.Dice.nrm (Cert.Dice.lin (V c main_arg0) (V c main_v0) (V c main_arg3)) (i 0) :=
  (dat0 (F := Ideal) V c).arrAt_eq_of_cover 4 (nrmG0 V c) (fun t _ => flushed0_4_eq V c t) (rows_cover0_4)

/-! # REGION 1: arrays `main_arg1`, `main_v1`, `main_arg5` to `main_v4_0`, `main_v4_1` -/

/-- What `main_v4_0` ends holding: the row projection of the region-entry arrays, index by index. -/
abbrev linG1 (c : Dev nD) : S8192x512.Idx → EReal :=
  fun i => Cert.Dice.lin (V c main_arg1) (V c main_v1) (V c main_arg5) (i 0) (i 1)
/-- What `main_v4_1` ends holding: the squared norms of that projection's rows. -/
abbrev nrmG1 (c : Dev nD) : S8192x1.Idx → EReal :=
  fun i => Cert.Dice.nrm (Cert.Dice.lin (V c main_arg1) (V c main_v1) (V c main_arg5)) (i 0)

/-- The body's first payload at an index of its block: the projection of the three loaded blocks. -/
theorem pay3_at1 (x0 : Vec Ideal S2048x1024 .f32) (x1 : Vec Ideal S1024x512 .bf16) (x2 : Vec Ideal S512 .f32)
    (y : S2048x512.Idx) : k1_pay3 (F := Ideal) x0 x1 x2 y = Cert.Dice.lin x0 x1 x2 (y 0) (y 1) := by
  rw [eq_ix2 y]; exact Cert.Dice.Pay.lin1_at x0 x1 x2 (y 0) (y 1)
/-- The body's second payload at an index of its block: the squared norm of the projection's row. -/
theorem pay2_at1 (x0 : Vec Ideal S2048x1024 .f32) (x1 : Vec Ideal S1024x512 .bf16) (x2 : Vec Ideal S512 .f32)
    (y : S2048x1.Idx) : k1_pay2 (F := Ideal) x0 x1 x2 y = Cert.Dice.nrm (Cert.Dice.lin x0 x1 x2) (y 0) := by
  rw [eq_ix2 y]; exact Cert.Dice.Pay.nrm1_at x0 x1 x2 (y 0) (y 1)

/-- The printed index maps, decided over the grid: the row-blocked windows (the argument's rows and both outputs) sit
    at block t on the row axis and block 0 on the other; the weights and the bias at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of the argument's block at point t is row (output block index)·2048 + p of the argument. -/
theorem blk_x1 (c : Dev nD) (t : Fin cfg1.N) (p : Fin 2048) (r : Fin 8192) (k : Fin 1024)
    (hr : r.val = t.val * 2048 + p.val) :
    (iblk1 V c 0 t : Vec Ideal S2048x1024 .f32) (ix2 p k) = (V c main_arg1 : S8192x1024.Idx → EReal) (ix2 r k) := by
  obtain ⟨e00, e01, -⟩ := idx_facts1 t
  unfold iblk1
  rw [View.read_apply]
  show V c main_arg1 _ = V c main_arg1 _
  congr 1
  funext a
  apply Fin.ext
  match a with
  | ⟨0, _⟩ => show win1_0.index t (0 : Fin 2) * 2048 + 1 * p.val = r.val; rw [e00, hr]; omega
  | ⟨1, _⟩ => show win1_0.index t (1 : Fin 2) * 1024 + 1 * k.val = k.val; rw [e01]; omega

/-- The weights' block at any point is the weights. -/
theorem blk_w1 (c : Dev nD) (t : Fin cfg1.N) (k : Fin 1024) (q : Fin 512) :
    (iblk1 V c 1 t : Vec Ideal S1024x512 .bf16) (ix2 k q) = (V c main_v1 : S1024x512.Idx → EReal) (ix2 k q) := by
  obtain ⟨-, -, e10, e11, -⟩ := idx_facts1 t
  unfold iblk1
  rw [View.read_apply]
  show V c main_v1 _ = V c main_v1 _
  congr 1
  funext a
  apply Fin.ext
  match a with
  | ⟨0, _⟩ => show win1_1.index t (0 : Fin 2) * 1024 + 1 * k.val = k.val; rw [e10]; omega
  | ⟨1, _⟩ => show win1_1.index t (1 : Fin 2) * 512 + 1 * q.val = q.val; rw [e11]; omega

/-- The bias's block at any point is the bias. -/
theorem blk_b1 (c : Dev nD) (t : Fin cfg1.N) (q : Fin 512) :
    (iblk1 V c 2 t : Vec Ideal S512 .f32) (ix1 q) = (V c main_arg5 : S512.Idx → EReal) (ix1 q) := by
  obtain ⟨-, -, -, -, e20, -⟩ := idx_facts1 t
  unfold iblk1
  rw [View.read_apply]
  show V c main_arg5 _ = V c main_arg5 _
  congr 1
  funext a
  apply Fin.ext
  match a with
  | ⟨0, _⟩ => show win1_2.index t (0 : Fin 1) * 512 + 1 * q.val = q.val; rw [e20]; omega

/-- WHAT POINT `t` WRITES BACK to `main_v4_0` is block `t` of the projection of the region-entry arrays. -/
theorem flushed1_3_eq (c : Dev nD) (t : Fin cfg1.N) :
    (dat1 (F := Ideal) V c).flushed 3 t = ((cfg1.win 3).blk t).view.read (Elt Ideal) (linG1 V c) := by
  show (cfg1.win 3).cut (grid1.coords t) ((dat1 (F := Ideal) V c).after 3 t) = _
  rw [after1_3, out1_3_eq]
  obtain ⟨-, -, -, -, -, e30, e31, -⟩ := idx_facts1 t
  funext j
  show k1_pay3 (F := Ideal) (iblk1 V c 0 t) (iblk1 V c 1 t) (iblk1 V c 2 t) j
    = Cert.Dice.lin (V c main_arg1) (V c main_v1) (V c main_arg5) ((((cfg1.win 3).blk t).view.emb j) 0) ((((cfg1.win 3).blk t).view.emb j) 1)
  refine (pay3_at1 (iblk1 V c 0 t) (iblk1 V c 1 t) (iblk1 V c 2 t) j).trans ?_
  have hq : (((cfg1.win 3).blk t).view.emb j) 1 = (j 1 : Fin 512) := Fin.ext (by
    show win1_3.index t (1 : Fin 2) * 512 + 1 * (j 1).val = (j 1).val; rw [e31]; omega)
  have hr : ((((cfg1.win 3).blk t).view.emb j) 0 : Fin 8192).val = t.val * 2048 + (j 0 : Fin 2048).val := by
    show win1_3.index t (0 : Fin 2) * 2048 + 1 * (j 0).val = _; rw [e30]; omega
  rw [hq]
  exact lin_rows (V c main_arg1) (V c main_v1) (V c main_arg5) (iblk1 V c 0 t) (iblk1 V c 1 t) (iblk1 V c 2 t) (j 0) _ (j 1) (j 1)
    (fun k => blk_x1 V c t (j 0) _ k hr) (fun k => blk_w1 V c t k (j 1)) (blk_b1 V c t (j 1))

/-- WHAT POINT `t` WRITES BACK to `main_v4_1` is block `t` of the squared norms of that projection's rows. -/
theorem flushed1_4_eq (c : Dev nD) (t : Fin cfg1.N) :
    (dat1 (F := Ideal) V c).flushed 4 t = ((cfg1.win 4).blk t).view.read (Elt Ideal) (nrmG1 V c) := by
  show (cfg1.win 4).cut (grid1.coords t) ((dat1 (F := Ideal) V c).after 4 t) = _
  rw [after1_4, out1_4_eq]
  obtain ⟨-, -, -, -, -, -, -, e40, e41⟩ := idx_facts1 t
  funext j
  show k1_pay2 (F := Ideal) (iblk1 V c 0 t) (iblk1 V c 1 t) (iblk1 V c 2 t) j
    = Cert.Dice.nrm (Cert.Dice.lin (V c main_arg1) (V c main_v1) (V c main_arg5)) ((((cfg1.win 4).blk t).view.emb j) 0)
  refine (pay2_at1 (iblk1 V c 0 t) (iblk1 V c 1 t) (iblk1 V c 2 t) j).trans ?_
  have hr : ((((cfg1.win 4).blk t).view.emb j) 0 : Fin 8192).val = t.val * 2048 + (j 0 : Fin 2048).val := by
    show win1_4.index t (0 : Fin 2) * 2048 + 1 * (j 0).val = _; rw [e40]; omega
  exact nrm_rows (V c main_arg1) (V c main_v1) (V c main_arg5) (iblk1 V c 0 t) (iblk1 V c 1 t) (iblk1 V c 2 t) (j 0) _
    (fun k => blk_x1 V c t (j 0) _ k hr) (fun k q => blk_w1 V c t k q) (fun q => blk_b1 V c t q)

/-- An index of `main_v4_0` is in point `t`'s block iff each coordinate is in the block's range on its axis. -/
theorem mem_blk1_3 (t : Fin cfg1.N) (i : S8192x512.Idx) :
    i ∈ ((cfg1.win 3).blk t).view.set ↔ ∀ a : Fin 2, win1_3.index t a * S2048x512.size a ≤ (i a).val ∧ (i a).val < win1_3.index t a * S2048x512.size a + S2048x512.size a := by
  show i ∈ ((View.whole main_v4_0).slice (win1_3.rect t)).set ↔ _
  rw [View.set_slice_whole, Rect.mem_set_unit]
  exact Iff.rfl
/-- The same of `main_v4_1`. -/
theorem mem_blk1_4 (t : Fin cfg1.N) (i : S8192x1.Idx) :
    i ∈ ((cfg1.win 4).blk t).view.set ↔ ∀ a : Fin 2, win1_4.index t a * S2048x1.size a ≤ (i a).val ∧ (i a).val < win1_4.index t a * S2048x1.size a + S2048x1.size a := by
  show i ∈ ((View.whole main_v4_1).slice (win1_4.rect t)).set ↔ _
  rw [View.set_slice_whole, Rect.mem_set_unit]
  exact Iff.rfl

/-- Row r of `main_v4_0` is in the block of point r / 2048, which writes back. -/
theorem rows_cover1_3 (i : S8192x512.Idx) :
    ∃ t : Fin cfg1.N, (cfg1.win 3).flush t = true ∧ i ∈ ((cfg1.win 3).blk t).view.set := by
  have hi0 : (i 0).val < 8192 := (i 0).isLt
  have hi1 : (i 1).val < 512 := (i 1).isLt
  have hN : cfg1.N = 4 := N_1
  have ht : (i 0).val / 2048 < cfg1.N := by rw [hN]; omega
  obtain ⟨-, -, -, -, -, e30, e31, -⟩ := idx_facts1 ⟨(i 0).val / 2048, ht⟩
  refine ⟨⟨(i 0).val / 2048, ht⟩, flush1_3 _, ?_⟩
  rw [mem_blk1_3]
  intro a
  match a with
  | ⟨0, _⟩ =>
    show win1_3.index ⟨(i 0).val / 2048, ht⟩ (0 : Fin 2) * 2048 ≤ (i 0).val ∧ (i 0).val < win1_3.index ⟨(i 0).val / 2048, ht⟩ (0 : Fin 2) * 2048 + 2048
    rw [e30]; show (i 0).val / 2048 * 2048 ≤ (i 0).val ∧ (i 0).val < (i 0).val / 2048 * 2048 + 2048; omega
  | ⟨1, _⟩ =>
    show win1_3.index ⟨(i 0).val / 2048, ht⟩ (1 : Fin 2) * 512 ≤ (i 1).val ∧ (i 1).val < win1_3.index ⟨(i 0).val / 2048, ht⟩ (1 : Fin 2) * 512 + 512
    rw [e31]; omega
/-- The same of `main_v4_1`. -/
theorem rows_cover1_4 (i : S8192x1.Idx) :
    ∃ t : Fin cfg1.N, (cfg1.win 4).flush t = true ∧ i ∈ ((cfg1.win 4).blk t).view.set := by
  have hi0 : (i 0).val < 8192 := (i 0).isLt
  have hi1 : (i 1).val < 1 := (i 1).isLt
  have hN : cfg1.N = 4 := N_1
  have ht : (i 0).val / 2048 < cfg1.N := by rw [hN]; omega
  obtain ⟨-, -, -, -, -, -, -, e40, e41⟩ := idx_facts1 ⟨(i 0).val / 2048, ht⟩
  refine ⟨⟨(i 0).val / 2048, ht⟩, flush1_4 _, ?_⟩
  rw [mem_blk1_4]
  intro a
  match a with
  | ⟨0, _⟩ =>
    show win1_4.index ⟨(i 0).val / 2048, ht⟩ (0 : Fin 2) * 2048 ≤ (i 0).val ∧ (i 0).val < win1_4.index ⟨(i 0).val / 2048, ht⟩ (0 : Fin 2) * 2048 + 2048
    rw [e40]; show (i 0).val / 2048 * 2048 ≤ (i 0).val ∧ (i 0).val < (i 0).val / 2048 * 2048 + 2048; omega
  | ⟨1, _⟩ =>
    show win1_4.index ⟨(i 0).val / 2048, ht⟩ (1 : Fin 2) * 1 ≤ (i 1).val ∧ (i 1).val < win1_4.index ⟨(i 0).val / 2048, ht⟩ (1 : Fin 2) * 1 + 1
    rw [e41]; omega

/-- THE ARRAY `main_v4_0` after the region: the row projection of the region-entry arrays. -/
theorem lin_array1 (c : Dev nD) : (dat1 (F := Ideal) V c).arrAt 3 cfg1.N
    = fun i : S8192x512.Idx => Cert.Dice.lin (V c main_arg1) (V c main_v1) (V c main_arg5) (i 0) (i 1) :=
  (dat1 (F := Ideal) V c).arrAt_eq_of_cover 3 (linG1 V c) (fun t _ => flushed1_3_eq V c t) (rows_cover1_3)

/-- THE ARRAY `main_v4_1` after the region: the squared norms of that projection's rows. -/
theorem nrm_array1 (c : Dev nD) : (dat1 (F := Ideal) V c).arrAt 4 cfg1.N
    = fun i : S8192x1.Idx => Cert.Dice.nrm (Cert.Dice.lin (V c main_arg1) (V c main_v1) (V c main_arg5)) (i 0) :=
  (dat1 (F := Ideal) V c).arrAt_eq_of_cover 4 (nrmG1 V c) (fun t _ => flushed1_4_eq V c t) (rows_cover1_4)

end Cert.KernelIdeal.HandValue

end
-- ==== Proof.HostValue.lean ====
/-
  The host lines of the kernel's program, read as values at the ideal instance: the three conversions of a
  weight matrix to the narrower float format leave every entry as it is (a change of format is the identity on
  the extended reals), and the reshape of the column of squared norms [8192, 1] to a row [1, 8192] holds at
  (0, j) what the column holds at (j, 0).
-/
import proofs.«157034_j27058293964889_1_alg».proof.Proof.Gen.KernelIdeal.Launch
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HandValue

open Cert.KernelIdeal Cert.KernelIdeal.Gen
open Idealize.ShloMosaic Idealize.ShloMosaic.TcCoe Idealize.SL.Sem Idealize.ShloMosaic.StableHlo
open Idealize.ShloMosaic.ValueIdx

/-- The converted first-layer weight of the x-nodes is the weight itself. -/
theorem conv_v0 (W : Valuation τ sig (Elt Ideal)) :
    (StableHlo.after (hostOps0 (F := Ideal)) W (Proc.devRef .tc main_v0) : S1024x512.Idx → EReal)
      = W (Proc.devRef .tc main_arg2) := by
  dsimp only [hostOps0]
  after_results
  rfl

/-- The converted first-layer weight of the y-nodes is the weight itself. -/
theorem conv_v1 (W : Valuation τ sig (Elt Ideal)) :
    (StableHlo.after (hostOps0 (F := Ideal)) W (Proc.devRef .tc main_v1) : S1024x512.Idx → EReal)
      = W (Proc.devRef .tc main_arg4) := by
  dsimp only [hostOps0]
  after_results
  rfl

/-- The converted output-layer weight is the weight itself. -/
theorem conv_v2 (W : Valuation τ sig (Elt Ideal)) :
    (StableHlo.after (hostOps0 (F := Ideal)) W (Proc.devRef .tc main_v2) : S512x512.Idx → EReal)
      = W (Proc.devRef .tc main_arg6) := by
  dsimp only [hostOps0]
  after_results
  rfl

/-- The reshaped row of squared norms at (0, j) is the column at (j, 0): both sit at row-major position j. -/
theorem row_v5 (W : Valuation τ sig (Elt Ideal)) (j : Fin 8192) :
    (StableHlo.after (hostOps2 (F := Ideal)) W (Proc.devRef .tc main_v5) : S1x8192.Idx → EReal) (ix2 0 j)
      = (W (Proc.devRef .tc main_v4_1) : S8192x1.Idx → EReal) (ix2 j 0) := by
  have e : (StableHlo.after (hostOps2 (F := Ideal)) W (Proc.devRef .tc main_v5) : S1x8192.Idx → EReal)
      = shapeCast S1x8192 (W (Proc.devRef .tc main_v4_1) : S8192x1.Idx → EReal) shapeCasts_S8192x1_S1x8192 := by
    dsimp only [hostOps2]
    after_results
    rfl
  rw [e]
  refine shapeCast_apply (s := S8192x1) (t := S1x8192) _ _ _ _ ?_
  show (S8192x1.rowMajor (ix2 j 0)).val = (S1x8192.rowMajor (ix2 0 j)).val
  rw [Shape.rowMajor_val_two, Shape.rowMajor_val_two]
  show j.val * 1 + 0 = 0 * 8192 + j.val
  omega

end Cert.KernelIdeal.HandValue

end
-- ==== Proof.AggPieces.lean ====
/-
  What each case of the aggregation kernel's body leaves, as arithmetic on the blocks it loads.

  Run on whole buffers, every load reads a buffer's whole contents and every store writes a whole buffer, so what a
  buffer holds afterwards is the payload of the last store into it. Where the accumulator is cleared first, the step
  adds to the zero matrix; elsewhere it adds to what the accumulator held; where the output block is produced, it is the
  output layer of the accumulator just updated.
-/
import proofs.«157034_j27058293964889_1_alg».proof.Proof.Agg
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 buffer, as a constant function. -/
theorem agg_off2 : (![0, 0] : Fin 2 → Nat) = fun _ => 0 := funext fun a => by fin_cases a <;> rfl
/-- The zero offset of a rank-1 buffer, as a constant function. -/
theorem agg_off1 : (![0] : Fin 1 → Nat) = fun _ => 0 := funext fun a => by fin_cases a <;> rfl

/-- Where the accumulator is cleared: it ends holding the step applied to the zero matrix. -/
theorem sout2_A_eq (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : cond2_0 i) (hc1 : ¬cond2_1 i)
    (x0 : Vec F S2048x512 .bf16) (x1 : Vec F S2048x512 .bf16) (x2 : Vec F S2048x1 .f32) (x3 : Vec F S1x2048 .f32) :
    sout2_A c i arg2 harg2 arg3 harg3 arg4 harg4 arg5 harg5 arg6 harg6 arg7 harg7 arg8 harg8 arg9 harg9 hc0 hc1 x0 x1 x2 x3 = k2_pay2 x0 x1 x2 x3 (k2_pay1 (F := F)) := by
  unfold sout2_A
  rw [View.read_writes_eq_canon _ _ _ (scover2_A c i arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S2048x512) agg_off2, View.readCov_unit_zero (S := S2048x512) _ agg_off2]
  simp only [View.readAt_eq_ld, harg2.read_unread, harg3.read_unread, harg4.read_unread, harg5.read_unread,
    View.ld_unit_zero (S := S2048x512) agg_off2, View.ld_unit_zero (S := S2048x1) agg_off2,
    View.ld_unit_zero (S := S1x2048) agg_off2]

/-- Where the accumulator is kept and the output not produced: it ends holding the step applied to what it held. -/
theorem sout2_B_eq (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : ¬cond2_1 i)
    (x0 : Vec F S2048x512 .bf16) (x1 : Vec F S2048x512 .bf16) (x2 : Vec F S2048x1 .f32) (x3 : Vec F S1x2048 .f32) (xs0 : Vec F S2048x512 .f32) :
    sout2_B c i arg2 harg2 arg3 harg3 arg4 harg4 arg5 harg5 arg6 harg6 arg7 harg7 arg8 harg8 arg9 harg9 hc0 hc1 x0 x1 x2 x3 xs0 = k2_pay2 x0 x1 x2 x3 xs0 := by
  unfold sout2_B
  rw [View.read_writes_eq_canon _ _ _ (scover2_B c i arg2 harg2 arg3 harg3 arg4 harg4 arg5 harg5 arg6 harg6 arg7 harg7 arg8 harg8 arg9 harg9 hc0 hc1 x0 x1 x2 x3 xs0)]
  unfold kernelRun2_B
  dsimp only
  sl_unfold_words
  rw [View.canon_unit_zero (S := S2048x512) agg_off2]
  simp only [View.readAt_eq_ld, harg2.read_unread, harg3.read_unread, harg4.read_unread, harg5.read_unread,
    harg9.read_unread, View.ld_unit_zero (S := S2048x512) agg_off2, View.ld_unit_zero (S := S2048x1) agg_off2,
    View.ld_unit_zero (S := S1x2048) agg_off2]

/-- Where the output block is produced: the accumulator ends holding the step applied to what it held; -/
theorem sout2_C_eq (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) :
    sout2_C c i arg2 harg2 arg3 harg3 arg4 harg4 arg5 harg5 arg6 harg6 arg7 harg7 arg8 harg8 arg9 harg9 hc0 hc1 x0 x1 x2 x3 x4 x5 xs0 = k2_pay2 x0 x1 x2 x3 xs0 := by
  unfold sout2_C
  rw [View.read_writes_eq_canon _ _ _ (scover2_C c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero (S := S2048x512) agg_off2]
  simp only [View.readAt_eq_ld, harg2.read_unread, harg3.read_unread, harg4.read_unread, harg5.read_unread,
    harg9.read_unread, View.ld_unit_zero (S := S2048x512) agg_off2, View.ld_unit_zero (S := S2048x1) agg_off2,
    View.ld_unit_zero (S := S1x2048) agg_off2]

/-- and the output window's buffer the output layer of that. -/
theorem out2_C_6_eq (c : Dev nD) (i : grid2.Coords) (arg2 : Memref sig .tc .vmem S2048x512 .bf16) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S1x2048 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S2048x512 .f32) (harg8 : arg8.IsWhole) (arg9 : Memref sig .tc .vmem S2048x512 .f32) (harg9 : arg9.IsWhole) (hc0 : ¬cond2_0 i) (hc1 : cond2_1 i)
    (x0 : Vec F S2048x512 .bf16) (x1 : Vec F S2048x512 .bf16) (x2 : Vec F S2048x1 .f32) (x3 : Vec F S1x2048 .f32) (x4 : Vec F S512x512 .bf16) (x5 : Vec F S512 .f32) (xs0 : Vec F S2048x512 .f32) :
    out2_C_6 c i arg2 harg2 arg3 harg3 arg4 harg4 arg5 harg5 arg6 harg6 arg7 harg7 arg8 harg8 arg9 harg9 hc0 hc1 x0 x1 x2 x3 x4 x5 xs0 = k2_pay3 (k2_pay2 x0 x1 x2 x3 xs0) x4 x5 := by
  unfold out2_C_6
  rw [View.read_writes_eq_canon _ _ _ (cover2_C_6 c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero (S := S2048x512) agg_off2, View.readCov_unit_zero (S := S2048x512) _ agg_off2]
  simp only [View.readAt_eq_ld, harg2.read_unread, harg3.read_unread, harg4.read_unread, harg5.read_unread,
    harg6.read_unread, harg7.read_unread, harg9.read_unread, View.ld_unit_zero (S := S2048x512) agg_off2,
    View.ld_unit_zero (S := S2048x1) agg_off2, View.ld_unit_zero (S := S1x2048) agg_off2,
    View.ld_unit_zero (S := S512x512) agg_off2, View.ld_unit_zero (S := S512) agg_off1]

end Cert.KernelIdeal.Hand

end
-- ==== Proof.AggMath.lean ====
/-
  The aggregation over all 8192 rows, split into four blocks of 2048 rows.

  Row number 2048·b + r of an array of 8192 rows is row r of block b. The aggregation sums, over every row i, the affinity
  of row i and a fixed row j times P(i, c); a sum over 8192 rows is the sum over the four blocks of the sums over the 2048
  rows of each block, because (b, r) ↦ 2048·b + r is a bijection between the pairs and the row numbers. The affinity of a
  row of a block is the affinity of that row in the whole array: it reads only that row of P, the row j of Q and the two
  squared norms. So the four block-wise aggregations add up to the aggregation over the whole array.
-/
import proofs.«157034_j27058293964889_1_alg».proof.Proof.Spec
import Mathlib.Data.Fintype.BigOperators
import Mathlib.Algebra.BigOperators.Fin

noncomputable section

namespace Cert.Dice

open scoped BigOperators

/-- Row r of block b, as a row of the whole array: row 2048·b + r. -/
def rowOf (b : Fin 4) (r : Fin 2048) : Fin 8192 := ⟨2048 * b.val + r.val, by have := b.isLt; have := r.isLt; omega⟩

/-- Every row of the whole array is exactly one row of exactly one block. -/
def rowEquiv : Fin 4 × Fin 2048 ≃ Fin 8192 where
  toFun x := rowOf x.1 x.2
  invFun j := (⟨j.val / 2048, by have := j.isLt; omega⟩, ⟨j.val % 2048, by omega⟩)
  left_inv := fun ⟨b, r⟩ =>
    Prod.ext
      (Fin.ext (by
        have := r.isLt
        show (2048 * b.val + r.val) / 2048 = b.val
        omega))
      (Fin.ext (by
        have := r.isLt
        show (2048 * b.val + r.val) % 2048 = r.val
        omega))
  right_inv := fun j => Fin.ext (by
    show 2048 * (j.val / 2048) + j.val % 2048 = j.val
    omega)

/-- A sum over the four blocks of the sums over a block's rows is the sum over all rows. -/
theorem sum_rowOf (g : Fin 8192 → EReal) : ∑ k : Fin 4, ∑ i : Fin 2048, g (rowOf k i) = ∑ j : Fin 8192, g j :=
  (Fintype.sum_prod_type' (fun k i => g (rowOf k i))).symm.trans (Equiv.sum_comp rowEquiv g)

/-- The aggregations over the four blocks of rows of P add up to the aggregation over all of P. -/
theorem agg_blocks (P Q : Fin 8192 → Fin 512 → EReal) (d e : Fin 8192 → EReal) (q : Fin 4) (r : Fin 2048) (c : Fin 512) :
    ∑ k : Fin 4, agg (fun i k' => P (rowOf k i) k') (fun j k' => Q (rowOf q j) k') (fun i => d (rowOf k i))
        (fun j => e (rowOf q j)) r c
      = agg P Q d e (rowOf q r) c := by
  unfold agg aff
  exact sum_rowOf (fun j => Idealize.ShloMosaic.Ideal.div (two * ∑ k' : Fin 512, P j k' * Q (rowOf q r) k') (d j + e (rowOf q r)) * P j c)

/-- The same with the blocks counted by natural numbers below 4. -/
theorem agg_blocks_range (P Q : Fin 8192 → Fin 512 → EReal) (d e : Fin 8192 → EReal) (q : Fin 4) (r : Fin 2048)
    (c : Fin 512) :
    ∑ k ∈ Finset.range 4,
        (if h : k < 4 then
          agg (fun i k' => P (rowOf ⟨k, h⟩ i) k') (fun j k' => Q (rowOf q j) k') (fun i => d (rowOf ⟨k, h⟩ i))
            (fun j => e (rowOf q j)) r c
        else 0)
      = agg P Q d e (rowOf q r) c := by
  rw [Finset.sum_range]
  refine Eq.trans (Finset.sum_congr rfl fun k _ => ?_) (agg_blocks P Q d e q r c)
  exact dif_pos k.isLt

end Cert.Dice

end
-- ==== Proof.AggBlocks.lean ====
/- The aggregation region's blocks: on its 4 × 4 grid, point t = 4·j + i reads block i of the first projection and of
   its squared norms, block j of the second projection and of its squared norms (laid out as a row), the output layer's
   weights and bias whole, and writes back block j of the result after the last inner point (i = 3). The block index maps
   decided over the grid; each input block as rows of the arrays the region finds on entry; and the result array after the
   region as ANY whole-array function whose block j the output buffer holds at the point that writes block j back. -/
import proofs.«157034_j27058293964889_1_alg».proof.Proof.Agg
import proofs.«157034_j27058293964889_1_alg».proof.Proof.AggMath
import proofs.«157034_j27058293964889_1_alg».proof.Proof.Spec
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-! ## The grid's two coordinates of a point -/

/-- A point's outer coordinate is below 4: the grid has 16 points. -/
theorem div4_lt (t : Fin cfg2.N) : t.val / 4 < 4 := by
  have h := t.isLt
  have hN : cfg2.N = 16 := N_2
  omega
/-- The inner coordinate of point t (which block of the first projection it reads): t mod 4. -/
abbrev xblk (t : Fin cfg2.N) : Fin 4 := ⟨t.val % 4, Nat.mod_lt _ (by decide)⟩
/-- The outer coordinate of point t (which block of the second projection it reads and of the result it builds): t / 4. -/
abbrev yblk (t : Fin cfg2.N) : Fin 4 := ⟨t.val / 4, div4_lt t⟩

/-! ## The block index maps -/

/-- The printed index maps, decided over the grid. -/
theorem idx_facts2 : ∀ t : Fin cfg2.N, win2_0.index t (0 : Fin 2) = t.val % 4 ∧ win2_0.index t (1 : Fin 2) = 0
    ∧ win2_1.index t (0 : Fin 2) = t.val / 4 ∧ win2_1.index t (1 : Fin 2) = 0
    ∧ win2_2.index t (0 : Fin 2) = t.val % 4 ∧ win2_2.index t (1 : Fin 2) = 0
    ∧ win2_3.index t (0 : Fin 2) = 0 ∧ win2_3.index t (1 : Fin 2) = t.val / 4
    ∧ win2_4.index t (0 : Fin 2) = 0 ∧ win2_4.index t (1 : Fin 2) = 0
    ∧ win2_5.index t (0 : Fin 1) = 0
    ∧ win2_6.index t (0 : Fin 2) = t.val / 4 ∧ win2_6.index t (1 : Fin 2) = 0 :=
  (by decide +kernel : ∀ t : Fin grid2.N, _)

/-! ## The input blocks as rows of the region-entry arrays -/

/-- Row i of the first projection's block at point t is row 2048·(t mod 4) + i of the array. -/
theorem blk2_0 (c : Dev nD) (t : Fin cfg2.N) (i : Fin 2048) (k : Fin 512) :
    (iblk2 V c 0 t : Vec Ideal S2048x512 .bf16) (ix2 i k)
      = (V c main_v3_0 : S8192x512.Idx → EReal) (ix2 (Cert.Dice.rowOf (xblk t) i) k) := by
  obtain ⟨e00, e01, -⟩ := idx_facts2 t
  unfold iblk2
  rw [View.read_apply]
  show V c main_v3_0 _ = V c main_v3_0 _
  congr 1
  funext a
  apply Fin.ext
  match a with
  | ⟨0, _⟩ => show win2_0.index t (0 : Fin 2) * 2048 + 1 * i.val = 2048 * (t.val % 4) + i.val; rw [e00]; omega
  | ⟨1, _⟩ => show win2_0.index t (1 : Fin 2) * 512 + 1 * k.val = k.val; rw [e01]; omega

/-- Row j of the second projection's block at point t is row 2048·(t / 4) + j of the array. -/
theorem blk2_1 (c : Dev nD) (t : Fin cfg2.N) (j : Fin 2048) (k : Fin 512) :
    (iblk2 V c 1 t : Vec Ideal S2048x512 .bf16) (ix2 j k)
      = (V c main_v4_0 : S8192x512.Idx → EReal) (ix2 (Cert.Dice.rowOf (yblk t) j) k) := by
  obtain ⟨-, -, e10, e11, -⟩ := idx_facts2 t
  unfold iblk2
  rw [View.read_apply]
  show V c main_v4_0 _ = V c main_v4_0 _
  congr 1
  funext a
  apply Fin.ext
  match a with
  | ⟨0, _⟩ => show win2_1.index t (0 : Fin 2) * 2048 + 1 * j.val = 2048 * (t.val / 4) + j.val; rw [e10]; omega
  | ⟨1, _⟩ => show win2_1.index t (1 : Fin 2) * 512 + 1 * k.val = k.val; rw [e11]; omega

/-- Entry i of the first squared norms' block at point t is entry 2048·(t mod 4) + i of the column. -/
theorem blk2_2 (c : Dev nD) (t : Fin cfg2.N) (i : Fin 2048) :
    (iblk2 V c 2 t : Vec Ideal S2048x1 .f32) (ix2 i (0 : Fin 1))
      = (V c main_v3_1 : S8192x1.Idx → EReal) (ix2 (Cert.Dice.rowOf (xblk t) i) (0 : Fin 1)) := by
  obtain ⟨-, -, -, -, e20, e21, -⟩ := idx_facts2 t
  unfold iblk2
  rw [View.read_apply]
  show V c main_v3_1 _ = V c main_v3_1 _
  congr 1
  funext a
  apply Fin.ext
  match a with
  | ⟨0, _⟩ => show win2_2.index t (0 : Fin 2) * 2048 + 1 * i.val = 2048 * (t.val % 4) + i.val; rw [e20]; omega
  | ⟨1, _⟩ => show win2_2.index t (1 : Fin 2) * 1 + 1 * 0 = 0; rw [e21]

/-- Entry j of the second squared norms' block at point t is entry 2048·(t / 4) + j of the row. -/
theorem blk2_3 (c : Dev nD) (t : Fin cfg2.N) (j : Fin 2048) :
    (iblk2 V c 3 t : Vec Ideal S1x2048 .f32) (ix2 (0 : Fin 1) j)
      = (V c main_v5 : S1x8192.Idx → EReal) (ix2 (0 : Fin 1) (Cert.Dice.rowOf (yblk t) j)) := by
  obtain ⟨-, -, -, -, -, -, e30, e31, -⟩ := idx_facts2 t
  unfold iblk2
  rw [View.read_apply]
  show V c main_v5 _ = V c main_v5 _
  congr 1
  funext a
  apply Fin.ext
  match a with
  | ⟨0, _⟩ => show win2_3.index t (0 : Fin 2) * 1 + 1 * 0 = 0; rw [e30]
  | ⟨1, _⟩ => show win2_3.index t (1 : Fin 2) * 2048 + 1 * j.val = 2048 * (t.val / 4) + j.val; rw [e31]; omega

/-- The output layer's weights' block at any point is the weights. -/
theorem blk2_4 (c : Dev nD) (t : Fin cfg2.N) :
    (iblk2 V c 4 t : Vec Ideal S512x512 .bf16) = (V c main_v2 : S512x512.Idx → EReal) := by
  obtain ⟨-, -, -, -, -, -, -, -, e40, e41, -⟩ := idx_facts2 t
  funext y
  unfold iblk2
  rw [View.read_apply]
  show V c main_v2 _ = V c main_v2 _
  congr 1
  funext a
  apply Fin.ext
  match a with
  | ⟨0, _⟩ => show win2_4.index t (0 : Fin 2) * 512 + 1 * (y 0).val = (y 0).val; rw [e40]; omega
  | ⟨1, _⟩ => show win2_4.index t (1 : Fin 2) * 512 + 1 * (y 1).val = (y 1).val; rw [e41]; omega

/-- The output layer's bias's block at any point is the bias. -/
theorem blk2_5 (c : Dev nD) (t : Fin cfg2.N) :
    (iblk2 V c 5 t : Vec Ideal S512 .f32) = (V c main_arg7 : S512.Idx → EReal) := by
  obtain ⟨-, -, -, -, -, -, -, -, -, -, e50, -⟩ := idx_facts2 t
  funext y
  unfold iblk2
  rw [View.read_apply]
  show V c main_arg7 _ = V c main_arg7 _
  congr 1
  funext a
  apply Fin.ext
  match a with
  | ⟨0, _⟩ => show win2_5.index t (0 : Fin 1) * 512 + 1 * (y 0).val = (y 0).val; rw [e50]; omega

/-! ## The result array from what the output buffer holds at the points that write back -/

/-- WHAT A WRITING POINT `t` WRITES BACK is block `t / 4` of `Gout`, when the output buffer holds that block there. -/
theorem flushed2_6_eq (c : Dev nD) (Gout : S8192x512.Idx → EReal)
    (hbuf : ∀ t : Fin cfg2.N, t.val % 4 = 3 → ∀ (r : Fin 2048) (o : Fin 512),
      (outsAt2 (F := Ideal) V c t.val t.isLt).1 (ix2 r o) = Gout (ix2 (Cert.Dice.rowOf (yblk t) r) o))
    (t : Fin cfg2.N) (hf : (cfg2.win 6).flush t = true) :
    (dat2 (F := Ideal) V c).flushed 6 t = ((cfg2.win 6).blk t).view.read (Elt Ideal) Gout := by
  have h3 : t.val % 4 = 3 := (flush2_6 t).mp hf
  obtain ⟨-, -, -, -, -, -, -, -, -, -, -, e60, e61⟩ := idx_facts2 t
  show (cfg2.win 6).cut (grid2.coords t) ((dat2 (F := Ideal) V c).after 6 t) = _
  rw [after2_6]
  funext y
  show (outsAt2 (F := Ideal) V c t.val t.isLt).1 y = Gout (((cfg2.win 6).blk t).view.emb y)
  refine (congrArg (outsAt2 (F := Ideal) V c t.val t.isLt).1 (eq_ix2 y)).trans ?_
  refine (hbuf t h3 (y 0) (y 1)).trans ?_
  congr 1
  funext a
  apply Fin.ext
  match a with
  | ⟨0, _⟩ => show 2048 * (t.val / 4) + (y 0).val = win2_6.index t (0 : Fin 2) * 2048 + 1 * (y 0).val; rw [e60]; omega
  | ⟨1, _⟩ => show (y 1).val = win2_6.index t (1 : Fin 2) * 512 + 1 * (y 1).val; rw [e61]; omega

/-- An index of the result array is in point `t`'s block iff each coordinate is in the block's range on its axis. -/
theorem mem_blk2_6 (t : Fin cfg2.N) (i : S8192x512.Idx) :
    i ∈ ((cfg2.win 6).blk t).view.set ↔ ∀ a : Fin 2, win2_6.index t a * S2048x512.size a ≤ (i a).val ∧ (i a).val < win2_6.index t a * S2048x512.size a + S2048x512.size a := by
  show i ∈ ((View.whole main_v6).slice (win2_6.rect t)).set ↔ _
  rw [View.set_slice_whole, Rect.mem_set_unit]
  exact Iff.rfl

/-- Row R of the result lies in the block of the writing point 4·(R / 2048) + 3. -/
theorem rows_cover2_6 (i : S8192x512.Idx) :
    ∃ t : Fin cfg2.N, (cfg2.win 6).flush t = true ∧ i ∈ ((cfg2.win 6).blk t).view.set := by
  have hi0 : (i 0).val < 8192 := (i 0).isLt
  have hi1 : (i 1).val < 512 := (i 1).isLt
  have hN : cfg2.N = 16 := N_2
  have ht : 4 * ((i 0).val / 2048) + 3 < cfg2.N := by rw [hN]; omega
  obtain ⟨-, -, -, -, -, -, -, -, -, -, -, e60, e61⟩ := idx_facts2 ⟨4 * ((i 0).val / 2048) + 3, ht⟩
  refine ⟨⟨4 * ((i 0).val / 2048) + 3, ht⟩, (flush2_6 _).mpr (by show (4 * ((i 0).val / 2048) + 3) % 4 = 3; omega), ?_⟩
  rw [mem_blk2_6]
  intro a
  match a with
  | ⟨0, _⟩ =>
    show win2_6.index ⟨4 * ((i 0).val / 2048) + 3, ht⟩ (0 : Fin 2) * 2048 ≤ (i 0).val ∧ (i 0).val < win2_6.index ⟨4 * ((i 0).val / 2048) + 3, ht⟩ (0 : Fin 2) * 2048 + 2048
    rw [e60]; show (4 * ((i 0).val / 2048) + 3) / 4 * 2048 ≤ (i 0).val ∧ (i 0).val < (4 * ((i 0).val / 2048) + 3) / 4 * 2048 + 2048; omega
  | ⟨1, _⟩ =>
    show win2_6.index ⟨4 * ((i 0).val / 2048) + 3, ht⟩ (1 : Fin 2) * 512 ≤ (i 1).val ∧ (i 1).val < win2_6.index ⟨4 * ((i 0).val / 2048) + 3, ht⟩ (1 : Fin 2) * 512 + 512
    rw [e61]; omega

/-- THE RESULT ARRAY after the region is `Gout`, for any whole-array function whose block `t / 4` the output buffer
    holds at every point `t` that writes back (the last inner point of each outer block). -/
theorem arrAt6_of_buf (c : Dev nD) (Gout : S8192x512.Idx → EReal)
    (hbuf : ∀ t : Fin cfg2.N, t.val % 4 = 3 → ∀ (r : Fin 2048) (o : Fin 512),
      (outsAt2 (F := Ideal) V c t.val t.isLt).1 (ix2 r o) = Gout (ix2 (Cert.Dice.rowOf (yblk t) r) o)) :
    (dat2 (F := Ideal) V c).arrAt 6 cfg2.N = Gout :=
  (dat2 (F := Ideal) V c).arrAt_eq_of_cover 6 Gout (fun t hf => flushed2_6_eq V c Gout hbuf t hf) rows_cover2_6

end Cert.KernelIdeal.HandValue

end
-- ==== Proof.AggValue.lean ====
/-
  The aggregation region's result array on the extended reals.

  On the 4 × 4 grid, point 4·q + i adds to the accumulator the share of block i of the first projection's rows in the
  aggregation for the rows of block q of the second; the accumulator is cleared where i = 0, so after point 4·q + i it
  holds the shares of blocks 0 … i; where i = 3 it holds all four, which add up to the aggregation over all 8192 rows
  (a sum over the rows regrouped by blocks), and the output layer of it is stored as block q of the result.
-/
import proofs.«157034_j27058293964889_1_alg».proof.Proof.AggPieces
import proofs.«157034_j27058293964889_1_alg».proof.Proof.AggBlocks
import proofs.«157034_j27058293964889_1_alg».proof.Proof.PayValue
import proofs.«157034_j27058293964889_1_alg».proof.Proof.AggMath
import proofs.«157034_j27058293964889_1_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-! ## The four arrays the region finds, as functions of row and column numbers -/

/-- The first projection: row i, column k. -/
abbrev aggP (c : Dev nD) : Fin 8192 → Fin 512 → EReal := fun i k => (V c main_v3_0 : S8192x512.Idx → EReal) (ix2 i k)
/-- The second projection: row j, column k. -/
abbrev aggQ (c : Dev nD) : Fin 8192 → Fin 512 → EReal := fun j k => (V c main_v4_0 : S8192x512.Idx → EReal) (ix2 j k)
/-- The squared norms of the first projection's rows (a column). -/
abbrev aggD (c : Dev nD) : Fin 8192 → EReal := fun i => (V c main_v3_1 : S8192x1.Idx → EReal) (ix2 i (0 : Fin 1))
/-- The squared norms of the second projection's rows (laid out as a row). -/
abbrev aggE (c : Dev nD) : Fin 8192 → EReal := fun j => (V c main_v5 : S1x8192.Idx → EReal) (ix2 (0 : Fin 1) j)

/-- What the result array ends holding: the output layer of the aggregation over all 8192 rows, index by index. -/
abbrev outG (c : Dev nD) : S8192x512.Idx → EReal := fun i =>
  Cert.Dice.outRow (Cert.Dice.agg (aggP V c) (aggQ V c) (aggD V c) (aggE V c) (i 0)) (V c main_v2) (V c main_arg7) (i 1)

/-! ## The aggregation and the output layer depend on their arguments entry by entry -/

theorem agg_congr {n n' : Nat} (P P' : Fin n → Fin 512 → EReal) (Q Q' : Fin n' → Fin 512 → EReal)
    (d d' : Fin n → EReal) (e e' : Fin n' → EReal)
    (hP : ∀ i k, P i k = P' i k) (hQ : ∀ j k, Q j k = Q' j k) (hd : ∀ i, d i = d' i) (he : ∀ j, e j = e' j)
    (j : Fin n') (o : Fin 512) :
    Cert.Dice.agg P Q d e j o = Cert.Dice.agg P' Q' d' e' j o := by
  obtain rfl : P = P' := funext fun i => funext fun k => hP i k
  obtain rfl : Q = Q' := funext fun j => funext fun k => hQ j k
  obtain rfl : d = d' := funext hd
  obtain rfl : e = e' := funext he
  rfl

theorem outRow_congr (g g' : Fin 512 → EReal) (W W' : (⟨2, ![512, 512]⟩ : Shape).Idx → EReal)
    (b b' : (⟨1, ![512]⟩ : Shape).Idx → EReal) (hg : ∀ e, g e = g' e) (hW : W = W') (hb : b = b') (o : Fin 512) :
    Cert.Dice.outRow g W b o = Cert.Dice.outRow g' W' b' o := by
  obtain rfl : g = g' := funext hg
  subst hW hb
  rfl

/-! ## One point's share of the aggregation -/

/-- The share of the rows of block k of the first projection in the aggregation for row r of block q of the second:
    the aggregation with P and its squared norms restricted to block k, Q and its squared norms to block q. -/
def part (c : Dev nD) (q k : Fin 4) (r : Fin 2048) (o : Fin 512) : EReal :=
  Cert.Dice.agg (fun i k' => aggP V c (Cert.Dice.rowOf k i) k') (fun j k' => aggQ V c (Cert.Dice.rowOf q j) k')
    (fun i => aggD V c (Cert.Dice.rowOf k i)) (fun j => aggE V c (Cert.Dice.rowOf q j)) r o

/-- The same with the block of the first projection counted by a natural number: zero from 4 on. -/
def partN (c : Dev nD) (q : Fin 4) (k : ℕ) (r : Fin 2048) (o : Fin 512) : EReal :=
  if h : k < 4 then part V c q ⟨k, h⟩ r o else 0

/-- The accumulation step at point t, on the blocks the point reads: it adds to the accumulator the share of block
    t mod 4 of the first projection for block t / 4 of the second. -/
theorem step_at (c : Dev nD) (t : Fin cfg2.N) (s : Vec Ideal S2048x512 .f32) (r : Fin 2048) (o : Fin 512) :
    k2_pay2 (F := Ideal) (iblk2 V c 0 t) (iblk2 V c 1 t) (iblk2 V c 2 t) (iblk2 V c 3 t) s (ix2 r o)
      = s (ix2 r o) + part V c (yblk t) (xblk t) r o := by
  refine (Cert.Dice.Pay.acc_at (iblk2 V c 0 t) (iblk2 V c 1 t) (iblk2 V c 2 t) (iblk2 V c 3 t) s r o).trans ?_
  refine congrArg (s (ix2 r o) + ·) ?_
  unfold part
  exact agg_congr _ _ _ _ _ _ _ _ (fun i k => blk2_0 V c t i k) (fun j k => blk2_1 V c t j k)
    (fun i => blk2_2 V c t i) (fun j => blk2_3 V c t j) r o

/-! ## The accumulator after every point -/

/-- At a point where the accumulator is cleared first (inner coordinate 0) it ends holding the first block's share. -/
theorem acc_clear (c : Dev nD) (t : Fin cfg2.N) (h0 : t.val % 4 = 0) (r : Fin 2048) (o : Fin 512) :
    (outsAt2 (F := Ideal) V c t.val t.isLt).2 (ix2 r o)
      = ∑ k ∈ Finset.range (t.val % 4 + 1), partN V c (yblk t) k r o := by
  have h1 : ¬t.val % 4 = 3 := by omega
  rw [outsAt2_A V c t h0 h1]
  dsimp only
  rw [sout2_A_eq]
  refine (step_at V c t (k2_pay1 (F := Ideal)) r o).trans ?_
  rw [Cert.Dice.Pay.zero_at r o, zero_add, h0, Nat.zero_add, Finset.sum_range_one]
  unfold partN
  rw [dif_pos (by decide : 0 < 4)]
  exact congrArg (fun k => part V c (yblk t) k r o) (Fin.ext h0)

/-- At any other point it ends holding what the point before left plus this point's share. -/
theorem acc_keep (c : Dev nD) (t : Fin cfg2.N) (h0 : ¬t.val % 4 = 0) (r : Fin 2048) (o : Fin 512) :
    (outsAt2 (F := Ideal) V c t.val t.isLt).2 (ix2 r o)
      = (outsAt2 (F := Ideal) V c (t.val - 1) (Nat.lt_of_le_of_lt (Nat.sub_le _ _) t.isLt)).2 (ix2 r o)
        + part V c (yblk t) (xblk t) r o := by
  by_cases h1 : t.val % 4 = 3
  · rw [outsAt2_C V c t h0 h1]
    dsimp only
    rw [sout2_C_eq]
    exact step_at V c t _ r o
  · rw [outsAt2_B V c t h0 h1]
    dsimp only
    rw [sout2_B_eq]
    exact step_at V c t _ r o

/-- THE ACCUMULATOR after point n = 4·q + i holds, at (r, o), the shares of blocks 0 … i of the first projection for
    row r of block q of the second: by induction on the point. -/
theorem acc_inv (c : Dev nD) : ∀ (n : ℕ) (hn : n < cfg2.N) (r : Fin 2048) (o : Fin 512),
    (outsAt2 (F := Ideal) V c n hn).2 (ix2 r o)
      = ∑ k ∈ Finset.range (n % 4 + 1), partN V c (yblk ⟨n, hn⟩) k r o := by
  intro n
  induction n with
  | zero => intro hn r o; exact acc_clear V c ⟨0, hn⟩ rfl r o
  | succ m ih =>
    intro hn r o
    by_cases h0 : (m + 1) % 4 = 0
    · exact acc_clear V c ⟨m + 1, hn⟩ h0 r o
    · have hm : m < cfg2.N := Nat.lt_of_succ_lt hn
      have e4 : (m + 1) % 4 = m % 4 + 1 := by omega
      have eq : (m + 1) / 4 = m / 4 := by omega
      have hy : yblk ⟨m + 1, hn⟩ = yblk ⟨m, hm⟩ := Fin.ext eq
      have hstep : (outsAt2 (F := Ideal) V c (m + 1) hn).2 (ix2 r o)
          = (outsAt2 (F := Ideal) V c m hm).2 (ix2 r o) + part V c (yblk ⟨m + 1, hn⟩) (xblk ⟨m + 1, hn⟩) r o :=
        acc_keep V c ⟨m + 1, hn⟩ h0 r o
      rw [hstep, ih hm r o, e4, Finset.sum_range_succ _ (m % 4 + 1), hy]
      refine congrArg (_ + ·) ?_
      unfold partN
      rw [dif_pos (by omega : m % 4 + 1 < 4)]
      exact congrArg (fun k => part V c (yblk ⟨m, hm⟩) k r o) (Fin.ext e4)

/-! ## The output buffer at a point that produces it -/

/-- At a point with inner coordinate 3 the output buffer holds, at (r, o), the output layer of the aggregation over
    ALL rows of the first projection for row r of block t / 4 of the second: the accumulator there holds all four
    shares, which add up to the whole aggregation. -/
theorem buf_at (c : Dev nD) (t : Fin cfg2.N) (h3 : t.val % 4 = 3) (r : Fin 2048) (o : Fin 512) :
    (outsAt2 (F := Ideal) V c t.val t.isLt).1 (ix2 r o) = outG V c (ix2 (Cert.Dice.rowOf (yblk t) r) o) := by
  have h0 : ¬t.val % 4 = 0 := by omega
  have hacc : ∀ e : Fin 512,
      k2_pay2 (F := Ideal) (iblk2 V c 0 t) (iblk2 V c 1 t) (iblk2 V c 2 t) (iblk2 V c 3 t)
          (outsAt2 (F := Ideal) V c (t.val - 1) (Nat.lt_of_le_of_lt (Nat.sub_le _ _) t.isLt)).2 (ix2 r e)
        = Cert.Dice.agg (aggP V c) (aggQ V c) (aggD V c) (aggE V c) (Cert.Dice.rowOf (yblk t) r) e := fun e => by
    have h := acc_inv V c t.val t.isLt r e
    rw [outsAt2_C V c t h0 h3] at h
    dsimp only at h
    rw [sout2_C_eq] at h
    rw [h, h3]
    exact Cert.Dice.agg_blocks_range (aggP V c) (aggQ V c) (aggD V c) (aggE V c) (yblk t) r e
  rw [outsAt2_C V c t h0 h3]
  dsimp only
  rw [out2_C_6_eq]
  refine (Cert.Dice.Pay.out_at _ (iblk2 V c 4 t) (iblk2 V c 5 t) r o).trans ?_
  exact outRow_congr _ _ _ _ _ _ hacc (blk2_4 V c t) (blk2_5 V c t) o

/-! ## The result array -/

/-- THE RESULT ARRAY after the region: the output layer of the aggregation of the arrays the region finds. -/
theorem out_array (c : Dev nD) : (dat2 (F := Ideal) V c).arrAt 6 cfg2.N = fun i : S8192x512.Idx =>
    Cert.Dice.outRow
      (Cert.Dice.agg (fun i k => (V c main_v3_0 : S8192x512.Idx → EReal) (ix2 i k))
        (fun j k => (V c main_v4_0 : S8192x512.Idx → EReal) (ix2 j k))
        (fun i => (V c main_v3_1 : S8192x1.Idx → EReal) (ix2 i (0 : Fin 1)))
        (fun j => (V c main_v5 : S1x8192.Idx → EReal) (ix2 (0 : Fin 1) j)) (i 0))
      (V c main_v2) (V c main_arg7) (i 1) :=
  arrAt6_of_buf V c (outG V c) (fun t h3 r o => buf_at V c t h3 r o)

end Cert.KernelIdeal.HandValue

end
-- ==== Proof.Plumb.lean ====
/-
  The three regions' values composed into the specification. The aggregation region finds four arrays the two
  projection regions and the host wrote: the two projections, the squared norms of the x-projection's rows as a
  column, and those of the y-projection's rows reshaped to a row; each is traced back through the boundaries of
  the program's items to the region that wrote it, and that region's entry arrays to the launch memory. A weight
  matrix converted on the host to the narrower format is the weight itself on the extended reals.
-/
import proofs.«157034_j27058293964889_1_alg».proof.Proof.RunK
import proofs.«157034_j27058293964889_1_alg».proof.Proof.ProjValue
import proofs.«157034_j27058293964889_1_alg».proof.Proof.HostValue
import proofs.«157034_j27058293964889_1_alg».proof.Proof.AggValue
import proofs.«157034_j27058293964889_1_alg».proof.Proof.Spec

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem

/-- The output layer of the aggregation of four arrays is the specification when the four arrays are, entry by
    entry, the two projections and their rows' squared norms, and the last layer's weight and bias the arguments'. -/
theorem G_of_parts (x y : (⟨2, ![8192, 1024]⟩ : Shape).Idx → EReal) (Wx : (⟨2, ![1024, 512]⟩ : Shape).Idx → EReal)
    (bx : (⟨1, ![512]⟩ : Shape).Idx → EReal) (Wy : (⟨2, ![1024, 512]⟩ : Shape).Idx → EReal)
    (by' : (⟨1, ![512]⟩ : Shape).Idx → EReal) (Wg : (⟨2, ![512, 512]⟩ : Shape).Idx → EReal)
    (bg : (⟨1, ![512]⟩ : Shape).Idx → EReal)
    (P Q : (⟨2, ![8192, 512]⟩ : Shape).Idx → EReal) (d : (⟨2, ![8192, 1]⟩ : Shape).Idx → EReal)
    (e : (⟨2, ![1, 8192]⟩ : Shape).Idx → EReal) (Wg' : (⟨2, ![512, 512]⟩ : Shape).Idx → EReal)
    (bg' : (⟨1, ![512]⟩ : Shape).Idx → EReal)
    (hP : ∀ (i : Fin 8192) (k : Fin 512), P (ix2 i k) = Cert.Dice.lin x Wx bx i k)
    (hQ : ∀ (j : Fin 8192) (k : Fin 512), Q (ix2 j k) = Cert.Dice.lin y Wy by' j k)
    (hd : ∀ i : Fin 8192, d (ix2 i 0) = Cert.Dice.nrm (Cert.Dice.lin x Wx bx) i)
    (he : ∀ j : Fin 8192, e (ix2 0 j) = Cert.Dice.nrm (Cert.Dice.lin y Wy by') j)
    (hWg : Wg' = Wg) (hbg : bg' = bg) :
    (fun i : (⟨2, ![8192, 512]⟩ : Shape).Idx =>
      Cert.Dice.outRow (Cert.Dice.agg (fun i k => P (ix2 i k)) (fun j k => Q (ix2 j k)) (fun i => d (ix2 i 0))
        (fun j => e (ix2 0 j)) (i 0)) Wg' bg' (i 1))
      = Cert.Dice.G x y Wx bx Wy by' Wg bg := by
  subst hWg hbg
  have eP : (fun (i : Fin 8192) (k : Fin 512) => P (ix2 i k)) = Cert.Dice.lin x Wx bx :=
    funext fun i => funext fun k => hP i k
  have eQ : (fun (j : Fin 8192) (k : Fin 512) => Q (ix2 j k)) = Cert.Dice.lin y Wy by' :=
    funext fun j => funext fun k => hQ j k
  have ed : (fun i : Fin 8192 => d (ix2 i 0)) = Cert.Dice.nrm (Cert.Dice.lin x Wx bx) := funext hd
  have ee : (fun j : Fin 8192 => e (ix2 0 j)) = Cert.Dice.nrm (Cert.Dice.lin y Wy by') := funext he
  rw [eP, eQ, ed, ee]
  rfl

variable (m : (ℓ : Loc nD τ sig) → Buf (Elt Ideal) ℓ) (ρ : Dev nD → PrngReg) (c : Dev nD)

/-! ## A buffer the host lines do not write keeps its contents -/

theorem W1_of (b : Ref sig .tc) (h : b ∉ hostOps0_W) :
    W1 m ρ c (Proc.devRef .tc b) = W0 m ρ c (Proc.devRef .tc b) :=
  StableHlo.after_of_writes_sub hostOps0 _ hostOps0_writes h
theorem W4_of (b : Ref sig .tc) (h : b ∉ hostOps2_W) :
    W4 m ρ c (Proc.devRef .tc b) = W3 m ρ c (Proc.devRef .tc b) :=
  StableHlo.after_of_writes_sub hostOps2 _ hostOps2_writes h

/-! ## What the first projection finds on entry -/

theorem Vr1_arg0 : Vr1 m ρ c main_arg0 = (m ((c.tc : Thread nD τ).loc main_arg0)) :=
  W1_of m ρ c main_arg0 (by decide)
theorem Vr1_v0 : (Vr1 m ρ c main_v0 : S1024x512.Idx → EReal) = (m ((c.tc : Thread nD τ).loc main_arg2)) :=
  conv_v0 (W0 m ρ c)
theorem Vr1_arg3 : Vr1 m ρ c main_arg3 = (m ((c.tc : Thread nD τ).loc main_arg3)) :=
  W1_of m ρ c main_arg3 (by decide)

/-! ## What the second projection finds on entry -/

theorem Vr2_arg1 : Vr2 m ρ c main_arg1 = (m ((c.tc : Thread nD τ).loc main_arg1)) :=
  (W2_of_ne m ρ c main_arg1 (by decide)).trans (W1_of m ρ c main_arg1 (by decide))
theorem Vr2_v1 : (Vr2 m ρ c main_v1 : S1024x512.Idx → EReal) = (m ((c.tc : Thread nD τ).loc main_arg4)) :=
  (W2_of_ne m ρ c main_v1 (by decide)).trans (conv_v1 (W0 m ρ c))
theorem Vr2_arg5 : Vr2 m ρ c main_arg5 = (m ((c.tc : Thread nD τ).loc main_arg5)) :=
  (W2_of_ne m ρ c main_arg5 (by decide)).trans (W1_of m ρ c main_arg5 (by decide))

/-! ## What the aggregation finds on entry -/

/-- The x-projection, written by the first region. -/
theorem v3_0_eq : (Vr4 m ρ c main_v3_0 : S8192x512.Idx → EReal)
    = fun i => Cert.Dice.lin (m ((c.tc : Thread nD τ).loc main_arg0)) (m ((c.tc : Thread nD τ).loc main_arg2)) (m ((c.tc : Thread nD τ).loc main_arg3)) (i 0) (i 1) := by
  have h : (Vr4 m ρ c main_v3_0 : S8192x512.Idx → EReal) = (dat0 (F := Ideal) (Vr1 m ρ) c).arrAt 3 cfg0.N :=
    (W4_of m ρ c main_v3_0 (by decide)).trans ((W3_of_ne m ρ c main_v3_0 (by decide)).trans (W2_arr m ρ c 3))
  rw [h, lin_array0 (Vr1 m ρ) c, Vr1_arg0, Vr1_v0, Vr1_arg3]
  rfl

/-- The squared norms of the x-projection's rows, a column written by the first region. -/
theorem v3_1_eq : (Vr4 m ρ c main_v3_1 : S8192x1.Idx → EReal)
    = fun i => Cert.Dice.nrm (Cert.Dice.lin (m ((c.tc : Thread nD τ).loc main_arg0)) (m ((c.tc : Thread nD τ).loc main_arg2)) (m ((c.tc : Thread nD τ).loc main_arg3))) (i 0) := by
  have h : (Vr4 m ρ c main_v3_1 : S8192x1.Idx → EReal) = (dat0 (F := Ideal) (Vr1 m ρ) c).arrAt 4 cfg0.N :=
    (W4_of m ρ c main_v3_1 (by decide)).trans ((W3_of_ne m ρ c main_v3_1 (by decide)).trans (W2_arr m ρ c 4))
  rw [h, nrm_array0 (Vr1 m ρ) c, Vr1_arg0, Vr1_v0, Vr1_arg3]
  rfl

/-- The y-projection, written by the second region. -/
theorem v4_0_eq : (Vr4 m ρ c main_v4_0 : S8192x512.Idx → EReal)
    = fun i => Cert.Dice.lin (m ((c.tc : Thread nD τ).loc main_arg1)) (m ((c.tc : Thread nD τ).loc main_arg4)) (m ((c.tc : Thread nD τ).loc main_arg5)) (i 0) (i 1) := by
  have h : (Vr4 m ρ c main_v4_0 : S8192x512.Idx → EReal) = (dat1 (F := Ideal) (Vr2 m ρ) c).arrAt 3 cfg1.N :=
    (W4_of m ρ c main_v4_0 (by decide)).trans (W3_arr m ρ c 3)
  rw [h, lin_array1 (Vr2 m ρ) c, Vr2_arg1, Vr2_v1, Vr2_arg5]
  rfl

/-- The squared norms of the y-projection's rows, the second region's column. -/
theorem v4_1_eq : (W3 m ρ c (Proc.devRef .tc main_v4_1) : S8192x1.Idx → EReal)
    = fun i => Cert.Dice.nrm (Cert.Dice.lin (m ((c.tc : Thread nD τ).loc main_arg1)) (m ((c.tc : Thread nD τ).loc main_arg4)) (m ((c.tc : Thread nD τ).loc main_arg5))) (i 0) := by
  have h : (W3 m ρ c (Proc.devRef .tc main_v4_1) : S8192x1.Idx → EReal) = (dat1 (F := Ideal) (Vr2 m ρ) c).arrAt 4 cfg1.N :=
    W3_arr m ρ c 4
  rw [h, nrm_array1 (Vr2 m ρ) c, Vr2_arg1, Vr2_v1, Vr2_arg5]
  rfl

/-- The same squared norms as the row the host reshaped the column to. -/
theorem v5_at (j : Fin 8192) : (Vr4 m ρ c main_v5 : S1x8192.Idx → EReal) (ix2 0 j)
    = Cert.Dice.nrm (Cert.Dice.lin (m ((c.tc : Thread nD τ).loc main_arg1)) (m ((c.tc : Thread nD τ).loc main_arg4)) (m ((c.tc : Thread nD τ).loc main_arg5))) j :=
  (row_v5 (W3 m ρ c) j).trans (congrFun (v4_1_eq m ρ c) (ix2 j 0))

/-- The output layer's weight, converted on the host. -/
theorem v2_eq : (Vr4 m ρ c main_v2 : S512x512.Idx → EReal) = (m ((c.tc : Thread nD τ).loc main_arg6)) :=
  (W4_of m ρ c main_v2 (by decide)).trans ((W3_of_ne m ρ c main_v2 (by decide)).trans
    ((W2_of_ne m ρ c main_v2 (by decide)).trans (conv_v2 (W0 m ρ c))))

/-- The output layer's bias. -/
theorem arg7_eq : Vr4 m ρ c main_arg7 = (m ((c.tc : Thread nD τ).loc main_arg7)) :=
  (W4_of m ρ c main_arg7 (by decide)).trans ((W3_of_ne m ρ c main_arg7 (by decide)).trans
    ((W2_of_ne m ρ c main_arg7 (by decide)).trans (W1_of m ρ c main_arg7 (by decide))))

/-! ## The result array is the specification -/

theorem result_value :
    (dat2 (F := Ideal) (Vr4 m ρ) c).arrAt 6 cfg2.N
      = Cert.Dice.G (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) :=
  (out_array (Vr4 m ρ) c).trans
    (G_of_parts _ _ _ _ _ _ _ _ (Vr4 m ρ c main_v3_0) (Vr4 m ρ c main_v4_0) (Vr4 m ρ c main_v3_1) (Vr4 m ρ c main_v5)
      (Vr4 m ρ c main_v2) (Vr4 m ρ c main_arg7)
      (fun i k => congrFun (v3_0_eq m ρ c) (ix2 i k)) (fun j k => congrFun (v4_0_eq m ρ c) (ix2 j k))
      (fun i => congrFun (v3_1_eq m ρ c) (ix2 i 0)) (v5_at m ρ c) (v2_eq m ρ c) (arg7_eq m ρ c))

end Cert.KernelIdeal.HandValue

end
-- ==== Proof.Claims.lean ====
/-
  The algebraic claim: at the ideal instance, from memories that agree on the eight argument arrays, the kernel's
  program and the reference both run, leave their arguments unchanged, and end with the same result array — the
  specification's function G of the arguments: the kernel's by the composition of its three regions' values, the
  reference's by reading its operations one at a time.
-/
import proofs.«157034_j27058293964889_1_alg».proof.Defs
import proofs.«157034_j27058293964889_1_alg».proof.Proof.Gen.KernelIdeal
import proofs.«157034_j27058293964889_1_alg».proof.Proof.Gen.ReferenceIdeal
import proofs.«157034_j27058293964889_1_alg».proof.Proof.Gen.Pre_finite_inputs
import proofs.«157034_j27058293964889_1_alg».proof.Proof.Plumb
import proofs.«157034_j27058293964889_1_alg».proof.Proof.RefRun

noncomputable section

namespace Cert.Proof.DiceClaims

open Idealize.ShloMosaic Idealize.ShloMosaic.TcCoe Idealize.SL.Sem
open Cert.KernelIdeal Cert.KernelIdeal.Gen Cert.KernelIdeal.Hand Cert.KernelIdeal.HandValue

/-- Both programs end at the specification's function of the argument arrays. -/
theorem algebraic : Cert.algebraic_KernelIdeal_ReferenceIdeal := by
  intro m ρ m' ρ' _ hagree
  refine ⟨fun c => Cert.Dice.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c _ (mem_uc main_v6 (by decide))).trans ((W5_main_v6 m ρ c).trans (result_value m ρ c)),
        (h c _ (mem_uc main_arg0 (by decide))).trans (W5_main_arg0 m ρ c),
        (h c _ (mem_uc main_arg1 (by decide))).trans (W5_main_arg1 m ρ c),
        (h c _ (mem_uc main_arg2 (by decide))).trans (W5_main_arg2 m ρ c),
        (h c _ (mem_uc main_arg3 (by decide))).trans (W5_main_arg3 m ρ c),
        (h c _ (mem_uc main_arg4 (by decide))).trans (W5_main_arg4 m ρ c),
        (h c _ (mem_uc main_arg5 (by decide))).trans (W5_main_arg5 m ρ c),
        (h c _ (mem_uc main_arg6 (by decide))).trans (W5_main_arg6 m ρ c),
        (h c _ (mem_uc main_arg7 (by decide))).trans (W5_main_arg7 m ρ c)⟩)
      (Cert.KernelIdeal.Hand.run (F := Ideal) m ρ)
  · refine (θ_run Cert.ReferenceIdeal.defs _ _).mono (fun r h c => ⟨?_, (h c).2⟩) (Cert.Dice.Ref.run m' ρ')
    obtain ⟨e0, e1, e2, e3, e4, e5, e6, e7⟩ := hagree c
    refine (h c).1.trans ?_
    rw [e0, e1, e2, e3, e4, e5, e6, e7]

end Cert.Proof.DiceClaims

end
-- ==== Proof.lean ====
/-
  Two programs compute, for 8192 x-nodes and 8192 y-nodes with 1024 input features each, the projections
  P = x·Wx + bx and Q = y·Wy + by (512 features), the affinities 2·⟨P i, Q j⟩ / (|P i|² + |Q j|²), the aggregation
  G j = ∑ i, aff i j · P i over all x-nodes, and the output max(G·Wg + bg, 0).

  The kernel program does it in three tiled stages: each projection with its row norms block of 2048 rows by block, the
  y-norms column reshaped into a row on the host, and an aggregation over a 4 × 4 grid of (y-block, x-block) pairs that
  keeps one y-block's partial sums in an accumulator across the four x-blocks, clears it at the first and applies the
  output layer at the last. The reference does it with whole 8192 × 8192 matrices. On the extended reals, where every
  operation is exact and a change of float format is the identity, both are the one function `Cert.Dice.G` of the eight
  argument arrays: a finite sum in a commutative monoid does not depend on how it is grouped into four blocks, and no
  other law is needed, so the precondition is never opened.

  Each program runs to the end from any memory, faults nowhere and leaves its argument arrays as launched: the kernel
  program as the run of its five items over the several-regions launch (once for any float instance, read at the
  word-level instance and at the extended reals), the reference as its straight-line host run. The idealization changed
  no operation of the kernel program, so there is nothing to preserve.
-/
import proofs.«157034_j27058293964889_1_alg».proof.Defs
import proofs.«157034_j27058293964889_1_alg».proof.Proof.Gen.Kernel
import proofs.«157034_j27058293964889_1_alg».proof.Proof.Gen.KernelIdeal
import proofs.«157034_j27058293964889_1_alg».proof.Proof.Gen.ReferenceIdeal
import proofs.«157034_j27058293964889_1_alg».proof.Proof.Gen.Pre_finite_inputs
import proofs.«157034_j27058293964889_1_alg».proof.Proof.KRunK
import proofs.«157034_j27058293964889_1_alg».proof.Proof.RunK
import proofs.«157034_j27058293964889_1_alg».proof.Proof.RefRun
import proofs.«157034_j27058293964889_1_alg».proof.Proof.Claims
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame (F := Bits) m ρ
/-- The kernel program at the extended reals runs and keeps its arguments. -/
theorem frame_ki : Cert.frame_KernelIdeal := fun m ρ _ => Cert.KernelIdeal.Hand.frame (F := Ideal) m ρ
/-- The reference runs and keeps its arguments. -/
theorem frame_ri : Cert.frame_ReferenceIdeal := Cert.Dice.Ref.frame
/-- The idealization rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Proof.DiceClaims.algebraic⟩

end Cert.Proof

end
